-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x2048x8192 : Shape := ⟨4, ![1, 1, 2048, 8192]⟩
abbrev S8192x8192 : Shape := ⟨2, ![8192, 8192]⟩
abbrev S8192x1024 : Shape := ⟨2, ![8192, 1024]⟩
abbrev S_ : Shape := ⟨0, ![]⟩

class Facts : Prop where
  bcast_S_S1x1x2048x8192 : S_.BroadcastsInDim S1x1x2048x8192 (![] : Fin 0 → Fin S1x1x2048x8192.rank)
  reducesTo_S1x1x2048x8192_S_d0_1_2_3 : S1x1x2048x8192.ReducesTo [0, 1, 2, 3] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S1x1x2048x8192 .f32) (main_arg1 : FVec F S8192x8192 .f32) (main_arg2 : FVec F S8192x1024 .f32) (main_arg3 : FVec F S8192x1024 .f32) : IVec S_ 1 :=
  let main_v0 : FVec F S1x1x2048x8192 .f32 := Host.absf main_arg0
  let main_cst : FVec F S_ .f32 := constant S_ .f32 0x7F800000#32
  let main_v1 : FVec F S1x1x2048x8192 .f32 := broadcastInDim S1x1x2048x8192 ![] bcast_S_S1x1x2048x8192 main_cst
  let main_v2 : IVec S1x1x2048x8192 1 := cmpf .olt main_v0 main_v1
  let main_c : IVec S_ 1 := constantI S_ 1 1#1
  let main_v3 : IVec S_ 1 := (fun x v => Host.reduce IntOp.andi x v reducesTo_S1x1x2048x8192_S_d0_1_2_3 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Kernel.lean ====
abbrev S1x1x2048x8192 : Shape := ⟨4, ![1, 1, 2048, 8192]⟩
abbrev S8192x8192 : Shape := ⟨2, ![8192, 8192]⟩
abbrev S8192x1024 : Shape := ⟨2, ![8192, 1024]⟩
abbrev S2048x8192 : Shape := ⟨2, ![2048, 8192]⟩
abbrev S64x2048x128 : Shape := ⟨3, ![64, 2048, 128]⟩
abbrev S2048x256 : Shape := ⟨2, ![2048, 256]⟩
abbrev S256x512 : Shape := ⟨2, ![256, 512]⟩
abbrev S4x2048x128 : Shape := ⟨3, ![4, 2048, 128]⟩
abbrev S2048x512 : Shape := ⟨2, ![2048, 512]⟩
abbrev S2048x4x128 : Shape := ⟨3, ![2048, 4, 128]⟩
abbrev S8x2048x128 : Shape := ⟨3, ![8, 2048, 128]⟩
abbrev S1x64x2048x128 : Shape := ⟨4, ![1, 64, 2048, 128]⟩
abbrev S1x8x2048x128 : Shape := ⟨4, ![1, 8, 2048, 128]⟩

abbrev nBuf : Space → Nat
  | .hbm => 12
  | .vmem => 21
  | .smem => 0
  | _ => 0

abbrev bufTy : (tb : Table) → Fin (tcTables nBuf tb) → BufTy
  | .hbm, ⟨0, _⟩ => ⟨S1x1x2048x8192, .f32⟩
  | .hbm, ⟨1, _⟩ => ⟨S8192x8192, .f32⟩
  | .hbm, ⟨2, _⟩ => ⟨S8192x1024, .f32⟩
  | .hbm, ⟨3, _⟩ => ⟨S8192x1024, .f32⟩
  | .hbm, ⟨4, _⟩ => ⟨S2048x8192, .f32⟩
  | .hbm, ⟨5, _⟩ => ⟨S2048x8192, .bf16⟩
  | .hbm, ⟨6, _⟩ => ⟨S64x2048x128, .f32⟩
  | .hbm, ⟨7, _⟩ => ⟨S8x2048x128, .f32⟩
  | .hbm, ⟨8, _⟩ => ⟨S8x2048x128, .f32⟩
  | .hbm, ⟨9, _⟩ => ⟨S1x64x2048x128, .f32⟩
  | .hbm, ⟨10, _⟩ => ⟨S1x8x2048x128, .f32⟩
  | .hbm, ⟨11, _⟩ => ⟨S1x8x2048x128, .f32⟩
  | .local _ .vmem, ⟨0, _⟩ => ⟨S2048x256, .bf16⟩
  | .local _ .vmem, ⟨1, _⟩ => ⟨S2048x256, .bf16⟩
  | .local _ .vmem, ⟨2, _⟩ => ⟨S256x512, .f32⟩
  | .local _ .vmem, ⟨3, _⟩ => ⟨S256x512, .f32⟩
  | .local _ .vmem, ⟨4, _⟩ => ⟨S4x2048x128, .f32⟩
  | .local _ .vmem, ⟨5, _⟩ => ⟨S4x2048x128, .f32⟩
  | .local _ .vmem, ⟨6, _⟩ => ⟨S2048x512, .f32⟩
  | .local _ .vmem, ⟨7, _⟩ => ⟨S2048x256, .bf16⟩
  | .local _ .vmem, ⟨8, _⟩ => ⟨S2048x256, .bf16⟩
  | .local _ .vmem, ⟨9, _⟩ => ⟨S256x512, .f32⟩
  | .local _ .vmem, ⟨10, _⟩ => ⟨S256x512, .f32⟩
  | .local _ .vmem, ⟨11, _⟩ => ⟨S4x2048x128, .f32⟩
  | .local _ .vmem, ⟨12, _⟩ => ⟨S4x2048x128, .f32⟩
  | .local _ .vmem, ⟨13, _⟩ => ⟨S2048x512, .f32⟩
  | .local _ .vmem, ⟨14, _⟩ => ⟨S2048x256, .bf16⟩
  | .local _ .vmem, ⟨15, _⟩ => ⟨S2048x256, .bf16⟩
  | .local _ .vmem, ⟨16, _⟩ => ⟨S256x512, .f32⟩
  | .local _ .vmem, ⟨17, _⟩ => ⟨S256x512, .f32⟩
  | .local _ .vmem, ⟨18, _⟩ => ⟨S4x2048x128, .f32⟩
  | .local _ .vmem, ⟨19, _⟩ => ⟨S4x2048x128, .f32⟩
  | .local _ .vmem, ⟨20, _⟩ => ⟨S2048x512, .f32⟩
  | _, _ => ⟨S1x1x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![1, 16, 32], ![false, false, false]⟩

def k0_cond2 (i : grid0.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 32], ![false, false, false]⟩

def k1_cond2 (i : grid1.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S4x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 32], ![false, false, false]⟩

def k2_cond2 (i : grid2.Coords) : BitVec 1 :=
  let arg2 : BitVec 32 := BitVec.ofNat 32 (i 2).val
  let c31_i32 : BitVec 32 := 31#32
  let v13 : BitVec 1 := Scalar.cmpi .eq arg2 c31_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S4x2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  shapeCasts_S1x1x2048x8192_S2048x8192 : S1x1x2048x8192.ShapeCasts S2048x8192
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x512_S256x512_0_0 : ∀ a, (![0, 0] : Fin 2 → Nat) a + S256x512.size a ≤ S256x512.size a
  h_S256x512 : 0 < S256x512.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S2048x512_S2048x4x128 : S2048x512.ShapeCasts S2048x4x128
  transposes_S2048x4x128_p1_0_2_S4x2048x128 : S2048x4x128.Transposes [1, 0, 2] S4x2048x128
  inb_S4x2048x128_S4x2048x128_0_0_0 : ∀ a, (![0, 0, 0] : Fin 3 → Nat) a + S4x2048x128.size a ≤ S4x2048x128.size a
  h_S4x2048x128 : 0 < S4x2048x128.numel
  shapeCasts_S64x2048x128_S1x64x2048x128 : S64x2048x128.ShapeCasts S1x64x2048x128
  shapeCasts_S8x2048x128_S1x8x2048x128 : S8x2048x128.ShapeCasts S1x8x2048x128
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x8192.size a
  hwx0_0 : ∀ i : grid0.Coords, EltTy.bits .bf16 = 32 ∨ (Rect.block (s := S2048x8192) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x8192.size a
  hwx0_1 : ∀ i : grid0.Coords, EltTy.bits .f32 = 32 ∨ (Rect.block (s := S8192x8192) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048x128.size a ≤ S64x2048x128.size a
  hwx0_2 : ∀ i : grid0.Coords, EltTy.bits .f32 = 32 ∨ (Rect.block (s := S64x2048x128) S4x2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S2048x8192.size a
  hwx1_0 : ∀ i : grid1.Coords, EltTy.bits .bf16 = 32 ∨ (Rect.block (s := S2048x8192) S2048x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S8192x1024.size a
  hwx1_1 : ∀ i : grid1.Coords, EltTy.bits .f32 = 32 ∨ (Rect.block (s := S8192x1024) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x2048x128.size a ≤ S8x2048x128.size a
  hwx1_2 : ∀ i : grid1.Coords, EltTy.bits .f32 = 32 ∨ (Rect.block (s := S8x2048x128) S4x2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x8192.size a
  hwx2_0 : ∀ i : grid2.Coords, EltTy.bits .bf16 = 32 ∨ (Rect.block (s := S2048x8192) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S8192x1024.size a
  hwx2_1 : ∀ i : grid2.Coords, EltTy.bits .f32 = 32 ∨ (Rect.block (s := S8192x1024) S256x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x2048x128.size a ≤ S8x2048x128.size a
  hwx2_2 : ∀ i : grid2.Coords, EltTy.bits .f32 = 32 ∨ (Rect.block (s := S8x2048x128) S4x2048x128.size (cc2_transform_2 i) (hinb2_2 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4x2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S4x2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1x1x2048x8192 : Shape := ⟨4, ![1, 1, 2048, 8192]⟩
abbrev S8192x8192 : Shape := ⟨2, ![8192, 8192]⟩
abbrev S8192x1024 : Shape := ⟨2, ![8192, 1024]⟩
abbrev S8192x10240 : Shape := ⟨2, ![8192, 10240]⟩
abbrev S1x1x2048x10240 : Shape := ⟨4, ![1, 1, 2048, 10240]⟩
abbrev S1x1x2048x1024 : Shape := ⟨4, ![1, 1, 2048, 1024]⟩
abbrev S1x2048x64x128 : Shape := ⟨4, ![1, 2048, 64, 128]⟩
abbrev S1x64x2048x128 : Shape := ⟨4, ![1, 64, 2048, 128]⟩
abbrev S1x2048x8x128 : Shape := ⟨4, ![1, 2048, 8, 128]⟩
abbrev S1x8x2048x128 : Shape := ⟨4, ![1, 8, 2048, 128]⟩

abbrev nBuf : Space → Nat
  | .hbm => 15
  | .vmem => 0
  | .smem => 0
  | _ => 0

abbrev bufTy : (tb : Table) → Fin (tcTables nBuf tb) → BufTy
  | .hbm, ⟨0, _⟩ => ⟨S1x1x2048x8192, .f32⟩
  | .hbm, ⟨1, _⟩ => ⟨S8192x8192, .f32⟩
  | .hbm, ⟨2, _⟩ => ⟨S8192x1024, .f32⟩
  | .hbm, ⟨3, _⟩ => ⟨S8192x1024, .f32⟩
  | .hbm, ⟨4, _⟩ => ⟨S8192x10240, .f32⟩
  | .hbm, ⟨5, _⟩ => ⟨S1x1x2048x10240, .f32⟩
  | .hbm, ⟨6, _⟩ => ⟨S1x1x2048x8192, .f32⟩
  | .hbm, ⟨7, _⟩ => ⟨S1x1x2048x1024, .f32⟩
  | .hbm, ⟨8, _⟩ => ⟨S1x1x2048x1024, .f32⟩
  | .hbm, ⟨9, _⟩ => ⟨S1x2048x64x128, .f32⟩
  | .hbm, ⟨10, _⟩ => ⟨S1x64x2048x128, .f32⟩
  | .hbm, ⟨11, _⟩ => ⟨S1x2048x8x128, .f32⟩
  | .hbm, ⟨12, _⟩ => ⟨S1x8x2048x128, .f32⟩
  | .hbm, ⟨13, _⟩ => ⟨S1x2048x8x128, .f32⟩
  | .hbm, ⟨14, _⟩ => ⟨S1x8x2048x128, .f32⟩
  | _, _ => ⟨S1x1x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  concatenates_S8192x8192_S8192x1024_S8192x1024_S8192x10240_d1 : Shape.Concatenates [S8192x8192, S8192x1024, S8192x1024] S8192x10240 1
  slices_S1x1x2048x10240_S1x1x2048x8192_0_0_0_0 : S1x1x2048x10240.Slices ![0, 0, 0, 0] S1x1x2048x8192
  slices_S1x1x2048x10240_S1x1x2048x1024_0_0_0_8192 : S1x1x2048x10240.Slices ![0, 0, 0, 8192] S1x1x2048x1024
  slices_S1x1x2048x10240_S1x1x2048x1024_0_0_0_9216 : S1x1x2048x10240.Slices ![0, 0, 0, 9216] S1x1x2048x1024
  shapeCasts_S1x1x2048x8192_S1x2048x64x128 : S1x1x2048x8192.ShapeCasts S1x2048x64x128
  transposes_S1x2048x64x128_S1x64x2048x128_0_2_1_3 : S1x2048x64x128.Transposes [0, 2, 1, 3] S1x64x2048x128
  shapeCasts_S1x1x2048x1024_S1x2048x8x128 : S1x1x2048x1024.ShapeCasts S1x2048x8x128
  transposes_S1x2048x8x128_S1x8x2048x128_0_2_1_3 : S1x2048x8x128.Transposes [0, 2, 1, 3] S1x8x2048x128
  dot_S1x1x2048x8192_S8192x10240_S1x1x2048x10240_3_0_012_1_n_n_wf : DotDims.WF S1x1x2048x8192 S8192x10240 S1x1x2048x10240 [3] [0] [0, 1, 2] [1] [] []

variable [Facts₀]

def dot_S1x1x2048x8192_S8192x10240_S1x1x2048x10240_3_0_012_1_n_n : DotDims S1x1x2048x8192 S8192x10240 S1x1x2048x10240 where
  lhsContracting := [3]
  rhsContracting := [0]
  lhsNonContracting := [0, 1, 2]
  rhsNonContracting := [1]
  lhsBatch := []
  rhsBatch := []
  wf := dot_S1x1x2048x8192_S8192x10240_S1x1x2048x10240_3_0_012_1_n_n_wf

class Facts : Prop extends Facts₀ where

variable [Facts]
-- ==== Proof.KB.Base0.lean ====
/-
  Projection call 0 of the program, seen from one TensorCore: the vocabulary its frame is stated in.

  The call walks a grid of 512 points (16 column tiles of 512 columns, and for each of them 32 steps along the
  contracted axis, the contraction step running fastest). At a point the pipeline hands the body a block of the
  activations (2048 x 256), a block of the weights (256 x 512), the staging buffer of the output block (4 heads x 2048 x 128)
  and the accumulator (2048 x 512), which is the call's own buffer and survives from one point to the next.
  The body zero-fills the accumulator at contraction step 0, adds the block product at every step, and at contraction
  step 31 writes the accumulator, re-laid head by head, into the output block. So a point is in one of three
  situations, told apart by its position modulo 32: first step (0), middle step (1..30), last step (31). The output
  block is untouched, and not written back, except at a last step.
-/
import proofs.«155036_j80436147519617_2_alg».proof.Proof.Gen.Kernel.Launch
import proofs.«155036_j80436147519617_2_alg».proof.Proof.Gen.Kernel.Skeleton
import proofs.«155036_j80436147519617_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered: everything below is stated at this parameter
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of the activations whenever the body is handed it:
    the window is an input, never idle, and its blocks tile the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two tests of the body, as functions of the grid point -/

/-- "This is contraction step 0": the body's first test, with its scalar chain written out. -/
abbrev cond0_0 (i : grid0.Coords) : Prop := (Scalar.cmpi .ne (Scalar.extui (Scalar.cmpi .eq (BitVec.ofNat 32 (i 2).val) 0#32)) 0#32) = 1#1
/-- It holds exactly at the points whose position is 0 modulo 32 (the contraction axis runs fastest and has 32 steps). -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is contraction step 31": the body's second test. -/
abbrev cond0_1 (i : grid0.Coords) : Prop := k0_cond2 i = 1#1
/-- It holds exactly at the points whose position is 31 modulo 32. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from a last step the output window is idle (the body stores nothing into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a last step the output window is live. -/
theorem liveAt0_2 : ∀ t : Fin cfg0.N, cond0_1 (grid0.coords t) → cfg0.idle 2 (grid0.coords t) = false := by decide +kernel

/-! ## The memrefs the body is called with -/

/-- One staging buffer of the output window, through which its contents are stated (the choice does not matter). -/
abbrev VO0_2 : View sig .tc .vmem S4x2048x128 .f32 := (Memref.whole cc0_stg2_0 : Memref sig .tc .vmem S4x2048x128 .f32).view
/-- Each window's current staging memref at point `t`, spelled as the pipeline passes it, and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2048x128 .f32 := win0_2.stage (cfg0.slots t 2)
abbrev hs0_2 (t : Fin cfg0.N) : (ms0_2 t).IsWhole := hstage0_2 ((cfg0.slots t 2).cast nbuf0_2)
/-- The accumulator: a whole buffer of the call's own, passed beside the windows. -/
abbrev scM0_0 : Memref sig .tc .vmem S2048x512 .f32 := Memref.whole cc0_scratch0
/-- The accumulator as a view: what it holds is stated through it. -/
abbrev VS0_0 : View sig .tc .vmem S2048x512 .f32 := scM0_0.view

/-- Every scoped buffer of the core other than this call's staging buffers and its accumulator, each at some contents:
    the other two calls' staging buffers and accumulators. They ride along unopened. -/
abbrev restS0 (c : Dev nD) : sProp 𝕄 :=
  Pipeline.scopedRestBut (Ix := Unit) (Name := ℕ) (U := UR sig nD τ) (Lvl := ℕ) (Val := Elt F) spec0 c [cc0_scratch0]

/-- What the call's invariant is before its first point, with the accumulator singled out: the accumulator at some
    contents, the other scoped buffers, the generator register at some state. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA
  rw [Pipeline.scopedRest_split_of_list (win := spec0) (c := c) [cc0_scratch0] (by decide) (by decide)]
  simp only [bigSepL, scM0_0, owns_whole, BI.sep_emp]
  try rfl

end Cert.Kernel.Fr

end
-- ==== Proof.KB.RunA0.lean ====
/-
  The body of projection call 0 run at a first contraction step (the accumulator is zero-filled, then the block product is added).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KB.Base0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun0_A (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond0_0 i) (hc1 : ¬cond0_1 i)
    (x0 : Vec F S2048x256 .bf16) (x1 : Vec F S256x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨[], ?_, fun xi2 E K => ?run⟩
  case run =>
    simp only [cc0__qkv_proj_kernel_eq_skeleton]; unfold cc0__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.RunB0.lean ====
/-
  The body of projection call 0 run at a middle contraction step (the block product is added to what the step before left).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KB.RunA0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun0_B (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : ¬cond0_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨[], ?_, fun xi2 E K => ?run⟩
  case run =>
    simp only [cc0__qkv_proj_kernel_eq_skeleton]; unfold cc0__qkv_proj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.RunC0.lean ====
/-
  The body of projection call 0 run at a last contraction step (the block product is added, and the accumulator is written, re-laid head by head, into the output block).
  The run is symbolic: on whole staging memrefs holding the two input blocks, the body executes to its end without a
  fault, gives the input blocks back as it found them, and leaves in the accumulator and in the output block a list of stored
  pieces (here each store covers its whole buffer), which the run itself finds.
-/
import proofs.«155036_j80436147519617_2_alg».proof.Proof.KB.RunB0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun0_C (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨?_, ?_, fun E K => ?run⟩
  case run =>
    simp only [cc0__qkv_proj_kernel_eq_skeleton]; unfold cc0__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.KB.Frame0.lean ====
/-
  Projection call 0: what its buffers hold point by point, and that the body keeps the bargain the pipeline asks of it.

  Write t = 32 j + k for a grid point (j the column tile, k the contraction step). After the body at t the
  accumulator holds
      acc(t) = (0 if k = 0 else acc(t-1)) + x-block(t) · w-block(t),
  a recursion along the grid that restarts at every k = 0; the output block's staging buffer holds, at k = 31, the
  accumulator re-laid head by head, and is left alone otherwise. The invariant that travels from one point to the
  next says exactly which array the accumulator holds; the other scoped buffers and the generator register ride along.
  The body obligation is then one symbolic run per situation (first, middle, last step).
-/
import proofs.«155036_j80436147519617_2_alg».proof.Proof.KB.RunC0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves, as the stores of its run read back -/

/-- The accumulator after a first step: the run's stores into it read back. -/
theorem scover0_A_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond0_0 i) (hc1 : ¬cond0_1 i)
    (x0 : Vec F S2048x256 .bf16) (x1 : Vec F S256x512 .f32) (y : S2048x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S2048x512.size (by sl_kernel_rfl) y
def sout0_A_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond0_0 i) (hc1 : ¬cond0_1 i)
    (x0 : Vec F S2048x256 .bf16) (x1 : Vec F S256x512 .f32) : Vec F S2048x512 .f32 :=
  VS0_0.read (Elt F) (VS0_0.writes (Elt F) VS0_0.junk (kernelRun0_A c i arg3 harg3 arg4 harg4 arg5 harg5 arg6 harg6 hc0 hc1 x0 x1).2.1)

/-- The accumulator after a middle step, over what the step before left (`xs0`). -/
theorem scover0_B_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : ¬cond0_1 i)
    (x0 : Vec F S2048x256 .bf16) (x1 : Vec F S256x512 .f32) (xs0 : Vec F S2048x512 .f32) (y : S2048x512.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S2048x512.size (by sl_kernel_rfl) y
def sout0_B_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : ¬cond0_1 i)
    (x0 : Vec F S2048x256 .bf16) (x1 : Vec F S256x512 .f32) (xs0 : Vec F S2048x512 .f32) : Vec F S2048x512 .f32 :=
  VS0_0.read (Elt F) (VS0_0.writes (Elt F) VS0_0.junk (kernelRun0_B c i arg3 harg3 arg4 harg4 arg5 harg5 arg6 harg6 hc0 hc1 x0 x1 xs0).2.1)

/-- The output block and the accumulator after a last step. -/
theorem cover0_C_2 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) (y : S4x2048x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S4x2048x128.size (by sl_kernel_rfl) y
def out0_C_2 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) : Vec F S4x2048x128 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) (y : S2048x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S2048x512.size (by sl_kernel_rfl) y
def sout0_C_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) : Vec F S2048x512 .f32 :=
  VS0_0.read (Elt F) (VS0_0.writes (Elt F) VS0_0.junk (kernelRun0_C c i arg3 harg3 arg4 harg4 arg5 harg5 arg6 harg6 hc0 hc1 x0 x1 xs0).2.1)

/-- What stands for the output block's buffer at a point that does not store into it: nothing consults it (the window
    is idle there and not written back). -/
def idle0_2 : Vec F S4x2048x128 .f32 := VO0_2.read (Elt F) VO0_2.junk

section
variable (V : (c : Dev nD) → (b : Ref sig .tc) → Buf (Elt F) ((c : Thread nD τ).loc b))

/-! ## Point by point -/

/-- THE ACCUMULATION. The output block's staging buffer and the accumulator after the body at position `n`: the
    situation is read off `n` modulo 32; a middle or last step continues from what position `n - 1` left in the accumulator. -/
def outsAt0 (c : Dev nD) : (n : ℕ) → n < cfg0.N → Vec F S4x2048x128 .f32 × Vec F S2048x512 .f32
  | 0, hn => (idle0_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (idle0_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idle0_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first step. -/
theorem outsAt0_A (c : Dev nD) (t : Fin cfg0.N) (h0 : t.val % 32 = 0) (h1 : ¬t.val % 32 = 31) :
    outsAt0 V c t.val t.isLt = (idle0_2, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step, over what the point before left. -/
theorem outsAt0_B (c : Dev nD) (t : Fin cfg0.N) (h0 : ¬t.val % 32 = 0) (h1 : ¬t.val % 32 = 31) :
    outsAt0 V c t.val t.isLt = (idle0_2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the call's entry the accumulator holds anything; afterwards it holds what position
    `n - 1` left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The proof data of the call's pipeline -/

/-- The arrays as the call finds them; after the body at a point each input's buffer still at its block, the output's
    at `outsAt`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position modulo 32 says which situation the
    point is in; the invariant hands the body the accumulator at what the point before left (at anything at the very
    first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 32 = 31
  · have h0 : ¬ t.val % 32 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_2 sout0_C_0; (try dsimp only)
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 32 = 0
    · rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun e => h0 (by rw [e])
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry form back: which array the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 512 := N_0; omega)

end

end Cert.Kernel.Fr

end
-- ==== Proof.KB.Base1.lean ====
/-
  Projection call 1 of the program, seen from one TensorCore: the vocabulary its frame is stated in.

  The call walks a grid of 64 points (2 column tiles of 512 columns, and for each of them 32 steps along the
  contracted axis, the contraction step running fastest). At a point the pipeline hands the body a block of the
  activations (2048 x 256), a block of the weights (256 x 512), the staging buffer of the output block (4 heads x 2048 x 128)
  and the accumulator (2048 x 512), which is the call's own buffer and survives from one point to the next.
  The body zero-fills the accumulator at contraction step 0, adds the block product at every step, and at contraction
  step 31 writes the accumulator, re-laid head by head, into the output block. So a point is in one of three
  situations, told apart by its position modulo 32: first step (0), middle step (1..30), last step (31). The output
  block is untouched, and not written back, except at a last step.
-/
import proofs.«155036_j80436147519617_2_alg».proof.Proof.Gen.Kernel.Launch
import proofs.«155036_j80436147519617_2_alg».proof.Proof.Gen.Kernel.Skeleton
import proofs.«155036_j80436147519617_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered: everything below is stated at this parameter
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block of the activations whenever the body is handed it:
    the window is an input, never idle, and its blocks tile the array. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weights' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two tests of the body, as functions of the grid point -/

/-- "This is contraction step 0": the body's first test, with its scalar chain written out. -/
abbrev cond1_0 (i : grid1.Coords) : Prop := (Scalar.cmpi .ne (Scalar.extui (Scalar.cmpi .eq (BitVec.ofNat 32 (i 2).val) 0#32)) 0#32) = 1#1
/-- It holds exactly at the points whose position is 0 modulo 32 (the contraction axis runs fastest and has 32 steps). -/
theorem hcond1_0 : ∀ t : Fin cfg1.N, cond1_0 (grid1.coords t) ↔ t.val % 32 = 0 :=
  (by decide +kernel : ∀ t : Fin grid1.N, cond1_0 (grid1.coords t) ↔ t.val % 32 = 0)

/-- "This is contraction step 31": the body's second test. -/
abbrev cond1_1 (i : grid1.Coords) : Prop := k1_cond2 i = 1#1
/-- It holds exactly at the points whose position is 31 modulo 32. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from a last step the output window is idle (the body stores nothing into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At a last step the output window is live. -/
theorem liveAt1_2 : ∀ t : Fin cfg1.N, cond1_1 (grid1.coords t) → cfg1.idle 2 (grid1.coords t) = false := by decide +kernel

/-! ## The memrefs the body is called with -/

/-- One staging buffer of the output window, through which its contents are stated (the choice does not matter). -/
abbrev VO1_2 : View sig .tc .vmem S4x2048x128 .f32 := (Memref.whole cc1_stg2_0 : Memref sig .tc .vmem S4x2048x128 .f32).view
/-- Each window's current staging memref at point `t`, spelled as the pipeline passes it, and its wholeness. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x2048x128 .f32 := win1_2.stage (cfg1.slots t 2)
abbrev hs1_2 (t : Fin cfg1.N) : (ms1_2 t).IsWhole := hstage1_2 ((cfg1.slots t 2).cast nbuf1_2)
/-- The accumulator: a whole buffer of the call's own, passed beside the windows. -/
abbrev scM1_0 : Memref sig .tc .vmem S2048x512 .f32 := Memref.whole cc1_scratch0
/-- The accumulator as a view: what it holds is stated through it. -/
abbrev VS1_0 : View sig .tc .vmem S2048x512 .f32 := scM1_0.view

/-- Every scoped buffer of the core other than this call's staging buffers and its accumulator, each at some contents:
    the other two calls' staging buffers and accumulators. They ride along unopened. -/
abbrev restS1 (c : Dev nD) : sProp 𝕄 :=
  Pipeline.scopedRestBut (Ix := Unit) (Name := ℕ) (U := UR sig nD τ) (Lvl := ℕ) (Val := Elt F) spec1 c [cc1_scratch0]

/-- What the call's invariant is before its first point, with the accumulator singled out: the accumulator at some
    contents, the other scoped buffers, the generator register at some state. -/
theorem PhiA1_eq (c : Dev nD) :
    (Pipeline.ΦA spec1 c : sProp 𝕄)
      = iprop(iprop((∃ d, owns (c : Thread nD τ) scM1_0 fullShare d) ∗ restS1 c) ∗ (∃ r, prngReg c r)) := by
  unfold Pipeline.ΦA
  rw [Pipeline.scopedRest_split_of_list (win := spec1) (c := c) [cc1_scratch0] (by decide) (by decide)]
  simp only [bigSepL, scM1_0, owns_whole, BI.sep_emp]
  try rfl

end Cert.Kernel.Fr

end
-- ==== Proof.KB.RunA1.lean ====
/-
  The body of projection call 1 run at a first contraction step (the accumulator is zero-filled, then the block product is added).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KB.Base1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun1_A (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond1_0 i) (hc1 : ¬cond1_1 i)
    (x0 : Vec F S2048x256 .bf16) (x1 : Vec F S256x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__qkv_proj_kernel i arg3 harg3 arg4 harg4 arg5 harg5 arg6 harg6) K } := by
  refine ⟨[], ?_, fun xi2 E K => ?run⟩
  case run =>
    simp only [cc1__qkv_proj_kernel_eq_skeleton]; unfold cc1__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.RunB1.lean ====
/-
  The body of projection call 1 run at a middle contraction step (the block product is added to what the step before left).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KB.RunA1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun1_B (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : ¬cond1_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__qkv_proj_kernel i arg3 harg3 arg4 harg4 arg5 harg5 arg6 harg6) K } := by
  refine ⟨[], ?_, fun xi2 E K => ?run⟩
  case run =>
    simp only [cc1__qkv_proj_kernel_eq_skeleton]; unfold cc1__qkv_proj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.RunC1.lean ====
/-
  The body of projection call 1 run at a last contraction step (the block product is added, and the accumulator is written, re-laid head by head, into the output block).
  The run is symbolic: on whole staging memrefs holding the two input blocks, the body executes to its end without a
  fault, gives the input blocks back as it found them, and leaves in the accumulator and in the output block a list of stored
  pieces (here each store covers its whole buffer), which the run itself finds.
-/
import proofs.«155036_j80436147519617_2_alg».proof.Proof.KB.RunB1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun1_C (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__qkv_proj_kernel i arg3 harg3 arg4 harg4 arg5 harg5 arg6 harg6) K } := by
  refine ⟨?_, ?_, fun E K => ?run⟩
  case run =>
    simp only [cc1__qkv_proj_kernel_eq_skeleton]; unfold cc1__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.KB.Frame1.lean ====
/-
  Projection call 1: what its buffers hold point by point, and that the body keeps the bargain the pipeline asks of it.

  Write t = 32 j + k for a grid point (j the column tile, k the contraction step). After the body at t the
  accumulator holds
      acc(t) = (0 if k = 0 else acc(t-1)) + x-block(t) · w-block(t),
  a recursion along the grid that restarts at every k = 0; the output block's staging buffer holds, at k = 31, the
  accumulator re-laid head by head, and is left alone otherwise. The invariant that travels from one point to the
  next says exactly which array the accumulator holds; the other scoped buffers and the generator register ride along.
  The body obligation is then one symbolic run per situation (first, middle, last step).
-/
import proofs.«155036_j80436147519617_2_alg».proof.Proof.KB.RunC1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves, as the stores of its run read back -/

/-- The accumulator after a first step: the run's stores into it read back. -/
theorem scover1_A_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond1_0 i) (hc1 : ¬cond1_1 i)
    (x0 : Vec F S2048x256 .bf16) (x1 : Vec F S256x512 .f32) (y : S2048x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S2048x512.size (by sl_kernel_rfl) y
def sout1_A_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond1_0 i) (hc1 : ¬cond1_1 i)
    (x0 : Vec F S2048x256 .bf16) (x1 : Vec F S256x512 .f32) : Vec F S2048x512 .f32 :=
  VS1_0.read (Elt F) (VS1_0.writes (Elt F) VS1_0.junk (kernelRun1_A c i arg3 harg3 arg4 harg4 arg5 harg5 arg6 harg6 hc0 hc1 x0 x1).2.1)

/-- The accumulator after a middle step, over what the step before left (`xs0`). -/
theorem scover1_B_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : ¬cond1_1 i)
    (x0 : Vec F S2048x256 .bf16) (x1 : Vec F S256x512 .f32) (xs0 : Vec F S2048x512 .f32) (y : S2048x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S2048x512.size (by sl_kernel_rfl) y
def sout1_B_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : ¬cond1_1 i)
    (x0 : Vec F S2048x256 .bf16) (x1 : Vec F S256x512 .f32) (xs0 : Vec F S2048x512 .f32) : Vec F S2048x512 .f32 :=
  VS1_0.read (Elt F) (VS1_0.writes (Elt F) VS1_0.junk (kernelRun1_B c i arg3 harg3 arg4 harg4 arg5 harg5 arg6 harg6 hc0 hc1 x0 x1 xs0).2.1)

/-- The output block and the accumulator after a last step. -/
theorem cover1_C_2 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) (y : S4x2048x128.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S4x2048x128.size (by sl_kernel_rfl) y
def out1_C_2 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) : Vec F S4x2048x128 .f32 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) (y : S2048x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S2048x512.size (by sl_kernel_rfl) y
def sout1_C_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) : Vec F S2048x512 .f32 :=
  VS1_0.read (Elt F) (VS1_0.writes (Elt F) VS1_0.junk (kernelRun1_C c i arg3 harg3 arg4 harg4 arg5 harg5 arg6 harg6 hc0 hc1 x0 x1 xs0).2.1)

/-- What stands for the output block's buffer at a point that does not store into it: nothing consults it (the window
    is idle there and not written back). -/
def idle1_2 : Vec F S4x2048x128 .f32 := VO1_2.read (Elt F) VO1_2.junk

section
variable (V : (c : Dev nD) → (b : Ref sig .tc) → Buf (Elt F) ((c : Thread nD τ).loc b))

/-! ## Point by point -/

/-- THE ACCUMULATION. The output block's staging buffer and the accumulator after the body at position `n`: the
    situation is read off `n` modulo 32; a middle or last step continues from what position `n - 1` left in the accumulator. -/
def outsAt1 (c : Dev nD) : (n : ℕ) → n < cfg1.N → Vec F S4x2048x128 .f32 × Vec F S2048x512 .f32
  | 0, hn => (idle1_2, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by omega)
      else
        (idle1_2, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idle1_2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first step. -/
theorem outsAt1_A (c : Dev nD) (t : Fin cfg1.N) (h0 : t.val % 32 = 0) (h1 : ¬t.val % 32 = 31) :
    outsAt1 V c t.val t.isLt = (idle1_2, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle step, over what the point before left. -/
theorem outsAt1_B (c : Dev nD) (t : Fin cfg1.N) (h0 : ¬t.val % 32 = 0) (h1 : ¬t.val % 32 = 31) :
    outsAt1 V c t.val t.isLt = (idle1_2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the call's entry the accumulator holds anything; afterwards it holds what position
    `n - 1` left. The other scoped buffers and the generator register ride along. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 c) ∗ (∃ r, prngReg c r)) := by
  cases n with
  | zero => exact absurd rfl hz
  | succ n => rfl

/-! ## The proof data of the call's pipeline -/

/-- The arrays as the call finds them; after the body at a point each input's buffer still at its block, the output's
    at `outsAt`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the position modulo 32 says which situation the
    point is in; the invariant hands the body the accumulator at what the point before left (at anything at the very
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 32 = 31
  · have h0 : ¬ t.val % 32 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_2 sout1_C_0; (try dsimp only)
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 32 = 0
    · rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun e => h0 (by rw [e])
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: which array the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.Kernel.Fr

end
-- ==== Proof.KB.Base2.lean ====
/-
  Projection call 2 of the program, seen from one TensorCore: the vocabulary its frame is stated in.

  The call walks a grid of 64 points (2 column tiles of 512 columns, and for each of them 32 steps along the
  contracted axis, the contraction step running fastest). At a point the pipeline hands the body a block of the
  activations (2048 x 256), a block of the weights (256 x 512), the staging buffer of the output block (4 heads x 2048 x 128)
  and the accumulator (2048 x 512), which is the call's own buffer and survives from one point to the next.
  The body zero-fills the accumulator at contraction step 0, adds the block product at every step, and at contraction
  step 31 writes the accumulator, re-laid head by head, into the output block. So a point is in one of three
  situations, told apart by its position modulo 32: first step (0), middle step (1..30), last step (31). The output
  block is untouched, and not written back, except at a last step.
-/
import proofs.«155036_j80436147519617_2_alg».proof.Proof.Gen.Kernel.Launch
import proofs.«155036_j80436147519617_2_alg».proof.Proof.Gen.Kernel.Skeleton
import proofs.«155036_j80436147519617_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered: everything below is stated at this parameter
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's block of the activations whenever the body is handed it:
    the window is an input, never idle, and its blocks tile the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weights' staging buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-! ## The two tests of the body, as functions of the grid point -/

/-- "This is contraction step 0": the body's first test, with its scalar chain written out. -/
abbrev cond2_0 (i : grid2.Coords) : Prop := (Scalar.cmpi .ne (Scalar.extui (Scalar.cmpi .eq (BitVec.ofNat 32 (i 2).val) 0#32)) 0#32) = 1#1
/-- It holds exactly at the points whose position is 0 modulo 32 (the contraction axis runs fastest and has 32 steps). -/
theorem hcond2_0 : ∀ t : Fin cfg2.N, cond2_0 (grid2.coords t) ↔ t.val % 32 = 0 :=
  (by decide +kernel : ∀ t : Fin grid2.N, cond2_0 (grid2.coords t) ↔ t.val % 32 = 0)

/-- "This is contraction step 31": the body's second test. -/
abbrev cond2_1 (i : grid2.Coords) : Prop := k2_cond2 i = 1#1
/-- It holds exactly at the points whose position is 31 modulo 32. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from a last step the output window is idle (the body stores nothing into it) and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At a last step the output window is live. -/
theorem liveAt2_2 : ∀ t : Fin cfg2.N, cond2_1 (grid2.coords t) → cfg2.idle 2 (grid2.coords t) = false := by decide +kernel

/-! ## The memrefs the body is called with -/

/-- One staging buffer of the output window, through which its contents are stated (the choice does not matter). -/
abbrev VO2_2 : View sig .tc .vmem S4x2048x128 .f32 := (Memref.whole cc2_stg2_0 : Memref sig .tc .vmem S4x2048x128 .f32).view
/-- Each window's current staging memref at point `t`, spelled as the pipeline passes it, and its wholeness. -/
abbrev ms2_0 (t : Fin cfg2.N) : Memref sig .tc .vmem S2048x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x2048x128 .f32 := win2_2.stage (cfg2.slots t 2)
abbrev hs2_2 (t : Fin cfg2.N) : (ms2_2 t).IsWhole := hstage2_2 ((cfg2.slots t 2).cast nbuf2_2)
/-- The accumulator: a whole buffer of the call's own, passed beside the windows. -/
abbrev scM2_0 : Memref sig .tc .vmem S2048x512 .f32 := Memref.whole cc2_scratch0
/-- The accumulator as a view: what it holds is stated through it. -/
abbrev VS2_0 : View sig .tc .vmem S2048x512 .f32 := scM2_0.view

/-- Every scoped buffer of the core other than this call's staging buffers and its accumulator, each at some contents:
    the other two calls' staging buffers and accumulators. They ride along unopened. -/
abbrev restS2 (c : Dev nD) : sProp 𝕄 :=
  Pipeline.scopedRestBut (Ix := Unit) (Name := ℕ) (U := UR sig nD τ) (Lvl := ℕ) (Val := Elt F) spec2 c [cc2_scratch0]

/-- What the call's invariant is before its first point, with the accumulator singled out: the accumulator at some
    contents, the other scoped buffers, the generator register at some state. -/
theorem PhiA2_eq (c : Dev nD) :
    (Pipeline.ΦA spec2 c : sProp 𝕄)
      = iprop(iprop((∃ d, owns (c : Thread nD τ) scM2_0 fullShare d) ∗ restS2 c) ∗ (∃ r, prngReg c r)) := by
  unfold Pipeline.ΦA
  rw [Pipeline.scopedRest_split_of_list (win := spec2) (c := c) [cc2_scratch0] (by decide) (by decide)]
  simp only [bigSepL, scM2_0, owns_whole, BI.sep_emp]
  try rfl

end Cert.Kernel.Fr

end
-- ==== Proof.KB.RunA2.lean ====
/-
  The body of projection call 2 run at a first contraction step (the accumulator is zero-filled, then the block product is added).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KB.Base2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun2_A (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond2_0 i) (hc1 : ¬cond2_1 i)
    (x0 : Vec F S2048x256 .bf16) (x1 : Vec F S256x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__qkv_proj_kernel i arg3 harg3 arg4 harg4 arg5 harg5 arg6 harg6) K } := by
  refine ⟨[], ?_, fun xi2 E K => ?run⟩
  case run =>
    simp only [cc2__qkv_proj_kernel_eq_skeleton]; unfold cc2__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.RunB2.lean ====
/-
  The body of projection call 2 run at a middle contraction step (the block product is added to what the step before left).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KB.RunA2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun2_B (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : ¬cond2_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__qkv_proj_kernel i arg3 harg3 arg4 harg4 arg5 harg5 arg6 harg6) K } := by
  refine ⟨[], ?_, fun xi2 E K => ?run⟩
  case run =>
    simp only [cc2__qkv_proj_kernel_eq_skeleton]; unfold cc2__qkv_proj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Fr

end
-- ==== Proof.KB.RunC2.lean ====
/-
  The body of projection call 2 run at a last contraction step (the block product is added, and the accumulator is written, re-laid head by head, into the output block).
  The run is symbolic: on whole staging memrefs holding the two input blocks, the body executes to its end without a
  fault, gives the input blocks back as it found them, and leaves in the accumulator and in the output block a list of stored
  pieces (here each store covers its whole buffer), which the run itself finds.
-/
import proofs.«155036_j80436147519617_2_alg».proof.Proof.KB.RunB2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun2_C (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__qkv_proj_kernel i arg3 harg3 arg4 harg4 arg5 harg5 arg6 harg6) K } := by
  refine ⟨?_, ?_, fun E K => ?run⟩
  case run =>
    simp only [cc2__qkv_proj_kernel_eq_skeleton]; unfold cc2__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Fr

end
-- ==== Proof.KB.Frame2.lean ====
/-
  Projection call 2: what its buffers hold point by point, and that the body keeps the bargain the pipeline asks of it.

  Write t = 32 j + k for a grid point (j the column tile, k the contraction step). After the body at t the
  accumulator holds
      acc(t) = (0 if k = 0 else acc(t-1)) + x-block(t) · w-block(t),
  a recursion along the grid that restarts at every k = 0; the output block's staging buffer holds, at k = 31, the
  accumulator re-laid head by head, and is left alone otherwise. The invariant that travels from one point to the
  next says exactly which array the accumulator holds; the other scoped buffers and the generator register ride along.
  The body obligation is then one symbolic run per situation (first, middle, last step).
-/
import proofs.«155036_j80436147519617_2_alg».proof.Proof.KB.RunC2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves, as the stores of its run read back -/

/-- The accumulator after a first step: the run's stores into it read back. -/
theorem scover2_A_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond2_0 i) (hc1 : ¬cond2_1 i)
    (x0 : Vec F S2048x256 .bf16) (x1 : Vec F S256x512 .f32) (y : S2048x512.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S2048x512.size (by sl_kernel_rfl) y
def sout2_A_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond2_0 i) (hc1 : ¬cond2_1 i)
    (x0 : Vec F S2048x256 .bf16) (x1 : Vec F S256x512 .f32) : Vec F S2048x512 .f32 :=
  VS2_0.read (Elt F) (VS2_0.writes (Elt F) VS2_0.junk (kernelRun2_A c i arg3 harg3 arg4 harg4 arg5 harg5 arg6 harg6 hc0 hc1 x0 x1).2.1)

/-- The accumulator after a middle step, over what the step before left (`xs0`). -/
theorem scover2_B_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : ¬cond2_1 i)
    (x0 : Vec F S2048x256 .bf16) (x1 : Vec F S256x512 .f32) (xs0 : Vec F S2048x512 .f32) (y : S2048x512.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S2048x512.size (by sl_kernel_rfl) y
def sout2_B_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : ¬cond2_1 i)
    (x0 : Vec F S2048x256 .bf16) (x1 : Vec F S256x512 .f32) (xs0 : Vec F S2048x512 .f32) : Vec F S2048x512 .f32 :=
  VS2_0.read (Elt F) (VS2_0.writes (Elt F) VS2_0.junk (kernelRun2_B c i arg3 harg3 arg4 harg4 arg5 harg5 arg6 harg6 hc0 hc1 x0 x1 xs0).2.1)

/-- The output block and the accumulator after a last step. -/
theorem cover2_C_2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) (y : S4x2048x128.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S4x2048x128.size (by sl_kernel_rfl) y
def out2_C_2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) : Vec F S4x2048x128 .f32 :=
  VO2_2.read (Elt F) (VO2_2.writes (Elt F) VO2_2.junk (kernelRun2_C c i arg3 harg3 arg4 harg4 arg5 harg5 arg6 harg6 hc0 hc1 x0 x1 xs0).1)
theorem scover2_C_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) (y : S2048x512.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S2048x512.size (by sl_kernel_rfl) y
def sout2_C_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) : Vec F S2048x512 .f32 :=
  VS2_0.read (Elt F) (VS2_0.writes (Elt F) VS2_0.junk (kernelRun2_C c i arg3 harg3 arg4 harg4 arg5 harg5 arg6 harg6 hc0 hc1 x0 x1 xs0).2.1)

/-- What stands for the output block's buffer at a point that does not store into it: nothing consults it (the window
    is idle there and not written back). -/
def idle2_2 : Vec F S4x2048x128 .f32 := VO2_2.read (Elt F) VO2_2.junk

section
variable (V : (c : Dev nD) → (b : Ref sig .tc) → Buf (Elt F) ((c : Thread nD τ).loc b))

/-! ## Point by point -/

/-- THE ACCUMULATION. The output block's staging buffer and the accumulator after the body at position `n`: the
    situation is read off `n` modulo 32; a middle or last step continues from what position `n - 1` left in the accumulator. -/
def outsAt2 (c : Dev nD) : (n : ℕ) → n < cfg2.N → Vec F S4x2048x128 .f32 × Vec F S2048x512 .f32
  | 0, hn => (idle2_2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by omega)
      else
        (idle2_2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idle2_2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a first step. -/
theorem outsAt2_A (c : Dev nD) (t : Fin cfg2.N) (h0 : t.val % 32 = 0) (h1 : ¬t.val % 32 = 31) :
    outsAt2 V c t.val t.isLt = (idle2_2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a middle step, over what the point before left. -/
theorem outsAt2_B (c : Dev nD) (t : Fin cfg2.N) (h0 : ¬t.val % 32 = 0) (h1 : ¬t.val % 32 = 31) :
    outsAt2 V c t.val t.isLt = (idle2_2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the call's entry the accumulator holds anything; afterwards it holds what position
    `n - 1` left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restS2 c) ∗ (∃ r, prngReg c r)) := by
  cases n with
  | zero => exact absurd rfl hz
  | succ n => rfl

/-! ## The proof data of the call's pipeline -/

/-- The arrays as the call finds them; after the body at a point each input's buffer still at its block, the output's
    at `outsAt`'s first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the position modulo 32 says which situation the
    point is in; the invariant hands the body the accumulator at what the point before left (at anything at the very
    first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 32 = 31
  · have h0 : ¬ t.val % 32 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C_2 sout2_C_0; (try dsimp only)
    rw [PhiS2_castSucc V c t, PhiS2_pos V c _ _ hz]
    iintro ⟨⟨⟨HS0, Hrest⟩, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val % 32 = 0
    · rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun e => h0 (by rw [e])
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the call is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the entry form back: which array the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 64 := N_2; omega)

end

end Cert.Kernel.Fr

end
-- ==== Proof.KB.Asm.lean ====
/-
  The whole program as a chain of five segments on each TensorCore: the host prologue (the activations reshaped to a
  matrix and narrowed), the three projection calls one after the other, and the host epilogue (each head-split result
  given its leading unit axis). Between two segments every unscoped buffer of the core has named contents:
      W0 the launch memory, W1 after the prologue, W2 / W3 / W4 after the query / key / value call, W5 at the end.
  A call changes only its own output array; the prologue and the epilogue write only their own results. Every weakly
  fair execution therefore terminates without a fault, and every final state holds W5 in the unscoped buffers. The
  frame (the four arguments unchanged) and the three results are read off W5.
-/
import proofs.«155036_j80436147519617_2_alg».proof.Proof.KB.Frame0
import proofs.«155036_j80436147519617_2_alg».proof.Proof.KB.Frame1
import proofs.«155036_j80436147519617_2_alg».proof.Proof.KB.Frame2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the prologue (the query call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At call 0's exit: its arrays at what its pipeline leaves (the inputs as entered, the output's write-backs folded
    in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At call 1's exit: its arrays at what its pipeline leaves (the inputs as entered, the output's write-backs folded
    in), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At call 2's exit: its arrays at what its pipeline leaves (the inputs as entered, the output's write-backs folded
    in), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the epilogue: the end. -/
abbrev W5 : Dev nD → Valuation τ sig (Elt F) := fun c => StableHlo.after hostOps3 (W4 m c)

/-! ## The proof data family and what rides beside the buffers -/

abbrev adm : (p : Fin 3) → (pcfgs (F := F) p).Adm := fun p => (cfgs p).toPCfg_adm
/-- Every call's proof data, each at its own entry contents: a literal match on the call's number. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W5 m c)

/-! ## The calls as segments -/

set_option backward.isDefEq.respectTransparency.types false in
/-- Projection call 0 as a segment of the program: entered with every unscoped buffer at the contents of the
    boundary before it, left with them at the boundary after it. Its three arrays are split out of the unscoped buffers at
    entry and put back at exit; the generator register goes into the call's invariant and comes back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 1 as a segment of the program: entered with every unscoped buffer at the contents of the
    boundary before it, left with them at the boundary after it. Its three arrays are split out of the unscoped buffers at
    entry and put back at exit; the generator register goes into the call's invariant and comes back; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V2 m) c
    unfold Pipeline.ΦA at h
    show (dat1 (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 2 as a segment of the program: entered with every unscoped buffer at the contents of the
    boundary before it, left with them at the boundary after it. Its three arrays are split out of the unscoped buffers at
    entry and put back at exit; the generator register goes into the call's invariant and comes back; nothing is owed;
    the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h := hout2 (V3 m) c
    unfold Pipeline.ΦA at h
    show (dat2 (V3 m) c).Φ (Fin.last cfg2.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and every final state holds, in every unscoped buffer of every core, the contents
    named for the last boundary. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      dsimp only [Tₙ]
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.Kernel.Fr

end
-- ==== Proof.KB.Args.lean ====
/-
  The four argument arrays end as launched. Walking the boundaries backwards from the end: the epilogue writes only
  its three results; a projection call changes only its own output array (an argument it reads through an input window
  comes back as entered; the others bypass the call); the prologue writes only its two intermediates. So the contents of
  an argument's buffer at the last boundary are its launch contents.
-/
import proofs.«155036_j80436147519617_2_alg».proof.Proof.KB.Asm
import proofs.«155036_j80436147519617_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The prologue leaves every buffer it does not write. -/
theorem W1_keeps (c : Dev nD) (r : Ref sig .tc) (h : r ∉ hostOps0_W) : W1 m c (Proc.devRef .tc r) = W0 m c (Proc.devRef .tc r) :=
  StableHlo.after_of_writes_sub hostOps0 _ hostOps0_writes h
/-- The epilogue leaves every buffer it does not write. -/
theorem W5_keeps (c : Dev nD) (r : Ref sig .tc) (h : r ∉ hostOps3_W) : W5 m c (Proc.devRef .tc r) = W4 m c (Proc.devRef .tc r) :=
  StableHlo.after_of_writes_sub hostOps3 _ hostOps3_writes h

/-- The activations bypass all three calls. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_keeps m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_keeps m c main_arg0 (by decide)
    _ = m ((c : Thread nD τ).loc main_arg0) := rfl

/-- The query weights are read by the first call through an input window, and bypass the other two. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_keeps m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_keeps m c main_arg1 (by decide)
    _ = m ((c : Thread nD τ).loc main_arg1) := rfl

/-- The key weights: read by the second call. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_keeps m c main_arg2 (by decide)
    _ = W3 m c (Proc.devRef .tc main_arg2) := W4_of_ne m c main_arg2 (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of_ne m c main_arg2 (by decide)
    _ = W0 m c (Proc.devRef .tc main_arg2) := W1_keeps m c main_arg2 (by decide)
    _ = m ((c : Thread nD τ).loc main_arg2) := rfl

/-- The value weights: read by the third call. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_keeps m c main_arg3 (by decide)
    _ = W3 m c (Proc.devRef .tc main_arg3) := (W4_arr m c 1).trans (((dat2 (V3 m) c).arrAt_in 1 rfl _).trans (A_eq2 (V3 m) c 1))
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_keeps m c main_arg3 (by decide)
    _ = m ((c : Thread nD τ).loc main_arg3) := rfl

/-- THE FRAME: every weakly fair execution terminates without a fault and leaves the four arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Fr

end
-- ==== Proof.KI.Base0.lean ====
/-
  Projection call 0 of the program, seen from one TensorCore: the vocabulary its frame is stated in.

  The call walks a grid of 512 points (16 column tiles of 512 columns, and for each of them 32 steps along the
  contracted axis, the contraction step running fastest). At a point the pipeline hands the body a block of the
  activations (2048 x 256), a block of the weights (256 x 512), the staging buffer of the output block (4 heads x 2048 x 128)
  and the accumulator (2048 x 512), which is the call's own buffer and survives from one point to the next.
  The body zero-fills the accumulator at contraction step 0, adds the block product at every step, and at contraction
  step 31 writes the accumulator, re-laid head by head, into the output block. So a point is in one of three
  situations, told apart by its position modulo 32: first step (0), middle step (1..30), last step (31). The output
  block is untouched, and not written back, except at a last step.
-/
import proofs.«155036_j80436147519617_2_alg».proof.Proof.Gen.KernelIdeal.Launch
import proofs.«155036_j80436147519617_2_alg».proof.Proof.Gen.KernelIdeal.Skeleton
import proofs.«155036_j80436147519617_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered: everything below is stated at this parameter
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block of the activations whenever the body is handed it:
    the window is an input, never idle, and its blocks tile the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weights' staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two tests of the body, as functions of the grid point -/

/-- "This is contraction step 0": the body's first test, with its scalar chain written out. -/
abbrev cond0_0 (i : grid0.Coords) : Prop := (Scalar.cmpi .ne (Scalar.extui (Scalar.cmpi .eq (BitVec.ofNat 32 (i 2).val) 0#32)) 0#32) = 1#1
/-- It holds exactly at the points whose position is 0 modulo 32 (the contraction axis runs fastest and has 32 steps). -/
theorem hcond0_0 : ∀ t : Fin cfg0.N, cond0_0 (grid0.coords t) ↔ t.val % 32 = 0 :=
  (by decide +kernel : ∀ t : Fin grid0.N, cond0_0 (grid0.coords t) ↔ t.val % 32 = 0)

/-- "This is contraction step 31": the body's second test. -/
abbrev cond0_1 (i : grid0.Coords) : Prop := k0_cond2 i = 1#1
/-- It holds exactly at the points whose position is 31 modulo 32. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from a last step the output window is idle (the body stores nothing into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a last step the output window is live. -/
theorem liveAt0_2 : ∀ t : Fin cfg0.N, cond0_1 (grid0.coords t) → cfg0.idle 2 (grid0.coords t) = false := by decide +kernel

/-! ## The memrefs the body is called with -/

/-- One staging buffer of the output window, through which its contents are stated (the choice does not matter). -/
abbrev VO0_2 : View sig .tc .vmem S4x2048x128 .f32 := (Memref.whole cc0_stg2_0 : Memref sig .tc .vmem S4x2048x128 .f32).view
/-- Each window's current staging memref at point `t`, spelled as the pipeline passes it, and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2048x128 .f32 := win0_2.stage (cfg0.slots t 2)
abbrev hs0_2 (t : Fin cfg0.N) : (ms0_2 t).IsWhole := hstage0_2 ((cfg0.slots t 2).cast nbuf0_2)
/-- The accumulator: a whole buffer of the call's own, passed beside the windows. -/
abbrev scM0_0 : Memref sig .tc .vmem S2048x512 .f32 := Memref.whole cc0_scratch0
/-- The accumulator as a view: what it holds is stated through it. -/
abbrev VS0_0 : View sig .tc .vmem S2048x512 .f32 := scM0_0.view

/-- Every scoped buffer of the core other than this call's staging buffers and its accumulator, each at some contents:
    the other two calls' staging buffers and accumulators. They ride along unopened. -/
abbrev restS0 (c : Dev nD) : sProp 𝕄 :=
  Pipeline.scopedRestBut (Ix := Unit) (Name := ℕ) (U := UR sig nD τ) (Lvl := ℕ) (Val := Elt F) spec0 c [cc0_scratch0]

/-- What the call's invariant is before its first point, with the accumulator singled out: the accumulator at some
    contents, the other scoped buffers, the generator register at some state. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA
  rw [Pipeline.scopedRest_split_of_list (win := spec0) (c := c) [cc0_scratch0] (by decide) (by decide)]
  simp only [bigSepL, scM0_0, owns_whole, BI.sep_emp]
  try rfl

end Cert.KernelIdeal.Fr

end
-- ==== Proof.KI.RunA0.lean ====
/-
  The body of projection call 0 run at a first contraction step (the accumulator is zero-filled, then the block product is added).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KI.Base0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun0_A (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond0_0 i) (hc1 : ¬cond0_1 i)
    (x0 : Vec F S2048x256 .bf16) (x1 : Vec F S256x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨[], ?_, fun xi2 E K => ?run⟩
  case run =>
    simp only [cc0__qkv_proj_kernel_eq_skeleton]; unfold cc0__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunB0.lean ====
/-
  The body of projection call 0 run at a middle contraction step (the block product is added to what the step before left).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KI.RunA0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun0_B (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : ¬cond0_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨[], ?_, fun xi2 E K => ?run⟩
  case run =>
    simp only [cc0__qkv_proj_kernel_eq_skeleton]; unfold cc0__qkv_proj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunC0.lean ====
/-
  The body of projection call 0 run at a last contraction step (the block product is added, and the accumulator is written, re-laid head by head, into the output block).
  The run is symbolic: on whole staging memrefs holding the two input blocks, the body executes to its end without a
  fault, gives the input blocks back as it found them, and leaves in the accumulator and in the output block a list of stored
  pieces (here each store covers its whole buffer), which the run itself finds.
-/
import proofs.«155036_j80436147519617_2_alg».proof.Proof.KI.RunB0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun0_C (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__qkv_proj_kernel i arg3 harg3 arg4 harg4 arg5 harg5 arg6 harg6) K } := by
  refine ⟨?_, ?_, fun E K => ?run⟩
  case run =>
    simp only [cc0__qkv_proj_kernel_eq_skeleton]; unfold cc0__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Frame0.lean ====
/-
  Projection call 0: what its buffers hold point by point, and that the body keeps the bargain the pipeline asks of it.

  Write t = 32 j + k for a grid point (j the column tile, k the contraction step). After the body at t the
  accumulator holds
      acc(t) = (0 if k = 0 else acc(t-1)) + x-block(t) · w-block(t),
  a recursion along the grid that restarts at every k = 0; the output block's staging buffer holds, at k = 31, the
  accumulator re-laid head by head, and is left alone otherwise. The invariant that travels from one point to the
  next says exactly which array the accumulator holds; the other scoped buffers and the generator register ride along.
  The body obligation is then one symbolic run per situation (first, middle, last step).
-/
import proofs.«155036_j80436147519617_2_alg».proof.Proof.KI.RunC0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves, as the stores of its run read back -/

/-- The accumulator after a first step: the run's stores into it read back. -/
theorem scover0_A_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond0_0 i) (hc1 : ¬cond0_1 i)
    (x0 : Vec F S2048x256 .bf16) (x1 : Vec F S256x512 .f32) (y : S2048x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S2048x512.size (by sl_kernel_rfl) y
def sout0_A_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond0_0 i) (hc1 : ¬cond0_1 i)
    (x0 : Vec F S2048x256 .bf16) (x1 : Vec F S256x512 .f32) : Vec F S2048x512 .f32 :=
  VS0_0.read (Elt F) (VS0_0.writes (Elt F) VS0_0.junk (kernelRun0_A c i arg3 harg3 arg4 harg4 arg5 harg5 arg6 harg6 hc0 hc1 x0 x1).2.1)

/-- The accumulator after a middle step, over what the step before left (`xs0`). -/
theorem scover0_B_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : ¬cond0_1 i)
    (x0 : Vec F S2048x256 .bf16) (x1 : Vec F S256x512 .f32) (xs0 : Vec F S2048x512 .f32) (y : S2048x512.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S2048x512.size (by sl_kernel_rfl) y
def sout0_B_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : ¬cond0_1 i)
    (x0 : Vec F S2048x256 .bf16) (x1 : Vec F S256x512 .f32) (xs0 : Vec F S2048x512 .f32) : Vec F S2048x512 .f32 :=
  VS0_0.read (Elt F) (VS0_0.writes (Elt F) VS0_0.junk (kernelRun0_B c i arg3 harg3 arg4 harg4 arg5 harg5 arg6 harg6 hc0 hc1 x0 x1 xs0).2.1)

/-- The output block and the accumulator after a last step. -/
theorem cover0_C_2 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) (y : S4x2048x128.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S4x2048x128.size (by sl_kernel_rfl) y
def out0_C_2 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) : Vec F S4x2048x128 .f32 :=
  VO0_2.read (Elt F) (VO0_2.writes (Elt F) VO0_2.junk (kernelRun0_C c i arg3 harg3 arg4 harg4 arg5 harg5 arg6 harg6 hc0 hc1 x0 x1 xs0).1)
theorem scover0_C_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) (y : S2048x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S2048x512.size (by sl_kernel_rfl) y
def sout0_C_0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) : Vec F S2048x512 .f32 :=
  VS0_0.read (Elt F) (VS0_0.writes (Elt F) VS0_0.junk (kernelRun0_C c i arg3 harg3 arg4 harg4 arg5 harg5 arg6 harg6 hc0 hc1 x0 x1 xs0).2.1)

/-- What stands for the output block's buffer at a point that does not store into it: nothing consults it (the window
    is idle there and not written back). -/
def idle0_2 : Vec F S4x2048x128 .f32 := VO0_2.read (Elt F) VO0_2.junk

section
variable (V : (c : Dev nD) → (b : Ref sig .tc) → Buf (Elt F) ((c : Thread nD τ).loc b))

/-! ## Point by point -/

/-- THE ACCUMULATION. The output block's staging buffer and the accumulator after the body at position `n`: the
    situation is read off `n` modulo 32; a middle or last step continues from what position `n - 1` left in the accumulator. -/
def outsAt0 (c : Dev nD) : (n : ℕ) → n < cfg0.N → Vec F S4x2048x128 .f32 × Vec F S2048x512 .f32
  | 0, hn => (idle0_2, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 32 = 0 then
      if h1 : (n + 1) % 32 = 31 then
        False.elim (by omega)
      else
        (idle0_2, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 32 = 31 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idle0_2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a first step. -/
theorem outsAt0_A (c : Dev nD) (t : Fin cfg0.N) (h0 : t.val % 32 = 0) (h1 : ¬t.val % 32 = 31) :
    outsAt0 V c t.val t.isLt = (idle0_2, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle step, over what the point before left. -/
theorem outsAt0_B (c : Dev nD) (t : Fin cfg0.N) (h0 : ¬t.val % 32 = 0) (h1 : ¬t.val % 32 = 31) :
    outsAt0 V c t.val t.isLt = (idle0_2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt0_C (c : Dev nD) (t : Fin cfg0.N) (h0 : ¬t.val % 32 = 0) (h1 : t.val % 32 = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the call's entry the accumulator holds anything; afterwards it holds what position
    `n - 1` left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The proof data of the call's pipeline -/

/-- The arrays as the call finds them; after the body at a point each input's buffer still at its block, the output's
    at `outsAt`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the position modulo 32 says which situation the
    point is in; the invariant hands the body the accumulator at what the point before left (at anything at the very
    first point) and takes it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 32 = 31
  · have h0 : ¬ t.val % 32 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_2 sout0_C_0; (try dsimp only)
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 32 = 0
    · rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun e => h0 (by rw [e])
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry form back: which array the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 512 := N_0; omega)

end

end Cert.KernelIdeal.Fr

end
-- ==== Proof.KI.Base1.lean ====
/-
  Projection call 1 of the program, seen from one TensorCore: the vocabulary its frame is stated in.

  The call walks a grid of 64 points (2 column tiles of 512 columns, and for each of them 32 steps along the
  contracted axis, the contraction step running fastest). At a point the pipeline hands the body a block of the
  activations (2048 x 256), a block of the weights (256 x 512), the staging buffer of the output block (4 heads x 2048 x 128)
  and the accumulator (2048 x 512), which is the call's own buffer and survives from one point to the next.
  The body zero-fills the accumulator at contraction step 0, adds the block product at every step, and at contraction
  step 31 writes the accumulator, re-laid head by head, into the output block. So a point is in one of three
  situations, told apart by its position modulo 32: first step (0), middle step (1..30), last step (31). The output
  block is untouched, and not written back, except at a last step.
-/
import proofs.«155036_j80436147519617_2_alg».proof.Proof.Gen.KernelIdeal.Launch
import proofs.«155036_j80436147519617_2_alg».proof.Proof.Gen.KernelIdeal.Skeleton
import proofs.«155036_j80436147519617_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered: everything below is stated at this parameter
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block of the activations whenever the body is handed it:
    the window is an input, never idle, and its blocks tile the array. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weights' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The two tests of the body, as functions of the grid point -/

/-- "This is contraction step 0": the body's first test, with its scalar chain written out. -/
abbrev cond1_0 (i : grid1.Coords) : Prop := (Scalar.cmpi .ne (Scalar.extui (Scalar.cmpi .eq (BitVec.ofNat 32 (i 2).val) 0#32)) 0#32) = 1#1
/-- It holds exactly at the points whose position is 0 modulo 32 (the contraction axis runs fastest and has 32 steps). -/
theorem hcond1_0 : ∀ t : Fin cfg1.N, cond1_0 (grid1.coords t) ↔ t.val % 32 = 0 :=
  (by decide +kernel : ∀ t : Fin grid1.N, cond1_0 (grid1.coords t) ↔ t.val % 32 = 0)

/-- "This is contraction step 31": the body's second test. -/
abbrev cond1_1 (i : grid1.Coords) : Prop := k1_cond2 i = 1#1
/-- It holds exactly at the points whose position is 31 modulo 32. -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

/-- The two inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from a last step the output window is idle (the body stores nothing into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At a last step the output window is live. -/
theorem liveAt1_2 : ∀ t : Fin cfg1.N, cond1_1 (grid1.coords t) → cfg1.idle 2 (grid1.coords t) = false := by decide +kernel

/-! ## The memrefs the body is called with -/

/-- One staging buffer of the output window, through which its contents are stated (the choice does not matter). -/
abbrev VO1_2 : View sig .tc .vmem S4x2048x128 .f32 := (Memref.whole cc1_stg2_0 : Memref sig .tc .vmem S4x2048x128 .f32).view
/-- Each window's current staging memref at point `t`, spelled as the pipeline passes it, and its wholeness. -/
abbrev ms1_0 (t : Fin cfg1.N) : Memref sig .tc .vmem S2048x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x2048x128 .f32 := win1_2.stage (cfg1.slots t 2)
abbrev hs1_2 (t : Fin cfg1.N) : (ms1_2 t).IsWhole := hstage1_2 ((cfg1.slots t 2).cast nbuf1_2)
/-- The accumulator: a whole buffer of the call's own, passed beside the windows. -/
abbrev scM1_0 : Memref sig .tc .vmem S2048x512 .f32 := Memref.whole cc1_scratch0
/-- The accumulator as a view: what it holds is stated through it. -/
abbrev VS1_0 : View sig .tc .vmem S2048x512 .f32 := scM1_0.view

/-- Every scoped buffer of the core other than this call's staging buffers and its accumulator, each at some contents:
    the other two calls' staging buffers and accumulators. They ride along unopened. -/
abbrev restS1 (c : Dev nD) : sProp 𝕄 :=
  Pipeline.scopedRestBut (Ix := Unit) (Name := ℕ) (U := UR sig nD τ) (Lvl := ℕ) (Val := Elt F) spec1 c [cc1_scratch0]

/-- What the call's invariant is before its first point, with the accumulator singled out: the accumulator at some
    contents, the other scoped buffers, the generator register at some state. -/
theorem PhiA1_eq (c : Dev nD) :
    (Pipeline.ΦA spec1 c : sProp 𝕄)
      = iprop(iprop((∃ d, owns (c : Thread nD τ) scM1_0 fullShare d) ∗ restS1 c) ∗ (∃ r, prngReg c r)) := by
  unfold Pipeline.ΦA
  rw [Pipeline.scopedRest_split_of_list (win := spec1) (c := c) [cc1_scratch0] (by decide) (by decide)]
  simp only [bigSepL, scM1_0, owns_whole, BI.sep_emp]
  try rfl

end Cert.KernelIdeal.Fr

end
-- ==== Proof.KI.RunA1.lean ====
/-
  The body of projection call 1 run at a first contraction step (the accumulator is zero-filled, then the block product is added).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KI.Base1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun1_A (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond1_0 i) (hc1 : ¬cond1_1 i)
    (x0 : Vec F S2048x256 .bf16) (x1 : Vec F S256x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__qkv_proj_kernel i arg3 harg3 arg4 harg4 arg5 harg5 arg6 harg6) K } := by
  refine ⟨[], ?_, fun xi2 E K => ?run⟩
  case run =>
    simp only [cc1__qkv_proj_kernel_eq_skeleton]; unfold cc1__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunB1.lean ====
/-
  The body of projection call 1 run at a middle contraction step (the block product is added to what the step before left).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KI.RunA1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun1_B (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : ¬cond1_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__qkv_proj_kernel i arg3 harg3 arg4 harg4 arg5 harg5 arg6 harg6) K } := by
  refine ⟨[], ?_, fun xi2 E K => ?run⟩
  case run =>
    simp only [cc1__qkv_proj_kernel_eq_skeleton]; unfold cc1__qkv_proj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunC1.lean ====
/-
  The body of projection call 1 run at a last contraction step (the block product is added, and the accumulator is written, re-laid head by head, into the output block).
  The run is symbolic: on whole staging memrefs holding the two input blocks, the body executes to its end without a
  fault, gives the input blocks back as it found them, and leaves in the accumulator and in the output block a list of stored
  pieces (here each store covers its whole buffer), which the run itself finds.
-/
import proofs.«155036_j80436147519617_2_alg».proof.Proof.KI.RunB1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun1_C (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__qkv_proj_kernel i arg3 harg3 arg4 harg4 arg5 harg5 arg6 harg6) K } := by
  refine ⟨?_, ?_, fun E K => ?run⟩
  case run =>
    simp only [cc1__qkv_proj_kernel_eq_skeleton]; unfold cc1__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Frame1.lean ====
/-
  Projection call 1: what its buffers hold point by point, and that the body keeps the bargain the pipeline asks of it.

  Write t = 32 j + k for a grid point (j the column tile, k the contraction step). After the body at t the
  accumulator holds
      acc(t) = (0 if k = 0 else acc(t-1)) + x-block(t) · w-block(t),
  a recursion along the grid that restarts at every k = 0; the output block's staging buffer holds, at k = 31, the
  accumulator re-laid head by head, and is left alone otherwise. The invariant that travels from one point to the
  next says exactly which array the accumulator holds; the other scoped buffers and the generator register ride along.
  The body obligation is then one symbolic run per situation (first, middle, last step).
-/
import proofs.«155036_j80436147519617_2_alg».proof.Proof.KI.RunC1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves, as the stores of its run read back -/

/-- The accumulator after a first step: the run's stores into it read back. -/
theorem scover1_A_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond1_0 i) (hc1 : ¬cond1_1 i)
    (x0 : Vec F S2048x256 .bf16) (x1 : Vec F S256x512 .f32) (y : S2048x512.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S2048x512.size (by sl_kernel_rfl) y
def sout1_A_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond1_0 i) (hc1 : ¬cond1_1 i)
    (x0 : Vec F S2048x256 .bf16) (x1 : Vec F S256x512 .f32) : Vec F S2048x512 .f32 :=
  VS1_0.read (Elt F) (VS1_0.writes (Elt F) VS1_0.junk (kernelRun1_A c i arg3 harg3 arg4 harg4 arg5 harg5 arg6 harg6 hc0 hc1 x0 x1).2.1)

/-- The accumulator after a middle step, over what the step before left (`xs0`). -/
theorem scover1_B_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : ¬cond1_1 i)
    (x0 : Vec F S2048x256 .bf16) (x1 : Vec F S256x512 .f32) (xs0 : Vec F S2048x512 .f32) (y : S2048x512.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S2048x512.size (by sl_kernel_rfl) y
def sout1_B_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : ¬cond1_1 i)
    (x0 : Vec F S2048x256 .bf16) (x1 : Vec F S256x512 .f32) (xs0 : Vec F S2048x512 .f32) : Vec F S2048x512 .f32 :=
  VS1_0.read (Elt F) (VS1_0.writes (Elt F) VS1_0.junk (kernelRun1_B c i arg3 harg3 arg4 harg4 arg5 harg5 arg6 harg6 hc0 hc1 x0 x1 xs0).2.1)

/-- The output block and the accumulator after a last step. -/
theorem cover1_C_2 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) (y : S4x2048x128.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S4x2048x128.size (by sl_kernel_rfl) y
def out1_C_2 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) : Vec F S4x2048x128 .f32 :=
  VO1_2.read (Elt F) (VO1_2.writes (Elt F) VO1_2.junk (kernelRun1_C c i arg3 harg3 arg4 harg4 arg5 harg5 arg6 harg6 hc0 hc1 x0 x1 xs0).1)
theorem scover1_C_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) (y : S2048x512.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S2048x512.size (by sl_kernel_rfl) y
def sout1_C_0 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) : Vec F S2048x512 .f32 :=
  VS1_0.read (Elt F) (VS1_0.writes (Elt F) VS1_0.junk (kernelRun1_C c i arg3 harg3 arg4 harg4 arg5 harg5 arg6 harg6 hc0 hc1 x0 x1 xs0).2.1)

/-- What stands for the output block's buffer at a point that does not store into it: nothing consults it (the window
    is idle there and not written back). -/
def idle1_2 : Vec F S4x2048x128 .f32 := VO1_2.read (Elt F) VO1_2.junk

section
variable (V : (c : Dev nD) → (b : Ref sig .tc) → Buf (Elt F) ((c : Thread nD τ).loc b))

/-! ## Point by point -/

/-- THE ACCUMULATION. The output block's staging buffer and the accumulator after the body at position `n`: the
    situation is read off `n` modulo 32; a middle or last step continues from what position `n - 1` left in the accumulator. -/
def outsAt1 (c : Dev nD) : (n : ℕ) → n < cfg1.N → Vec F S4x2048x128 .f32 × Vec F S2048x512 .f32
  | 0, hn => (idle1_2, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 32 = 0 then
      if h1 : (n + 1) % 32 = 31 then
        False.elim (by omega)
      else
        (idle1_2, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 32 = 31 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idle1_2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first step. -/
theorem outsAt1_A (c : Dev nD) (t : Fin cfg1.N) (h0 : t.val % 32 = 0) (h1 : ¬t.val % 32 = 31) :
    outsAt1 V c t.val t.isLt = (idle1_2, sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle step, over what the point before left. -/
theorem outsAt1_B (c : Dev nD) (t : Fin cfg1.N) (h0 : ¬t.val % 32 = 0) (h1 : ¬t.val % 32 = 31) :
    outsAt1 V c t.val t.isLt = (idle1_2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt1_C (c : Dev nD) (t : Fin cfg1.N) (h0 : ¬t.val % 32 = 0) (h1 : t.val % 32 = 31) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the call's entry the accumulator holds anything; afterwards it holds what position
    `n - 1` left. The other scoped buffers and the generator register ride along. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 c) ∗ (∃ r, prngReg c r)) := by
  cases n with
  | zero => exact absurd rfl hz
  | succ n => rfl

/-! ## The proof data of the call's pipeline -/

/-- The arrays as the call finds them; after the body at a point each input's buffer still at its block, the output's
    at `outsAt`'s first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the position modulo 32 says which situation the
    point is in; the invariant hands the body the accumulator at what the point before left (at anything at the very
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 32 = 31
  · have h0 : ¬ t.val % 32 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [outsAt1_C V c t h0 h1]
    unfold out1_C_2 sout1_C_0; (try dsimp only)
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((kernelRun1_C c (grid1.coords t) _ _ _ _ _ _ _ _ (fun h => h0 ((hcond1_0 t).mp h)) ((hcond1_1 t).mpr h1) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    by_cases h0 : t.val % 32 = 0
    · rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hrest⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun e => h0 (by rw [e])
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: which array the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 64 := N_1; omega)

end

end Cert.KernelIdeal.Fr

end
-- ==== Proof.KI.Base2.lean ====
/-
  Projection call 2 of the program, seen from one TensorCore: the vocabulary its frame is stated in.

  The call walks a grid of 64 points (2 column tiles of 512 columns, and for each of them 32 steps along the
  contracted axis, the contraction step running fastest). At a point the pipeline hands the body a block of the
  activations (2048 x 256), a block of the weights (256 x 512), the staging buffer of the output block (4 heads x 2048 x 128)
  and the accumulator (2048 x 512), which is the call's own buffer and survives from one point to the next.
  The body zero-fills the accumulator at contraction step 0, adds the block product at every step, and at contraction
  step 31 writes the accumulator, re-laid head by head, into the output block. So a point is in one of three
  situations, told apart by its position modulo 32: first step (0), middle step (1..30), last step (31). The output
  block is untouched, and not written back, except at a last step.
-/
import proofs.«155036_j80436147519617_2_alg».proof.Proof.Gen.KernelIdeal.Launch
import proofs.«155036_j80436147519617_2_alg».proof.Proof.Gen.KernelIdeal.Skeleton
import proofs.«155036_j80436147519617_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the call is entered: everything below is stated at this parameter
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds the point's block of the activations whenever the body is handed it:
    the window is an input, never idle, and its blocks tile the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the weights' staging buffer. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end

/-! ## The two tests of the body, as functions of the grid point -/

/-- "This is contraction step 0": the body's first test, with its scalar chain written out. -/
abbrev cond2_0 (i : grid2.Coords) : Prop := (Scalar.cmpi .ne (Scalar.extui (Scalar.cmpi .eq (BitVec.ofNat 32 (i 2).val) 0#32)) 0#32) = 1#1
/-- It holds exactly at the points whose position is 0 modulo 32 (the contraction axis runs fastest and has 32 steps). -/
theorem hcond2_0 : ∀ t : Fin cfg2.N, cond2_0 (grid2.coords t) ↔ t.val % 32 = 0 :=
  (by decide +kernel : ∀ t : Fin grid2.N, cond2_0 (grid2.coords t) ↔ t.val % 32 = 0)

/-- "This is contraction step 31": the body's second test. -/
abbrev cond2_1 (i : grid2.Coords) : Prop := k2_cond2 i = 1#1
/-- It holds exactly at the points whose position is 31 modulo 32. -/
theorem hcond2_1 : ∀ t : Fin cfg2.N, cond2_1 (grid2.coords t) ↔ t.val % 32 = 31 :=
  (by decide +kernel : ∀ t : Fin grid2.N, cond2_1 (grid2.coords t) ↔ t.val % 32 = 31)

/-! ## Where the windows are idle -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from a last step the output window is idle (the body stores nothing into it) and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At a last step the output window is live. -/
theorem liveAt2_2 : ∀ t : Fin cfg2.N, cond2_1 (grid2.coords t) → cfg2.idle 2 (grid2.coords t) = false := by decide +kernel

/-! ## The memrefs the body is called with -/

/-- One staging buffer of the output window, through which its contents are stated (the choice does not matter). -/
abbrev VO2_2 : View sig .tc .vmem S4x2048x128 .f32 := (Memref.whole cc2_stg2_0 : Memref sig .tc .vmem S4x2048x128 .f32).view
/-- Each window's current staging memref at point `t`, spelled as the pipeline passes it, and its wholeness. -/
abbrev ms2_0 (t : Fin cfg2.N) : Memref sig .tc .vmem S2048x256 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x2048x128 .f32 := win2_2.stage (cfg2.slots t 2)
abbrev hs2_2 (t : Fin cfg2.N) : (ms2_2 t).IsWhole := hstage2_2 ((cfg2.slots t 2).cast nbuf2_2)
/-- The accumulator: a whole buffer of the call's own, passed beside the windows. -/
abbrev scM2_0 : Memref sig .tc .vmem S2048x512 .f32 := Memref.whole cc2_scratch0
/-- The accumulator as a view: what it holds is stated through it. -/
abbrev VS2_0 : View sig .tc .vmem S2048x512 .f32 := scM2_0.view

/-- Every scoped buffer of the core other than this call's staging buffers and its accumulator, each at some contents:
    the other two calls' staging buffers and accumulators. They ride along unopened. -/
abbrev restS2 (c : Dev nD) : sProp 𝕄 :=
  Pipeline.scopedRestBut (Ix := Unit) (Name := ℕ) (U := UR sig nD τ) (Lvl := ℕ) (Val := Elt F) spec2 c [cc2_scratch0]

/-- What the call's invariant is before its first point, with the accumulator singled out: the accumulator at some
    contents, the other scoped buffers, the generator register at some state. -/
theorem PhiA2_eq (c : Dev nD) :
    (Pipeline.ΦA spec2 c : sProp 𝕄)
      = iprop(iprop((∃ d, owns (c : Thread nD τ) scM2_0 fullShare d) ∗ restS2 c) ∗ (∃ r, prngReg c r)) := by
  unfold Pipeline.ΦA
  rw [Pipeline.scopedRest_split_of_list (win := spec2) (c := c) [cc2_scratch0] (by decide) (by decide)]
  simp only [bigSepL, scM2_0, owns_whole, BI.sep_emp]
  try rfl

end Cert.KernelIdeal.Fr

end
-- ==== Proof.KI.RunA2.lean ====
/-
  The body of projection call 2 run at a first contraction step (the accumulator is zero-filled, then the block product is added).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KI.Base2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun2_A (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond2_0 i) (hc1 : ¬cond2_1 i)
    (x0 : Vec F S2048x256 .bf16) (x1 : Vec F S256x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__qkv_proj_kernel i arg3 harg3 arg4 harg4 arg5 harg5 arg6 harg6) K } := by
  refine ⟨[], ?_, fun xi2 E K => ?run⟩
  case run =>
    simp only [cc2__qkv_proj_kernel_eq_skeleton]; unfold cc2__qkv_proj_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunB2.lean ====
/-
  The body of projection call 2 run at a middle contraction step (the block product is added to what the step before left).
  The run is symbolic: on whole staging memrefs holding the two input blocks, the body executes to its end without a
  fault, gives the input blocks back as it found them, and leaves in the accumulator a list of stored
  pieces (here each store covers its whole buffer), which the run itself finds. The output block's buffer is not touched.
-/
import proofs.«155036_j80436147519617_2_alg».proof.Proof.KI.RunA2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun2_B (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : ¬cond2_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (xi2 : Vec F S4x2048x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc2__qkv_proj_kernel i arg3 harg3 arg4 harg4 arg5 harg5 arg6 harg6) K } := by
  refine ⟨[], ?_, fun xi2 E K => ?run⟩
  case run =>
    simp only [cc2__qkv_proj_kernel_eq_skeleton]; unfold cc2__qkv_proj_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Fr

end
-- ==== Proof.KI.RunC2.lean ====
/-
  The body of projection call 2 run at a last contraction step (the block product is added, and the accumulator is written, re-laid head by head, into the output block).
  The run is symbolic: on whole staging memrefs holding the two input blocks, the body executes to its end without a
  fault, gives the input blocks back as it found them, and leaves in the accumulator and in the output block a list of stored
  pieces (here each store covers its whole buffer), which the run itself finds.
-/
import proofs.«155036_j80436147519617_2_alg».proof.Proof.KI.RunB2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes at such a point, newest first, per buffer, with the proof that the body runs to any
    continuation that accepts the buffers with those stores applied. -/
noncomputable def kernelRun2_C (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) :
    Σ' (L2 : List (View.Piece (Elt F) S4x2048x128 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc2__qkv_proj_kernel i arg3 harg3 arg4 harg4 arg5 harg5 arg6 harg6) K } := by
  refine ⟨?_, ?_, fun E K => ?run⟩
  case run =>
    simp only [cc2__qkv_proj_kernel_eq_skeleton]; unfold cc2__qkv_proj_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Fr

end
-- ==== Proof.KI.Frame2.lean ====
/-
  Projection call 2: what its buffers hold point by point, and that the body keeps the bargain the pipeline asks of it.

  Write t = 32 j + k for a grid point (j the column tile, k the contraction step). After the body at t the
  accumulator holds
      acc(t) = (0 if k = 0 else acc(t-1)) + x-block(t) · w-block(t),
  a recursion along the grid that restarts at every k = 0; the output block's staging buffer holds, at k = 31, the
  accumulator re-laid head by head, and is left alone otherwise. The invariant that travels from one point to the
  next says exactly which array the accumulator holds; the other scoped buffers and the generator register ride along.
  The body obligation is then one symbolic run per situation (first, middle, last step).
-/
import proofs.«155036_j80436147519617_2_alg».proof.Proof.KI.RunC2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a step leaves, as the stores of its run read back -/

/-- The accumulator after a first step: the run's stores into it read back. -/
theorem scover2_A_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond2_0 i) (hc1 : ¬cond2_1 i)
    (x0 : Vec F S2048x256 .bf16) (x1 : Vec F S256x512 .f32) (y : S2048x512.Idx) :
    ∃ pc ∈ (kernelRun2_A c i arg3 harg3 arg4 harg4 arg5 harg5 arg6 harg6 hc0 hc1 x0 x1).2.1, y ∈ pc.1.set :=
  View.cover_of_tiledL (kernelRun2_A c i arg3 harg3 arg4 harg4 arg5 harg5 arg6 harg6 hc0 hc1 x0 x1).2.1 S2048x512.size (by sl_kernel_rfl) y
def sout2_A_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond2_0 i) (hc1 : ¬cond2_1 i)
    (x0 : Vec F S2048x256 .bf16) (x1 : Vec F S256x512 .f32) : Vec F S2048x512 .f32 :=
  VS2_0.read (Elt F) (VS2_0.writes (Elt F) VS2_0.junk (kernelRun2_A c i arg3 harg3 arg4 harg4 arg5 harg5 arg6 harg6 hc0 hc1 x0 x1).2.1)

/-- The accumulator after a middle step, over what the step before left (`xs0`). -/
theorem scover2_B_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : ¬cond2_1 i)
    (x0 : Vec F S2048x256 .bf16) (x1 : Vec F S256x512 .f32) (xs0 : Vec F S2048x512 .f32) (y : S2048x512.Idx) :
    ∃ pc ∈ (kernelRun2_B c i arg3 harg3 arg4 harg4 arg5 harg5 arg6 harg6 hc0 hc1 x0 x1 xs0).2.1, y ∈ pc.1.set :=
  View.cover_of_tiledL (kernelRun2_B c i arg3 harg3 arg4 harg4 arg5 harg5 arg6 harg6 hc0 hc1 x0 x1 xs0).2.1 S2048x512.size (by sl_kernel_rfl) y
def sout2_B_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : ¬cond2_1 i)
    (x0 : Vec F S2048x256 .bf16) (x1 : Vec F S256x512 .f32) (xs0 : Vec F S2048x512 .f32) : Vec F S2048x512 .f32 :=
  VS2_0.read (Elt F) (VS2_0.writes (Elt F) VS2_0.junk (kernelRun2_B c i arg3 harg3 arg4 harg4 arg5 harg5 arg6 harg6 hc0 hc1 x0 x1 xs0).2.1)

/-- The output block and the accumulator after a last step. -/
theorem cover2_C_2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) (y : S4x2048x128.Idx) :
    ∃ pc ∈ (kernelRun2_C c i arg3 harg3 arg4 harg4 arg5 harg5 arg6 harg6 hc0 hc1 x0 x1 xs0).1, y ∈ pc.1.set :=
  View.cover_of_tiledL (kernelRun2_C c i arg3 harg3 arg4 harg4 arg5 harg5 arg6 harg6 hc0 hc1 x0 x1 xs0).1 S4x2048x128.size (by sl_kernel_rfl) y
def out2_C_2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) : Vec F S4x2048x128 .f32 :=
  VO2_2.read (Elt F) (VO2_2.writes (Elt F) VO2_2.junk (kernelRun2_C c i arg3 harg3 arg4 harg4 arg5 harg5 arg6 harg6 hc0 hc1 x0 x1 xs0).1)
theorem scover2_C_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) (y : S2048x512.Idx) :
    ∃ pc ∈ (kernelRun2_C c i arg3 harg3 arg4 harg4 arg5 harg5 arg6 harg6 hc0 hc1 x0 x1 xs0).2.1, y ∈ pc.1.set :=
  View.cover_of_tiledL (kernelRun2_C c i arg3 harg3 arg4 harg4 arg5 harg5 arg6 harg6 hc0 hc1 x0 x1 xs0).2.1 S2048x512.size (by sl_kernel_rfl) y
def sout2_C_0 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) : Vec F S2048x512 .f32 :=
  VS2_0.read (Elt F) (VS2_0.writes (Elt F) VS2_0.junk (kernelRun2_C c i arg3 harg3 arg4 harg4 arg5 harg5 arg6 harg6 hc0 hc1 x0 x1 xs0).2.1)

/-- What stands for the output block's buffer at a point that does not store into it: nothing consults it (the window
    is idle there and not written back). -/
def idle2_2 : Vec F S4x2048x128 .f32 := VO2_2.read (Elt F) VO2_2.junk

section
variable (V : (c : Dev nD) → (b : Ref sig .tc) → Buf (Elt F) ((c : Thread nD τ).loc b))

/-! ## Point by point -/

/-- THE ACCUMULATION. The output block's staging buffer and the accumulator after the body at position `n`: the
    situation is read off `n` modulo 32; a middle or last step continues from what position `n - 1` left in the accumulator. -/
def outsAt2 (c : Dev nD) : (n : ℕ) → n < cfg2.N → Vec F S4x2048x128 .f32 × Vec F S2048x512 .f32
  | 0, hn => (idle2_2, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 32 = 0 then
      if h1 : (n + 1) % 32 = 31 then
        False.elim (by omega)
      else
        (idle2_2, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 32 = 31 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idle2_2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- At a first step. -/
theorem outsAt2_A (c : Dev nD) (t : Fin cfg2.N) (h0 : t.val % 32 = 0) (h1 : ¬t.val % 32 = 31) :
    outsAt2 V c t.val t.isLt = (idle2_2, sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- At a middle step, over what the point before left. -/
theorem outsAt2_B (c : Dev nD) (t : Fin cfg2.N) (h0 : ¬t.val % 32 = 0) (h1 : ¬t.val % 32 = 31) :
    outsAt2 V c t.val t.isLt = (idle2_2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step, over what the point before left. -/
theorem outsAt2_C (c : Dev nD) (t : Fin cfg2.N) (h0 : ¬t.val % 32 = 0) (h1 : t.val % 32 = 31) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the call's entry the accumulator holds anything; afterwards it holds what position
    `n - 1` left. The other scoped buffers and the generator register ride along. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restS2 c) ∗ (∃ r, prngReg c r)) := by
  cases n with
  | zero => exact absurd rfl hz
  | succ n => rfl

/-! ## The proof data of the call's pipeline -/

/-- The arrays as the call finds them; after the body at a point each input's buffer still at its block, the output's
    at `outsAt`'s first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the position modulo 32 says which situation the
    point is in; the invariant hands the body the accumulator at what the point before left (at anything at the very
    first point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 32 = 31
  · have h0 : ¬ t.val % 32 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    rw [outsAt2_C V c t h0 h1]
    unfold out2_C_2 sout2_C_0; (try dsimp only)
    rw [PhiS2_castSucc V c t, PhiS2_pos V c _ _ hz]
    iintro ⟨⟨⟨HS0, Hrest⟩, Hg⟩, Ho, ⟨%d0, H0⟩, ⟨%d1, H1⟩, ⟨%d2, H2⟩⟩
    iapply ((kernelRun2_C c (grid2.coords t) _ _ _ _ _ _ _ _ (fun h => h0 ((hcond2_0 t).mp h)) ((hcond2_1 t).mpr h1) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_C_0 c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)
  · rw [Dat.leavesExact_idle (dat2 V c) 2 t (idleAt2_2 t (fun h => h1 ((hcond2_1 t).mp h))) (noFlush2_2 t (fun h => h1 ((hcond2_1 t).mp h)))]
    by_cases h0 : t.val % 32 = 0
    · rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hrest⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun e => h0 (by rw [e])
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the call is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the entry form back: which array the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 64 := N_2; omega)

end

end Cert.KernelIdeal.Fr

end
-- ==== Proof.KI.Asm.lean ====
/-
  The whole program as a chain of five segments on each TensorCore: the host prologue (the activations reshaped to a
  matrix and narrowed), the three projection calls one after the other, and the host epilogue (each head-split result
  given its leading unit axis). Between two segments every unscoped buffer of the core has named contents:
      W0 the launch memory, W1 after the prologue, W2 / W3 / W4 after the query / key / value call, W5 at the end.
  A call changes only its own output array; the prologue and the epilogue write only their own results. Every weakly
  fair execution therefore terminates without a fault, and every final state holds W5 in the unscoped buffers. The
  frame (the four arguments unchanged) and the three results are read off W5.
-/
import proofs.«155036_j80436147519617_2_alg».proof.Proof.KI.Frame0
import proofs.«155036_j80436147519617_2_alg».proof.Proof.KI.Frame1
import proofs.«155036_j80436147519617_2_alg».proof.Proof.KI.Frame2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the prologue (the query call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At call 0's exit: its arrays at what its pipeline leaves (the inputs as entered, the output's write-backs folded
    in), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At call 1's exit: its arrays at what its pipeline leaves (the inputs as entered, the output's write-backs folded
    in), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- At call 2's exit: its arrays at what its pipeline leaves (the inputs as entered, the output's write-backs folded
    in), every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the epilogue: the end. -/
abbrev W5 : Dev nD → Valuation τ sig (Elt F) := fun c => StableHlo.after hostOps3 (W4 m c)

/-! ## The proof data family and what rides beside the buffers -/

abbrev adm : (p : Fin 3) → (pcfgs (F := F) p).Adm := fun p => (cfgs p).toPCfg_adm
/-- Every call's proof data, each at its own entry contents: a literal match on the call's number. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W5 m c)

/-! ## The calls as segments -/

set_option backward.isDefEq.respectTransparency.types false in
/-- Projection call 0 as a segment of the program: entered with every unscoped buffer at the contents of the
    boundary before it, left with them at the boundary after it. Its three arrays are split out of the unscoped buffers at
    entry and put back at exit; the generator register goes into the call's invariant and comes back; nothing is owed;
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m) c
    unfold Pipeline.ΦA at h
    show (dat0 (V1 m) c).Φ (Fin.last cfg0.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 1 as a segment of the program: entered with every unscoped buffer at the contents of the
    boundary before it, left with them at the boundary after it. Its three arrays are split out of the unscoped buffers at
    entry and put back at exit; the generator register goes into the call's invariant and comes back; nothing is owed;
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V2 m) c
    unfold Pipeline.ΦA at h
    show (dat1 (V2 m) c).Φ (Fin.last cfg1.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Projection call 2 as a segment of the program: entered with every unscoped buffer at the contents of the
    boundary before it, left with them at the boundary after it. Its three arrays are split out of the unscoped buffers at
    entry and put back at exit; the generator register goes into the call's invariant and comes back; nothing is owed;
    the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h := hout2 (V3 m) c
    unfold Pipeline.ΦA at h
    show (dat2 (V3 m) c).Φ (Fin.last cfg2.N) ⊢ _
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .region (reg2 m),
    .host (hseg hostOps3 hostOps3_sub hostOps3_fresh' (W4 m)) ]
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and every final state holds, in every unscoped buffer of every core, the contents
    named for the last boundary. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      dsimp only [Tₙ]
      unfold StableHlo.held
      iintro ⟨Hh, HSI⟩
      imodintro
      iapply (pointsTo_read_all (Pipeline.ucRefs τ sig) (fun b => (((c : Thread nD τ)).1, b)) (W5 m c) s')
      isplitl [Hh] <;> iassumption)
    (hQ := fun s h c => h c)

end Cert.KernelIdeal.Fr

end
-- ==== Proof.KI.Args.lean ====
/-
  The four argument arrays end as launched. Walking the boundaries backwards from the end: the epilogue writes only
  its three results; a projection call changes only its own output array (an argument it reads through an input window
  comes back as entered; the others bypass the call); the prologue writes only its two intermediates. So the contents of
  an argument's buffer at the last boundary are its launch contents.
-/
import proofs.«155036_j80436147519617_2_alg».proof.Proof.KI.Asm
import proofs.«155036_j80436147519617_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The prologue leaves every buffer it does not write. -/
theorem W1_keeps (c : Dev nD) (r : Ref sig .tc) (h : r ∉ hostOps0_W) : W1 m c (Proc.devRef .tc r) = W0 m c (Proc.devRef .tc r) :=
  StableHlo.after_of_writes_sub hostOps0 _ hostOps0_writes h
/-- The epilogue leaves every buffer it does not write. -/
theorem W5_keeps (c : Dev nD) (r : Ref sig .tc) (h : r ∉ hostOps3_W) : W5 m c (Proc.devRef .tc r) = W4 m c (Proc.devRef .tc r) :=
  StableHlo.after_of_writes_sub hostOps3 _ hostOps3_writes h

/-- The activations bypass all three calls. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_keeps m c main_arg0 (by decide)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := W1_keeps m c main_arg0 (by decide)
    _ = m ((c : Thread nD τ).loc main_arg0) := rfl

/-- The query weights are read by the first call through an input window, and bypass the other two. -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_keeps m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_keeps m c main_arg1 (by decide)
    _ = m ((c : Thread nD τ).loc main_arg1) := rfl

/-- The key weights: read by the second call. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_keeps m c main_arg2 (by decide)
    _ = W3 m c (Proc.devRef .tc main_arg2) := W4_of_ne m c main_arg2 (by decide)
    _ = W2 m c (Proc.devRef .tc main_arg2) := (W3_arr m c 1).trans (((dat1 (V2 m) c).arrAt_in 1 rfl _).trans (A_eq1 (V2 m) c 1))
    _ = W1 m c (Proc.devRef .tc main_arg2) := W2_of_ne m c main_arg2 (by decide)
    _ = W0 m c (Proc.devRef .tc main_arg2) := W1_keeps m c main_arg2 (by decide)
    _ = m ((c : Thread nD τ).loc main_arg2) := rfl

/-- The value weights: read by the third call. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_keeps m c main_arg3 (by decide)
    _ = W3 m c (Proc.devRef .tc main_arg3) := (W4_arr m c 1).trans (((dat2 (V3 m) c).arrAt_in 1 rfl _).trans (A_eq2 (V3 m) c 1))
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_keeps m c main_arg3 (by decide)
    _ = m ((c : Thread nD τ).loc main_arg3) := rfl

/-- THE FRAME: every weakly fair execution terminates without a fault and leaves the four arguments as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Fr

end
-- ==== Proof.KI.Steps0.lean ====
/-
  Projection call 0: what each step leaves, as arithmetic.
  A first step leaves in the accumulator  0 + x·w  (the zero fill read back, plus the block product); a middle or last
  step leaves  acc + x·w  over what it found; a last step also leaves in the output block that new accumulator re-laid
  head by head. Here these are equations between the stores a step's run makes, read back, and the body's own
  arithmetic terms of the blocks (every store covers its whole buffer, so the newest store is what is read).
-/
import proofs.«155036_j80436147519617_2_alg».proof.Proof.KI.Frame0
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_off2_0 : (![0, 0] : Fin 2 → Nat) = fun _ => 0 := funext fun a => by fin_cases a <;> rfl
theorem zero_off3_0 : (![0, 0, 0] : Fin 3 → Nat) = fun _ => 0 := funext fun a => by fin_cases a <;> rfl

/-- First step: the accumulator ends at the zero fill plus the block product. -/
theorem first_step0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond0_0 i) (hc1 : ¬cond0_1 i)
    (x0 : Vec F S2048x256 .bf16) (x1 : Vec F S256x512 .f32) :
    sout0_A_0 c i arg3 harg3 arg4 harg4 arg5 harg5 arg6 harg6 hc0 hc1 x0 x1 = k0_pay2 x1 (k0_pay1 (F := F)) x0 := by
  unfold sout0_A_0
  rw [View.read_writes_eq_canon _ _ _ (scover0_A_0 c i arg3 harg3 arg4 harg4 arg5 harg5 arg6 harg6 hc0 hc1 x0 x1)]
  unfold kernelRun0_A
  dsimp only
  try sl_unfold_words
  rw [View.canon_cons_unit_zero zero_off2_0, View.readCov_unit_zero (S := S2048x512) _ zero_off2_0]
  simp only [View.readAt_eq_ld, harg3.read_unread, harg4.read_unread, View.ld_unit_zero (S := S2048x256) zero_off2_0, View.ld_unit_zero (S := S256x512) zero_off2_0]

/-- Middle step: the accumulator ends at what it held plus the block product. -/
theorem middle_step0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : ¬cond0_1 i)
    (x0 : Vec F S2048x256 .bf16) (x1 : Vec F S256x512 .f32) (xs0 : Vec F S2048x512 .f32) :
    sout0_B_0 c i arg3 harg3 arg4 harg4 arg5 harg5 arg6 harg6 hc0 hc1 x0 x1 xs0 = k0_pay2 x1 xs0 x0 := by
  unfold sout0_B_0
  rw [View.read_writes_eq_canon _ _ _ (scover0_B_0 c i arg3 harg3 arg4 harg4 arg5 harg5 arg6 harg6 hc0 hc1 x0 x1 xs0)]
  unfold kernelRun0_B
  dsimp only
  try sl_unfold_words
  rw [View.canon_unit_zero zero_off2_0]
  simp only [View.readAt_eq_ld, harg3.read_unread, harg4.read_unread, harg6.read_unread, View.ld_unit_zero (S := S2048x256) zero_off2_0, View.ld_unit_zero (S := S256x512) zero_off2_0, View.ld_unit_zero (S := S2048x512) zero_off2_0]

/-- Last step, the accumulator: as a middle step. -/
theorem last_step_acc0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) :
    sout0_C_0 c i arg3 harg3 arg4 harg4 arg5 harg5 arg6 harg6 hc0 hc1 x0 x1 xs0 = k0_pay2 x1 xs0 x0 := by
  unfold sout0_C_0
  rw [View.read_writes_eq_canon _ _ _ (scover0_C_0 c i arg3 harg3 arg4 harg4 arg5 harg5 arg6 harg6 hc0 hc1 x0 x1 xs0)]
  unfold kernelRun0_C
  dsimp only
  try sl_unfold_words
  rw [View.canon_unit_zero zero_off2_0]
  simp only [View.readAt_eq_ld, harg3.read_unread, harg4.read_unread, harg6.read_unread, View.ld_unit_zero (S := S2048x256) zero_off2_0, View.ld_unit_zero (S := S256x512) zero_off2_0, View.ld_unit_zero (S := S2048x512) zero_off2_0]

/-- Last step, the output block: the new accumulator, re-laid head by head. -/
theorem last_step_out0 (c : Dev nD) (i : grid0.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond0_0 i) (hc1 : cond0_1 i)
    (x0 : Vec F S2048x256 .bf16) (x1 : Vec F S256x512 .f32) (xs0 : Vec F S2048x512 .f32) :
    out0_C_2 c i arg3 harg3 arg4 harg4 arg5 harg5 arg6 harg6 hc0 hc1 x0 x1 xs0 = k0_pay3 (k0_pay2 x1 xs0 x0) := by
  unfold out0_C_2
  rw [View.read_writes_eq_canon _ _ _ (cover0_C_2 c i arg3 harg3 arg4 harg4 arg5 harg5 arg6 harg6 hc0 hc1 x0 x1 xs0)]
  unfold kernelRun0_C
  dsimp only
  try sl_unfold_words
  rw [View.canon_unit_zero zero_off3_0, View.readCov_unit_zero (S := S2048x512) _ zero_off2_0]
  simp only [View.readAt_eq_ld, harg3.read_unread, harg4.read_unread, harg6.read_unread, View.ld_unit_zero (S := S2048x256) zero_off2_0, View.ld_unit_zero (S := S256x512) zero_off2_0, View.ld_unit_zero (S := S2048x512) zero_off2_0]

end Cert.KernelIdeal.Fr

end
-- ==== Proof.KI.Blocks0.lean ====
/-
  Projection call 0: the blocks of a point as parts of the whole arrays, and the recursion along the grid.

  Point t = 32 j + k reads the activations' block of all 2048 rows and columns 256 k .. 256 k + 255, and the weights'
  block of rows 256 k .. 256 k + 255 and columns 512 j .. 512 j + 511; at k = 31 it writes heads 4 j .. 4 j + 3 of the
  output. With acc(t) the accumulator after point t:
      acc(t) = 0 + x(t)·w(t)            if k = 0,
      acc(t) = acc(t-1) + x(t)·w(t)     if k > 0,
  and at k = 31 the output block is acc(t) re-laid head by head.
-/
import proofs.«155036_j80436147519617_2_alg».proof.Proof.KI.Steps0
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The index maps, decided over the grid -/

theorem idx0_x : ∀ t : Fin cfg0.N, win0_0.index t 0 = 0 ∧ win0_0.index t 1 = t.val % 32 :=
  (by decide +kernel : ∀ t : Fin grid0.N, win0_0.index t 0 = 0 ∧ win0_0.index t 1 = t.val % 32)
theorem idx0_w : ∀ t : Fin cfg0.N, win0_1.index t 0 = t.val % 32 ∧ win0_1.index t 1 = t.val / 32 :=
  (by decide +kernel : ∀ t : Fin grid0.N, win0_1.index t 0 = t.val % 32 ∧ win0_1.index t 1 = t.val / 32)
theorem idx0_o : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

section
variable (V : (c : Dev nD) → (b : Ref sig .tc) → Buf (Elt F) ((c : Thread nD τ).loc b))

/-- The activations' block at point `t`: entry (s, k') is entry (s, 256 (t mod 32) + k') of the activation matrix. -/
theorem xblk0_apply (c : Dev nD) (t : Fin cfg0.N) (y : S2048x256.Idx) (k : S2048x8192.Idx)
    (hk0 : (k 0).val = (y 0).val) (hk1 : (k 1).val = 256 * (t.val % 32) + (y 1).val) :
    (iblk0 V c 0 t : Vec F S2048x256 .bf16) y = (V c main_v1 : S2048x8192.Idx → Elt F .bf16) k := by
  have hi := idx0_x t
  unfold iblk0
  rw [View.read_apply]
  show V c main_v1 _ = V c main_v1 _
  congr 1
  funext a
  apply Fin.ext
  match a with
  | ⟨0, _⟩ => show win0_0.index t 0 * 2048 + 1 * (y 0).val = (k 0).val; rw [hi.1, hk0]; omega
  | ⟨1, _⟩ => show win0_0.index t 1 * 256 + 1 * (y 1).val = (k 1).val; rw [hi.2, hk1]; omega

/-- The weights' block at point `t`: entry (k', col) is entry (256 (t mod 32) + k', 512 (t div 32) + col) of the weight matrix. -/
theorem wblk0_apply (c : Dev nD) (t : Fin cfg0.N) (y : S256x512.Idx) (k : S8192x8192.Idx)
    (hk0 : (k 0).val = 256 * (t.val % 32) + (y 0).val) (hk1 : (k 1).val = 512 * (t.val / 32) + (y 1).val) :
    (iblk0 V c 1 t : Vec F S256x512 .f32) y = (V c main_arg1 : S8192x8192.Idx → Elt F .f32) k := by
  have hi := idx0_w t
  unfold iblk0
  rw [View.read_apply]
  show V c main_arg1 _ = V c main_arg1 _
  congr 1
  funext a
  apply Fin.ext
  match a with
  | ⟨0, _⟩ => show win0_1.index t 0 * 256 + 1 * (y 0).val = (k 0).val; rw [hi.1, hk0]; omega
  | ⟨1, _⟩ => show win0_1.index t 1 * 512 + 1 * (y 1).val = (k 1).val; rw [hi.2, hk1]; omega

/-! ## The recursion along the grid -/

/-- At a first contraction step the accumulator ends at the zero fill plus the block product. -/
theorem acc_first0 (c : Dev nD) (t : Fin cfg0.N) (h0 : t.val % 32 = 0) :
    (outsAt0 V c t.val t.isLt).2 = k0_pay2 (iblk0 V c 1 t) (k0_pay1 (F := F)) (iblk0 V c 0 t) := by
  rw [outsAt0_A V c t h0 (by omega)]
  dsimp only
  exact first_step0 c _ _ _ _ _ _ _ _ _ _ _ _ _

/-- At any later step it ends at what the point before left plus the block product. -/
theorem acc_next0 (c : Dev nD) (t : Fin cfg0.N) (h0 : ¬ t.val % 32 = 0) :
    (outsAt0 V c t.val t.isLt).2
      = k0_pay2 (iblk0 V c 1 t) (outsAt0 V c (t.val - 1) (Nat.lt_of_le_of_lt (Nat.sub_le _ _) t.isLt)).2 (iblk0 V c 0 t) := by
  by_cases h1 : t.val % 32 = 31
  · rw [outsAt0_C V c t h0 h1]
    dsimp only
    exact last_step_acc0 c _ _ _ _ _ _ _ _ _ _ _ _ _ _
  · rw [outsAt0_B V c t h0 h1]
    dsimp only
    exact middle_step0 c _ _ _ _ _ _ _ _ _ _ _ _ _ _

/-- At a last step the output block's buffer ends at the accumulator re-laid head by head. -/
theorem out_last0 (c : Dev nD) (t : Fin cfg0.N) (h1 : t.val % 32 = 31) :
    (outsAt0 V c t.val t.isLt).1 = k0_pay3 (outsAt0 V c t.val t.isLt).2 := by
  rw [outsAt0_C V c t (by omega) h1]
  dsimp only
  rw [last_step_out0, last_step_acc0]

end

end Cert.KernelIdeal.Fr

end
-- ==== Proof.KI.Pay0.lean ====
/-
  The three values the body of the first projection call stores, each read at one index, at the extended reals.

  (1) The initial accumulator: every entry is the zero word of the 32-bit format, which the ideal reading takes to 0.
  (2) One accumulation step: the stored block is the old accumulator plus the product of the activations block
      [2048, 256] with the weights block [256, 512]. Rounding the weights to the 16-bit format is the identity on the
      extended reals, and the product starts from a zero accumulator, so entry (s, c) is
      acc[s, c] + ∑ k < 256, x[s, k] * w[k, c].
  (3) The head split of the finished accumulator: the block [2048, 512] is re-read as [2048, 4, 128] in row-major
      order — entry (s, h, d) sits at flat position s * 512 + 128 * h + d, which is column 128 * h + d of row s — and the
      first two axes are then exchanged, so entry (h, s, d) of the result is acc[s, 128 * h + d].
-/
import proofs.«155036_j80436147519617_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.PayIdx

open Cert.KernelIdeal Cert.KernelIdeal.Gen Idealize.ShloMosaic Idealize.ShloMosaic.ValueIdx

/-- The initial accumulator is zero at every index: a splat of the zero word, re-read at its own shape. -/
theorem pay1_apply (s : Fin 2048) (col : Fin 512) : Cert.KernelIdeal.Gen.k0_pay1 (F := Ideal) (ix2 s col) = 0 := by
  unfold k0_pay1
  rw [shapeCast_self, broadcast_apply]
  exact Ideal.ofBits_zero_f32

/-- The row axis of the left factor is not contracted: the left factor is read in the row of the product's entry. -/
theorem mm_lhs_row (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl

/-- The column axis of the right factor is not contracted: the right factor is read in the column of the product's entry. -/
theorem mm_rhs_col (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- One accumulation step at an index: `acc[s, c] + ∑ k < 256, x[s, k] * w[k, c]`. The arguments are, in order, the
    weights block [256, 512], the accumulator [2048, 512] and the activations block [2048, 256]. -/
theorem pay2_apply (w : Vec Ideal S256x512 .f32) (acc : Vec Ideal S2048x512 .f32) (x : Vec Ideal S2048x256 .bf16)
    (s : Fin 2048) (col : Fin 512) :
    Cert.KernelIdeal.Gen.k0_pay2 (F := Ideal) w acc x (ix2 s col)
      = acc (ix2 s col) + ∑ k : Fin 256, x (ix2 s k) * w (ix2 k col) := by
  unfold k0_pay2
  -- the two re-readings at an unchanged shape are the identity; the sum of two blocks is entry by entry
  rw [shapeCast_self, shapeCast_self, addf_apply]
  congr 1
  simp only [matmul]
  -- a product into the zero block is the sum over the one contracted axis, re-indexed by its coordinate k < 256
  rw [Ideal.matmul_constant_zero_apply,
    ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  -- the left factor at (s, k)
  have el : dot_S2048x256_S256x512_S2048x512_1_0_0_1_n_n.lhsIdx (ix2 s col)
      ((contrEquiv1 dot_S2048x256_S256x512_S2048x512_1_0_0_1_n_n 256 rfl rfl).symm k) = ix2 s k :=
    funext fun a => Fin.ext (by
      match a with
      | ⟨0, _⟩ => exact mm_lhs_row _ _
      | ⟨1, _⟩ => exact (dot_S2048x256_S256x512_S2048x512_1_0_0_1_n_n.lhsIdx_val_of_single rfl _ _).trans hk)
  -- the right factor at (k, c)
  have er : dot_S2048x256_S256x512_S2048x512_1_0_0_1_n_n.rhsIdx (ix2 s col)
      ((contrEquiv1 dot_S2048x256_S256x512_S2048x512_1_0_0_1_n_n 256 rfl rfl).symm k) = ix2 k col :=
    funext fun a => Fin.ext (by
      match a with
      | ⟨0, _⟩ => exact (dot_S2048x256_S256x512_S2048x512_1_0_0_1_n_n.rhsIdx_val_of_single rfl _ _).trans hk
      | ⟨1, _⟩ => exact mm_rhs_col _ _)
  rw [el, er]
  -- the change of format of the weights is the identity on the extended reals
  rfl

/-- The head split at an index: entry (h, s, d) of the stored block is the accumulator at row s, column 128 * h + d. -/
theorem pay3_apply (acc : Vec Ideal S2048x512 .f32) (h : Fin 4) (s : Fin 2048) (d : Fin 128) :
    Cert.KernelIdeal.Gen.k0_pay3 (F := Ideal) acc (ix3 h s d) = acc (ix2 s ⟨128 * h.val + d.val, by omega⟩) := by
  unfold k0_pay3
  -- exchanging the first two axes: entry (h, s, d) is entry (s, h, d) of the re-read block
  rw [transpose_apply [1, 0, 2] _ transposes_S2048x4x128_p1_0_2_S4x2048x128 (ix3 h s d) (ix3 s h d)
    (fun b => match b with | ⟨0, _⟩ => rfl | ⟨1, _⟩ => rfl | ⟨2, _⟩ => rfl)]
  -- the re-reading keeps the flat position: (s * 4 + h) * 128 + d = s * 512 + (128 * h + d)
  exact shapeCast_apply acc shapeCasts_S2048x512_S2048x4x128 (ix3 s h d) (ix2 s ⟨128 * h.val + d.val, by omega⟩)
    (by
      rw [Shape.rowMajor_val_two, Shape.rowMajor_val_three]
      show s.val * 512 + (128 * h.val + d.val) = (s.val * 4 + h.val) * 128 + d.val
      omega)

end Cert.KernelIdeal.PayIdx

end
-- ==== Proof.LibBlockSum.lean ====
/-
  Two facts about finite sums in an additive commutative monoid, used to regroup a long sum into equal blocks
  and to unroll a running total.

  (1) A sum over `N * B` consecutive positions is the sum over its `N` blocks of `B` consecutive positions each:
      position `B * n + j` is the `j`-th position of block `n`, and `(n, j) ↦ B * n + j` is a bijection from
      `Fin N × Fin B` onto `Fin (N * B)`. Because addition is commutative and associative the order in which
      the terms are added does not matter.
  (2) A sequence that starts at `z + m 0` and whose every step adds the next term, `a (n + 1) = a n + m (n + 1)`,
      is `z` plus the partial sums of `m`.
-/
import Mathlib.Algebra.BigOperators.Fin
import Mathlib.Logic.Equiv.Fin.Basic

namespace Cert.LibBlockSum

open scoped BigOperators

variable {α : Type*} [AddCommMonoid α]

/-- Position `j` of block `n`, namely `B * n + j`, lies below `N * B` when `n < N` and `j < B`:
    `B * n + j < B * n + B = B * (n + 1) ≤ B * N`. -/
theorem block_index_lt {N B : ℕ} (n : Fin N) (j : Fin B) : B * n.val + j.val < N * B := by
  have h1 : B * n.val + j.val < B * (n.val + 1) := by
    rw [Nat.mul_succ]; exact Nat.add_lt_add_left j.isLt _
  have h2 : B * (n.val + 1) ≤ B * N := Nat.mul_le_mul_left _ n.isLt
  rw [Nat.mul_comm N B]
  exact lt_of_lt_of_le h1 h2

/-- **A sum cut into equal blocks.** For `f` on `Fin M` with `M = N * B`, summing block by block — the outer sum over
    the `N` blocks, the inner over the `B` positions `B * n + j` of block `n` — gives the sum of `f` over all of
    `Fin M`. The pairs `(n, j)` correspond one to one to the positions `B * n + j` (quotient and remainder by `B`),
    so both sides add the same terms, each once. -/
theorem sum_blocks_general (N B M : ℕ) (hM : N * B = M) (f : Fin M → α) :
    ∑ n : Fin N, ∑ j : Fin B, f ⟨B * n.val + j.val, hM ▸ block_index_lt n j⟩ = ∑ k : Fin M, f k := by
  subst hM
  have e : ∀ (n : Fin N) (j : Fin B),
      f ⟨B * n.val + j.val, block_index_lt n j⟩ = f (finProdFinEquiv (n, j)) := fun n j =>
    congrArg f (Fin.ext (by rw [finProdFinEquiv_apply_val]; exact Nat.add_comm _ _))
  simp only [e]
  rw [← Fintype.sum_prod_type (fun p : Fin N × Fin B => f (finProdFinEquiv p))]
  exact Equiv.sum_comp finProdFinEquiv f

/-- **8192 positions as 32 blocks of 256.** The sum of `f` over `Fin 8192` is the sum over `n < 32` of the sums over
    `j < 256` of `f (256 * n + j)`. -/
theorem sum_blocks (f : Fin 8192 → α) :
    ∑ n : Fin 32, ∑ j : Fin 256, f ⟨256 * n.val + j.val, by omega⟩ = ∑ k : Fin 8192, f k :=
  sum_blocks_general 32 256 8192 rfl f

/-- **A running total unrolled.** If `a 0 = z + m 0` and every step adds the next term, `a (n + 1) = a n + m (n + 1)`,
    then `a n` is `z` plus the sum of `m 0, …, m n`. By induction on `n`: the sum over `range (n + 2)` is the sum over
    `range (n + 1)` plus `m (n + 1)`, and addition is associative. -/
theorem running_total (a m : ℕ → α) (z : α) (h0 : a 0 = z + m 0) (hs : ∀ n, a (n + 1) = a n + m (n + 1)) (n : ℕ) :
    a n = z + ∑ i ∈ Finset.range (n + 1), m i := by
  induction n with
  | zero => rw [h0, Finset.sum_range_one]
  | succ n ih => rw [hs n, ih, Finset.sum_range_succ m (n + 1), add_assoc]

/-- The same with the step known only below a bound `N` (`a (n + 1) = a n + m (n + 1)` for `n + 1 ≤ N`): the
    conclusion holds for every `n ≤ N`. -/
theorem running_total_le (a m : ℕ → α) (z : α) (N : ℕ) (h0 : a 0 = z + m 0)
    (hs : ∀ n, n + 1 ≤ N → a (n + 1) = a n + m (n + 1)) (n : ℕ) (hn : n ≤ N) :
    a n = z + ∑ i ∈ Finset.range (n + 1), m i := by
  induction n with
  | zero => rw [h0, Finset.sum_range_one]
  | succ n ih => rw [hs n hn, ih (Nat.le_of_succ_le hn), Finset.sum_range_succ m (n + 1), add_assoc]

/-- **After 32 steps.** With `a 0 = z + m 0` and `a (n + 1) = a n + m (n + 1)`, the 32nd value `a 31` is `z` plus the
    sum of `m` over `Fin 32`. -/
theorem running_total_32 (a m : ℕ → α) (z : α) (h0 : a 0 = z + m 0) (hs : ∀ n, a (n + 1) = a n + m (n + 1)) :
    a 31 = z + ∑ i : Fin 32, m i.val := by
  rw [running_total a m z h0 hs 31, Finset.sum_range]

/-- The 32-step form with the step known only for `n + 1 ≤ 31`. -/
theorem running_total_32_le (a m : ℕ → α) (z : α) (h0 : a 0 = z + m 0)
    (hs : ∀ n, n + 1 ≤ 31 → a (n + 1) = a n + m (n + 1)) :
    a 31 = z + ∑ i : Fin 32, m i.val := by
  rw [running_total_le a m z 31 h0 hs 31 (Nat.le_refl _), Finset.sum_range]

end Cert.LibBlockSum
-- ==== Proof.KI.Tile0.lean ====
/-
  Projection call 0: what the accumulator holds at the end of a column tile.

  Fix a column tile j, a row s and a column col < 512 of the tile. Along the 32 grid points 32 j + n (n = 0, …, 31) of
  the tile the accumulator's entry (s, col) starts at 0 + m 0 and gains m n at point n, where
      m n = ∑ k' < 256, x[s, 256 n + k'] * w[256 n + k', 512 j + col]
  is the product of the point's activations block with its weights block at that entry: point 32 j + n reads columns
  256 n … 256 n + 255 of the activations and rows 256 n … 256 n + 255, columns 512 j … 512 j + 511 of the weights.
  After the 32nd point the entry is therefore ∑ n < 32, m n, and the 32 blocks of 256 consecutive positions are
  exactly the 8192 positions of the contraction, so this is ∑ k < 8192, x[s, k] * w[k, 512 j + col].

  The two whole arrays enter as functions X and Wt into the extended reals together with the equations saying which
  buffers' contents they are, so that their entries are multiplied as extended reals.
-/
import proofs.«155036_j80436147519617_2_alg».proof.Proof.KI.Blocks0
import proofs.«155036_j80436147519617_2_alg».proof.Proof.KI.Pay0
import proofs.«155036_j80436147519617_2_alg».proof.Proof.LibBlockSum

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

/-- The activations after the prologue on one core, as a function into the extended reals. -/
abbrev actv0 (V : (c : Dev nD) → (b : Ref sig .tc) → Buf (Elt Ideal) ((c : Thread nD τ).loc b)) (c : Dev nD) :
    S2048x8192.Idx → EReal := V c main_v1
/-- The query weights on one core, as a function into the extended reals. -/
abbrev wts0 (V : (c : Dev nD) → (b : Ref sig .tc) → Buf (Elt Ideal) ((c : Thread nD τ).loc b)) (c : Dev nD) :
    S8192x8192.Idx → EReal := V c main_arg1

/-- What point `n` of tile `j` adds to entry (s, col): `∑ k' < 256, X[s, 256 n + k'] * Wt[256 n + k', 512 j + col]`
    (zero past the tile's 32 points, so that the term is defined for every natural number). -/
def stepTerm0 (X : S2048x8192.Idx → EReal) (Wt : S8192x8192.Idx → EReal) (j : Fin 16) (s : Fin 2048) (col : Fin 512)
    (n : ℕ) : EReal :=
  if h : n < 32 then
    ∑ k : Fin 256, X (ix2 s ⟨256 * n + k.val, by omega⟩)
      * Wt (ix2 ⟨256 * n + k.val, by omega⟩ ⟨512 * j.val + col.val, by omega⟩)
  else 0

section
variable (V : (c : Dev nD) → (b : Ref sig .tc) → Buf (Elt Ideal) ((c : Thread nD τ).loc b)) (c : Dev nD)

/-- The accumulator after a point does not depend on how the point's number is written. -/
theorem outsAt0_congr {n n' : ℕ} (e : n = n') (h : n < cfg0.N) (h' : n' < cfg0.N) :
    (outsAt0 V c n h).2 = (outsAt0 V c n' h').2 := by
  subst e; rfl

/-- The product of the two blocks of point `t = 32 j + n` at entry (s, col), over the whole arrays: the activations at
    columns `256 n + k'` times the weights at rows `256 n + k'`, column `512 j + col`. -/
theorem blockprod0 (X : S2048x8192.Idx → EReal) (hX : X = V c main_v1) (Wt : S8192x8192.Idx → EReal) (hW : Wt = V c main_arg1)
    (t : Fin cfg0.N) (x : Vec Ideal S2048x256 .bf16) (hx : x = iblk0 V c 0 t) (w : Vec Ideal S256x512 .f32)
    (hw : w = iblk0 V c 1 t) (s : Fin 2048) (col : Fin 512) (n : ℕ) (hn : n < 32) (j : Fin 16)
    (ht : t.val = 32 * j.val + n) :
    ∑ k : Fin 256, x (ix2 s k) * w (ix2 k col) = stepTerm0 X Wt j s col n := by
  subst hX hW hx hw
  unfold stepTerm0
  rw [dif_pos hn]
  refine Finset.sum_congr rfl fun k _ => ?_
  rw [xblk0_apply V c t (ix2 s k) (ix2 s ⟨256 * n + k.val, by omega⟩) rfl
      (by show 256 * n + k.val = 256 * (t.val % 32) + k.val; rw [ht]; omega),
    wblk0_apply V c t (ix2 k col) (ix2 ⟨256 * n + k.val, by omega⟩ ⟨512 * j.val + col.val, by omega⟩)
      (by show 256 * n + k.val = 256 * (t.val % 32) + k.val; rw [ht]; omega)
      (by show 512 * j.val + col.val = 512 * (t.val / 32) + col.val; rw [ht]; omega)]

/-- Entry (s, col) of the accumulator after point `32 j + n` (zero past the grid, so that it is defined for every
    natural number). -/
def accAt0 (j : Fin 16) (s : Fin 2048) (col : Fin 512) (n : ℕ) : EReal :=
  if h : 32 * j.val + n < cfg0.N then (outsAt0 V c (32 * j.val + n) h).2 (ix2 s col) else 0

/-- The tile's first point: the zero fill plus the first block product. -/
theorem accAt0_zero (X : S2048x8192.Idx → EReal) (hX : X = V c main_v1) (Wt : S8192x8192.Idx → EReal) (hW : Wt = V c main_arg1)
    (j : Fin 16) (s : Fin 2048) (col : Fin 512) :
    accAt0 V c j s col 0 = 0 + stepTerm0 X Wt j s col 0 := by
  have hN : cfg0.N = 512 := N_0
  have hT : 32 * j.val + 0 < cfg0.N := by omega
  have e : (outsAt0 V c (32 * j.val + 0) hT).2
      = k0_pay2 (iblk0 V c 1 ⟨32 * j.val + 0, hT⟩) (k0_pay1 (F := Ideal)) (iblk0 V c 0 ⟨32 * j.val + 0, hT⟩) :=
    acc_first0 V c ⟨32 * j.val + 0, hT⟩ (by show (32 * j.val + 0) % 32 = 0; omega)
  unfold accAt0
  rw [dif_pos hT, e]
  refine (PayIdx.pay2_apply _ _ _ s col).trans ?_
  exact congrArg₂ (· + ·) (PayIdx.pay1_apply s col)
    (blockprod0 V c X hX Wt hW ⟨32 * j.val + 0, hT⟩ _ rfl _ rfl s col 0 (by omega) j rfl)

/-- A later point of the tile: what the point before left plus this point's block product. -/
theorem accAt0_succ (X : S2048x8192.Idx → EReal) (hX : X = V c main_v1) (Wt : S8192x8192.Idx → EReal) (hW : Wt = V c main_arg1)
    (j : Fin 16) (s : Fin 2048) (col : Fin 512) (n : ℕ) (hn : n + 1 ≤ 31) :
    accAt0 V c j s col (n + 1) = accAt0 V c j s col n + stepTerm0 X Wt j s col (n + 1) := by
  have hN : cfg0.N = 512 := N_0
  have hT : 32 * j.val + (n + 1) < cfg0.N := by omega
  have hT' : 32 * j.val + n < cfg0.N := by omega
  have e : (outsAt0 V c (32 * j.val + (n + 1)) hT).2
      = k0_pay2 (iblk0 V c 1 ⟨32 * j.val + (n + 1), hT⟩)
          (outsAt0 V c (32 * j.val + (n + 1) - 1) (Nat.lt_of_le_of_lt (Nat.sub_le _ _) hT)).2
          (iblk0 V c 0 ⟨32 * j.val + (n + 1), hT⟩) :=
    acc_next0 V c ⟨32 * j.val + (n + 1), hT⟩ (by show ¬ (32 * j.val + (n + 1)) % 32 = 0; omega)
  unfold accAt0
  rw [dif_pos hT, dif_pos hT', e]
  refine (PayIdx.pay2_apply _ _ _ s col).trans ?_
  exact congrArg₂ (· + ·)
    (congrFun (outsAt0_congr V c (by omega : 32 * j.val + (n + 1) - 1 = 32 * j.val + n) _ hT') (ix2 s col))
    (blockprod0 V c X hX Wt hW ⟨32 * j.val + (n + 1), hT⟩ _ rfl _ rfl s col (n + 1) (by omega) j rfl)

/-- **The accumulator at the end of column tile `j`**: entry (s, col) is the full contraction
    `∑ k < 8192, X[s, k] * Wt[k, 512 j + col]` of the query projection, `X` the activations after the prologue and
    `Wt` the query weights. -/
theorem tile_total0_of (X : S2048x8192.Idx → EReal) (hX : X = V c main_v1) (Wt : S8192x8192.Idx → EReal) (hW : Wt = V c main_arg1)
    (j : Fin 16) (s : Fin 2048) (col : Fin 512) (ht : 32 * j.val + 31 < cfg0.N) :
    (outsAt0 V c (32 * j.val + 31) ht).2 (ix2 s col)
      = ∑ k : Fin 8192, X (ix2 s k) * Wt (ix2 k ⟨512 * j.val + col.val, by omega⟩) := by
  have ea : accAt0 V c j s col 31 = (outsAt0 V c (32 * j.val + 31) ht).2 (ix2 s col) := dif_pos ht
  rw [← ea, Cert.LibBlockSum.running_total_32_le (accAt0 V c j s col) (stepTerm0 X Wt j s col) 0
      (accAt0_zero V c X hX Wt hW j s col) (accAt0_succ V c X hX Wt hW j s col), zero_add,
    ← Cert.LibBlockSum.sum_blocks (fun k : Fin 8192 => X (ix2 s k) * Wt (ix2 k ⟨512 * j.val + col.val, by omega⟩))]
  exact Finset.sum_congr rfl fun i _ => dif_pos i.isLt

/-- The same over the two arrays named by their buffers: entry (s, col) of the accumulator at the end of column tile
    `j` is `∑ k < 8192, x[s, k] * w[k, 512 j + col]`. -/
theorem tile_total0 (j : Fin 16) (s : Fin 2048) (col : Fin 512) (ht : 32 * j.val + 31 < cfg0.N) :
    (outsAt0 V c (32 * j.val + 31) ht).2 (ix2 s col)
      = ∑ k : Fin 8192, actv0 V c (ix2 s k) * wts0 V c (ix2 k ⟨512 * j.val + col.val, by omega⟩) :=
  tile_total0_of V c (actv0 V c) rfl (wts0 V c) rfl j s col ht

end

end Cert.KernelIdeal.Fr

end
-- ==== Proof.Spec.lean ====
/-
  The mathematics both programs compute, stated once over literal shapes at the extended reals.

  The input is an activation array x[1,1,2048,8192] and a weight matrix w[8192, H*128] (H = 64 for the query
  projection, H = 8 for the key and the value projection). The result is the head-split projection
      out[0, h, s, d] = sum over k < 8192 of x[0,0,s,k] * w[k, 128*h + d],
  an array of shape [1, H, 2048, 128]. Addition and multiplication are those of the extended reals; the sum is a
  finite sum in the commutative monoid (EReal, +), so any regrouping of its 8192 terms leaves it unchanged.
-/
import Idealize.ShloMosaic.PureOps.Ideal
import Idealize.ShloMosaic.Lib.ValueIdx

noncomputable section

namespace Cert.Spec

open Idealize.ShloMosaic Idealize.ShloMosaic.ValueIdx

/-- Column `128*h + d` of a weight matrix with 64 heads of width 128. -/
def col64 (h : Fin 64) (d : Fin 128) : Fin 8192 := ⟨128 * h.val + d.val, by omega⟩

/-- Column `128*h + d` of a weight matrix with 8 heads of width 128. -/
def col8 (h : Fin 8) (d : Fin 128) : Fin 1024 := ⟨128 * h.val + d.val, by omega⟩

/-- The query projection, head-split: `out[0,h,s,d] = ∑ k, x[0,0,s,k] * w[k, 128 h + d]`, 64 heads. -/
def projQ (x : (⟨4, ![1, 1, 2048, 8192]⟩ : Shape).Idx → EReal) (w : (⟨2, ![8192, 8192]⟩ : Shape).Idx → EReal) :
    (⟨4, ![1, 64, 2048, 128]⟩ : Shape).Idx → EReal :=
  fun i => ∑ k : Fin 8192,
    x (ix4 (0 : Fin 1) (0 : Fin 1) (⟨(i 2).val, (i 2).isLt⟩ : Fin 2048) k)
      * w (ix2 k (col64 ⟨(i 1).val, (i 1).isLt⟩ ⟨(i 3).val, (i 3).isLt⟩))

/-- The key / value projection, head-split: `out[0,h,s,d] = ∑ k, x[0,0,s,k] * w[k, 128 h + d]`, 8 heads. -/
def projKV (x : (⟨4, ![1, 1, 2048, 8192]⟩ : Shape).Idx → EReal) (w : (⟨2, ![8192, 1024]⟩ : Shape).Idx → EReal) :
    (⟨4, ![1, 8, 2048, 128]⟩ : Shape).Idx → EReal :=
  fun i => ∑ k : Fin 8192,
    x (ix4 (0 : Fin 1) (0 : Fin 1) (⟨(i 2).val, (i 2).isLt⟩ : Fin 2048) k)
      * w (ix2 k (col8 ⟨(i 1).val, (i 1).isLt⟩ ⟨(i 3).val, (i 3).isLt⟩))

end Cert.Spec

end
-- ==== Proof.KI.Final0.lean ====
/-
  Projection call 0: the array it leaves in its output.
  Only a last contraction step writes a block back: the last step of column tile j writes heads 4 j .. 4 j + 3, whose
  entry (h', s, d) is the accumulator's entry (s, 128 h' + d), that is the full contraction of row s of the activations
  with column 512 j + 128 h' + d = 128 (4 j + h') + d of the weights. The 16 write-backs cover the output array, head h
  being covered by tile h div 4, so the array the call returns is that contraction at every entry.
-/
import proofs.«155036_j80436147519617_2_alg».proof.Proof.KI.Tile0
import proofs.«155036_j80436147519617_2_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The array the call leaves in its output: entry (h, s, d) is the full contraction of row s of the activations with
    column 128 h + d of the weights. -/
def outArr0 (c : Dev nD) : S64x2048x128.Idx → EReal := fun i =>
  ∑ k : Fin 8192, actv0 V c (ix2 (⟨(i 1).val, (i 1).isLt⟩ : Fin 2048) k)
    * wts0 V c (ix2 k (Cert.Spec.col64 ⟨(i 0).val, (i 0).isLt⟩ ⟨(i 2).val, (i 2).isLt⟩))

/-- The accumulator does not depend on how its position is written. -/
theorem acc_congr0 (c : Dev nD) {n n' : ℕ} (e : n = n') (h : n < cfg0.N) (h' : n' < cfg0.N) :
    (outsAt0 V c n h).2 = (outsAt0 V c n' h').2 := by subst e; rfl

/-- Every output block is whole: 4 heads, 2048 rows, 128 lanes. -/
theorem xsize0_o : ∀ t : Fin cfg0.N, win0_2.xsize (grid0.coords t) 0 = 4 ∧ win0_2.xsize (grid0.coords t) 1 = 2048 ∧ win0_2.xsize (grid0.coords t) 2 = 128 :=
  (by decide +kernel : ∀ t : Fin grid0.N, win0_2.xsize (grid0.coords t) 0 = 4 ∧ win0_2.xsize (grid0.coords t) 1 = 2048 ∧ win0_2.xsize (grid0.coords t) 2 = 128)

/-- At a last step of column tile j = t div 32, entry (h', s, d) of the re-laid accumulator is the full contraction for
    column 512 j + 128 h' + d. -/
theorem out_entry0 (c : Dev nD) (t : Fin cfg0.N) (h31 : t.val % 32 = 31) (h' : Fin 4) (s : Fin 2048) (d : Fin 128)
    (q : Fin 8192) (hq : q.val = 512 * (t.val / 32) + (128 * h'.val + d.val)) :
    k0_pay3 (F := Ideal) (outsAt0 V c t.val t.isLt).2 (ix3 h' s d)
      = ∑ k : Fin 8192, actv0 V c (ix2 s k) * wts0 V c (ix2 k q) := by
  have hN' : cfg0.N = 512 := N_0
  have hN : t.val < 512 := lt_of_lt_of_eq t.isLt hN'
  have hj : t.val / 32 < 16 := by omega
  have ht : 32 * (t.val / 32) + 31 < cfg0.N := by omega
  rw [Cert.KernelIdeal.PayIdx.pay3_apply, acc_congr0 V c (show t.val = 32 * (t.val / 32) + 31 by omega) t.isLt ht,
    tile_total0 V c ⟨t.val / 32, hj⟩ s ⟨128 * h'.val + d.val, by omega⟩ ht]
  refine Finset.sum_congr rfl fun k _ => ?_
  refine congrArg (fun z => actv0 V c (ix2 s k) * wts0 V c z) ?_
  funext a
  apply Fin.ext
  match a with
  | ⟨0, _⟩ => rfl
  | ⟨1, _⟩ => exact hq.symm

/-- What a last step writes back is the corresponding block of `outArr`. -/
theorem flushed_eq0 (c : Dev nD) (t : Fin cfg0.N) (hf : (cfg0.win 2).flush t = true) :
    (dat0 V c).flushed 2 t = ((cfg0.win 2).blk t).view.read (Elt Ideal) (outArr0 V c) := by
  have h31 : t.val % 32 = 31 := (flush0_2 t).mp hf
  have hi := idx0_o t
  have hN : t.val < 512 := lt_of_lt_of_eq t.isLt (N_0)
  show (cfg0.win 2).cut (grid0.coords t) ((dat0 V c).after 2 t) = _
  rw [after0_2, out_last0 V c t h31]
  funext y
  rw [View.read_apply]
  have e0 : ((win0_2.rect t).emb y 0 : Nat) = win0_2.index t 0 * win0_2.size 0 + y 0 := win0_2.rect_emb_val t y 0
  have e1 : ((win0_2.rect t).emb y 1 : Nat) = win0_2.index t 1 * win0_2.size 1 + y 1 := win0_2.rect_emb_val t y 1
  have e2 : ((win0_2.rect t).emb y 2 : Nat) = win0_2.index t 2 * win0_2.size 2 + y 2 := win0_2.rect_emb_val t y 2
  have hx := xsize0_o t
  have y0 : (y 0 : Nat) < 4 := lt_of_lt_of_eq (y 0).isLt hx.1
  have y1 : (y 1 : Nat) < 2048 := lt_of_lt_of_eq (y 1).isLt hx.2.1
  have y2 : (y 2 : Nat) < 128 := lt_of_lt_of_eq (y 2).isLt hx.2.2
  rw [hi.1] at e0; rw [hi.2.1] at e1; rw [hi.2.2] at e2
  have s0 : win0_2.size 0 = 4 := rfl
  have s1 : win0_2.size 1 = 2048 := rfl
  have s2 : win0_2.size 2 = 128 := rfl
  rw [s0] at e0; rw [s1] at e1; rw [s2] at e2
  show k0_pay3 (F := Ideal) (outsAt0 V c t.val t.isLt).2 ((cfg0.win 2).xinj (grid0.coords t) y) = outArr0 V c ((win0_2.rect t).emb y)
  have hx3 : (cfg0.win 2).xinj (grid0.coords t) y = ix3 (⟨y 0, y0⟩ : Fin 4) (⟨y 1, y1⟩ : Fin 2048) (⟨y 2, y2⟩ : Fin 128) := by
    funext a; apply Fin.ext
    match a with
    | ⟨0, _⟩ => rfl
    | ⟨1, _⟩ => rfl
    | ⟨2, _⟩ => rfl
  rw [hx3]
  unfold outArr0
  rw [out_entry0 V c t h31 ⟨y 0, y0⟩ ⟨y 1, y1⟩ ⟨y 2, y2⟩
    (Cert.Spec.col64 ⟨(((win0_2.rect t).emb y 0)).val, (((win0_2.rect t).emb y 0)).isLt⟩ ⟨(((win0_2.rect t).emb y 2)).val, (((win0_2.rect t).emb y 2)).isLt⟩)
    (by show 128 * (((win0_2.rect t).emb y 0) : Nat) + (((win0_2.rect t).emb y 2) : Nat) = 512 * (t.val / 32) + (128 * (y 0 : Nat) + (y 2 : Nat)); rw [e0, e2]; omega)]
  refine Finset.sum_congr rfl fun k _ => ?_
  refine congrArg (fun z => actv0 V c z * _) ?_
  funext a; apply Fin.ext
  match a with
  | ⟨0, _⟩ => show (y 1 : Nat) = (((win0_2.rect t).emb y 1) : Nat); rw [e1]; omega
  | ⟨1, _⟩ => rfl

/-- Every entry (h, s, d) of the output array is written back by the last step of column tile h div 4. So when the call
    returns, its output array is `outArr`. -/
theorem final0 (c : Dev nD) : (dat0 V c).arrAt 2 cfg0.N = outArr0 V c :=
  (dat0 V c).arrAt_eq_of_cover 2 (outArr0 V c) (flushed_eq0 V c) fun i => by
    have hN' : cfg0.N = 512 := N_0
    have i0 : (i 0 : Nat) < 64 := (i 0).isLt
    have i1 : (i 1 : Nat) < 2048 := (i 1).isLt
    have i2 : (i 2 : Nat) < 128 := (i 2).isLt
    have hb : 32 * ((i 0 : Nat) / 4) + 31 < cfg0.N := by omega
    refine ⟨⟨32 * ((i 0 : Nat) / 4) + 31, hb⟩, (flush0_2 _).mpr (by show (32 * ((i 0 : Nat) / 4) + 31) % 32 = 31; omega), ?_⟩
    show i ∈ ((View.whole main_v2).slice (win0_2.rect ⟨32 * ((i 0 : Nat) / 4) + 31, hb⟩)).set
    rw [View.set_slice_whole, Rect.mem_set_unit]
    intro a
    have hi := idx0_o ⟨32 * ((i 0 : Nat) / 4) + 31, hb⟩
    have hx := xsize0_o ⟨32 * ((i 0 : Nat) / 4) + 31, hb⟩
    have hd : (32 * ((i 0 : Nat) / 4) + 31) / 32 = (i 0 : Nat) / 4 := by omega
    match a with
    | ⟨0, _⟩ =>
      show win0_2.index ⟨32 * ((i 0 : Nat) / 4) + 31, hb⟩ 0 * win0_2.size 0 ≤ (i 0 : Nat) ∧ (i 0 : Nat) < win0_2.index ⟨32 * ((i 0 : Nat) / 4) + 31, hb⟩ 0 * win0_2.size 0 + win0_2.xsize (grid0.coords ⟨32 * ((i 0 : Nat) / 4) + 31, hb⟩) 0
      rw [hi.1, hx.1, show win0_2.size 0 = 4 from rfl]; dsimp only; rw [hd]; omega
    | ⟨1, _⟩ =>
      show win0_2.index ⟨32 * ((i 0 : Nat) / 4) + 31, hb⟩ 1 * win0_2.size 1 ≤ (i 1 : Nat) ∧ (i 1 : Nat) < win0_2.index ⟨32 * ((i 0 : Nat) / 4) + 31, hb⟩ 1 * win0_2.size 1 + win0_2.xsize (grid0.coords ⟨32 * ((i 0 : Nat) / 4) + 31, hb⟩) 1
      rw [hi.2.1, hx.2.1]; omega
    | ⟨2, _⟩ =>
      show win0_2.index ⟨32 * ((i 0 : Nat) / 4) + 31, hb⟩ 2 * win0_2.size 2 ≤ (i 2 : Nat) ∧ (i 2 : Nat) < win0_2.index ⟨32 * ((i 0 : Nat) / 4) + 31, hb⟩ 2 * win0_2.size 2 + win0_2.xsize (grid0.coords ⟨32 * ((i 0 : Nat) / 4) + 31, hb⟩) 2
      rw [hi.2.2, hx.2.2]; omega

end Cert.KernelIdeal.Fr

end
-- ==== Proof.KI.Steps1.lean ====
/-
  Projection call 1: what each step leaves, as arithmetic.
  A first step leaves in the accumulator  0 + x·w  (the zero fill read back, plus the block product); a middle or last
  step leaves  acc + x·w  over what it found; a last step also leaves in the output block that new accumulator re-laid
  head by head. Here these are equations between the stores a step's run makes, read back, and the body's own
  arithmetic terms of the blocks (every store covers its whole buffer, so the newest store is what is read).
-/
import proofs.«155036_j80436147519617_2_alg».proof.Proof.KI.Frame1
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_off2_1 : (![0, 0] : Fin 2 → Nat) = fun _ => 0 := funext fun a => by fin_cases a <;> rfl
theorem zero_off3_1 : (![0, 0, 0] : Fin 3 → Nat) = fun _ => 0 := funext fun a => by fin_cases a <;> rfl

/-- First step: the accumulator ends at the zero fill plus the block product. -/
theorem first_step1 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond1_0 i) (hc1 : ¬cond1_1 i)
    (x0 : Vec F S2048x256 .bf16) (x1 : Vec F S256x512 .f32) :
    sout1_A_0 c i arg3 harg3 arg4 harg4 arg5 harg5 arg6 harg6 hc0 hc1 x0 x1 = k1_pay2 x1 (k1_pay1 (F := F)) x0 := by
  unfold sout1_A_0
  rw [View.read_writes_eq_canon _ _ _ (scover1_A_0 c i arg3 harg3 arg4 harg4 arg5 harg5 arg6 harg6 hc0 hc1 x0 x1)]
  unfold kernelRun1_A
  dsimp only
  try sl_unfold_words
  rw [View.canon_cons_unit_zero zero_off2_1, View.readCov_unit_zero (S := S2048x512) _ zero_off2_1]
  simp only [View.readAt_eq_ld, harg3.read_unread, harg4.read_unread, View.ld_unit_zero (S := S2048x256) zero_off2_1, View.ld_unit_zero (S := S256x512) zero_off2_1]

/-- Middle step: the accumulator ends at what it held plus the block product. -/
theorem middle_step1 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : ¬cond1_1 i)
    (x0 : Vec F S2048x256 .bf16) (x1 : Vec F S256x512 .f32) (xs0 : Vec F S2048x512 .f32) :
    sout1_B_0 c i arg3 harg3 arg4 harg4 arg5 harg5 arg6 harg6 hc0 hc1 x0 x1 xs0 = k1_pay2 x1 xs0 x0 := by
  unfold sout1_B_0
  rw [View.read_writes_eq_canon _ _ _ (scover1_B_0 c i arg3 harg3 arg4 harg4 arg5 harg5 arg6 harg6 hc0 hc1 x0 x1 xs0)]
  unfold kernelRun1_B
  dsimp only
  try sl_unfold_words
  rw [View.canon_unit_zero zero_off2_1]
  simp only [View.readAt_eq_ld, harg3.read_unread, harg4.read_unread, harg6.read_unread, View.ld_unit_zero (S := S2048x256) zero_off2_1, View.ld_unit_zero (S := S256x512) zero_off2_1, View.ld_unit_zero (S := S2048x512) zero_off2_1]

/-- Last step, the accumulator: as a middle step. -/
theorem last_step_acc1 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) :
    sout1_C_0 c i arg3 harg3 arg4 harg4 arg5 harg5 arg6 harg6 hc0 hc1 x0 x1 xs0 = k1_pay2 x1 xs0 x0 := by
  unfold sout1_C_0
  rw [View.read_writes_eq_canon _ _ _ (scover1_C_0 c i arg3 harg3 arg4 harg4 arg5 harg5 arg6 harg6 hc0 hc1 x0 x1 xs0)]
  unfold kernelRun1_C
  dsimp only
  try sl_unfold_words
  rw [View.canon_unit_zero zero_off2_1]
  simp only [View.readAt_eq_ld, harg3.read_unread, harg4.read_unread, harg6.read_unread, View.ld_unit_zero (S := S2048x256) zero_off2_1, View.ld_unit_zero (S := S256x512) zero_off2_1, View.ld_unit_zero (S := S2048x512) zero_off2_1]

/-- Last step, the output block: the new accumulator, re-laid head by head. -/
theorem last_step_out1 (c : Dev nD) (i : grid1.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond1_0 i) (hc1 : cond1_1 i)
    (x0 : Vec F S2048x256 .bf16) (x1 : Vec F S256x512 .f32) (xs0 : Vec F S2048x512 .f32) :
    out1_C_2 c i arg3 harg3 arg4 harg4 arg5 harg5 arg6 harg6 hc0 hc1 x0 x1 xs0 = k1_pay3 (k1_pay2 x1 xs0 x0) := by
  unfold out1_C_2
  rw [View.read_writes_eq_canon _ _ _ (cover1_C_2 c i arg3 harg3 arg4 harg4 arg5 harg5 arg6 harg6 hc0 hc1 x0 x1 xs0)]
  unfold kernelRun1_C
  dsimp only
  try sl_unfold_words
  rw [View.canon_unit_zero zero_off3_1, View.readCov_unit_zero (S := S2048x512) _ zero_off2_1]
  simp only [View.readAt_eq_ld, harg3.read_unread, harg4.read_unread, harg6.read_unread, View.ld_unit_zero (S := S2048x256) zero_off2_1, View.ld_unit_zero (S := S256x512) zero_off2_1, View.ld_unit_zero (S := S2048x512) zero_off2_1]

end Cert.KernelIdeal.Fr

end
-- ==== Proof.KI.Blocks1.lean ====
/-
  Projection call 1: the blocks of a point as parts of the whole arrays, and the recursion along the grid.

  Point t = 32 j + k reads the activations' block of all 2048 rows and columns 256 k .. 256 k + 255, and the weights'
  block of rows 256 k .. 256 k + 255 and columns 512 j .. 512 j + 511; at k = 31 it writes heads 4 j .. 4 j + 3 of the
  output. With acc(t) the accumulator after point t:
      acc(t) = 0 + x(t)·w(t)            if k = 0,
      acc(t) = acc(t-1) + x(t)·w(t)     if k > 0,
  and at k = 31 the output block is acc(t) re-laid head by head.
-/
import proofs.«155036_j80436147519617_2_alg».proof.Proof.KI.Steps1
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The index maps, decided over the grid -/

theorem idx1_x : ∀ t : Fin cfg1.N, win1_0.index t 0 = 0 ∧ win1_0.index t 1 = t.val % 32 :=
  (by decide +kernel : ∀ t : Fin grid1.N, win1_0.index t 0 = 0 ∧ win1_0.index t 1 = t.val % 32)
theorem idx1_w : ∀ t : Fin cfg1.N, win1_1.index t 0 = t.val % 32 ∧ win1_1.index t 1 = t.val / 32 :=
  (by decide +kernel : ∀ t : Fin grid1.N, win1_1.index t 0 = t.val % 32 ∧ win1_1.index t 1 = t.val / 32)
theorem idx1_o : ∀ t : Fin cfg1.N, win1_2.index t 0 = t.val / 32 ∧ win1_2.index t 1 = 0 ∧ win1_2.index t 2 = 0 :=
  (by decide +kernel : ∀ t : Fin grid1.N, win1_2.index t 0 = t.val / 32 ∧ win1_2.index t 1 = 0 ∧ win1_2.index t 2 = 0)

section
variable (V : (c : Dev nD) → (b : Ref sig .tc) → Buf (Elt F) ((c : Thread nD τ).loc b))

/-- The activations' block at point `t`: entry (s, k') is entry (s, 256 (t mod 32) + k') of the activation matrix. -/
theorem xblk1_apply (c : Dev nD) (t : Fin cfg1.N) (y : S2048x256.Idx) (k : S2048x8192.Idx)
    (hk0 : (k 0).val = (y 0).val) (hk1 : (k 1).val = 256 * (t.val % 32) + (y 1).val) :
    (iblk1 V c 0 t : Vec F S2048x256 .bf16) y = (V c main_v1 : S2048x8192.Idx → Elt F .bf16) k := by
  have hi := idx1_x t
  unfold iblk1
  rw [View.read_apply]
  show V c main_v1 _ = V c main_v1 _
  congr 1
  funext a
  apply Fin.ext
  match a with
  | ⟨0, _⟩ => show win1_0.index t 0 * 2048 + 1 * (y 0).val = (k 0).val; rw [hi.1, hk0]; omega
  | ⟨1, _⟩ => show win1_0.index t 1 * 256 + 1 * (y 1).val = (k 1).val; rw [hi.2, hk1]; omega

/-- The weights' block at point `t`: entry (k', col) is entry (256 (t mod 32) + k', 512 (t div 32) + col) of the weight matrix. -/
theorem wblk1_apply (c : Dev nD) (t : Fin cfg1.N) (y : S256x512.Idx) (k : S8192x1024.Idx)
    (hk0 : (k 0).val = 256 * (t.val % 32) + (y 0).val) (hk1 : (k 1).val = 512 * (t.val / 32) + (y 1).val) :
    (iblk1 V c 1 t : Vec F S256x512 .f32) y = (V c main_arg2 : S8192x1024.Idx → Elt F .f32) k := by
  have hi := idx1_w t
  unfold iblk1
  rw [View.read_apply]
  show V c main_arg2 _ = V c main_arg2 _
  congr 1
  funext a
  apply Fin.ext
  match a with
  | ⟨0, _⟩ => show win1_1.index t 0 * 256 + 1 * (y 0).val = (k 0).val; rw [hi.1, hk0]; omega
  | ⟨1, _⟩ => show win1_1.index t 1 * 512 + 1 * (y 1).val = (k 1).val; rw [hi.2, hk1]; omega

/-! ## The recursion along the grid -/

/-- At a first contraction step the accumulator ends at the zero fill plus the block product. -/
theorem acc_first1 (c : Dev nD) (t : Fin cfg1.N) (h0 : t.val % 32 = 0) :
    (outsAt1 V c t.val t.isLt).2 = k1_pay2 (iblk1 V c 1 t) (k1_pay1 (F := F)) (iblk1 V c 0 t) := by
  rw [outsAt1_A V c t h0 (by omega)]
  dsimp only
  exact first_step1 c _ _ _ _ _ _ _ _ _ _ _ _ _

/-- At any later step it ends at what the point before left plus the block product. -/
theorem acc_next1 (c : Dev nD) (t : Fin cfg1.N) (h0 : ¬ t.val % 32 = 0) :
    (outsAt1 V c t.val t.isLt).2
      = k1_pay2 (iblk1 V c 1 t) (outsAt1 V c (t.val - 1) (Nat.lt_of_le_of_lt (Nat.sub_le _ _) t.isLt)).2 (iblk1 V c 0 t) := by
  by_cases h1 : t.val % 32 = 31
  · rw [outsAt1_C V c t h0 h1]
    dsimp only
    exact last_step_acc1 c _ _ _ _ _ _ _ _ _ _ _ _ _ _
  · rw [outsAt1_B V c t h0 h1]
    dsimp only
    exact middle_step1 c _ _ _ _ _ _ _ _ _ _ _ _ _ _

/-- At a last step the output block's buffer ends at the accumulator re-laid head by head. -/
theorem out_last1 (c : Dev nD) (t : Fin cfg1.N) (h1 : t.val % 32 = 31) :
    (outsAt1 V c t.val t.isLt).1 = k1_pay3 (outsAt1 V c t.val t.isLt).2 := by
  rw [outsAt1_C V c t (by omega) h1]
  dsimp only
  rw [last_step_out1, last_step_acc1]

end

end Cert.KernelIdeal.Fr

end
-- ==== Proof.KI.Pay1.lean ====
/-
  The three values the body of the second projection call stores, each read at one index, at the extended reals.

  (1) The initial accumulator: every entry is the zero word of the 32-bit format, which the ideal reading takes to 0.
  (2) One accumulation step: the stored block is the old accumulator plus the product of the activations block
      [2048, 256] with the weights block [256, 512]. Rounding the weights to the 16-bit format is the identity on the
      extended reals, and the product starts from a zero accumulator, so entry (s, c) is
      acc[s, c] + ∑ k < 256, x[s, k] * w[k, c].
  (3) The head split of the finished accumulator: the block [2048, 512] is re-read as [2048, 4, 128] in row-major
      order — entry (s, h, d) sits at flat position s * 512 + 128 * h + d, which is column 128 * h + d of row s — and the
      first two axes are then exchanged, so entry (h, s, d) of the result is acc[s, 128 * h + d].
-/
import proofs.«155036_j80436147519617_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.PayIdx

open Cert.KernelIdeal Cert.KernelIdeal.Gen Idealize.ShloMosaic Idealize.ShloMosaic.ValueIdx

/-- The initial accumulator is zero at every index: a splat of the zero word, re-read at its own shape. -/
theorem pay1_apply_1 (s : Fin 2048) (col : Fin 512) : Cert.KernelIdeal.Gen.k1_pay1 (F := Ideal) (ix2 s col) = 0 := by
  unfold k1_pay1
  rw [shapeCast_self, broadcast_apply]
  exact Ideal.ofBits_zero_f32

/-- The row axis of the left factor is not contracted: the left factor is read in the row of the product's entry. -/
theorem mm_lhs_row_1 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl

/-- The column axis of the right factor is not contracted: the right factor is read in the column of the product's entry. -/
theorem mm_rhs_col_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- One accumulation step at an index: `acc[s, c] + ∑ k < 256, x[s, k] * w[k, c]`. The arguments are, in order, the
    weights block [256, 512], the accumulator [2048, 512] and the activations block [2048, 256]. -/
theorem pay2_apply_1 (w : Vec Ideal S256x512 .f32) (acc : Vec Ideal S2048x512 .f32) (x : Vec Ideal S2048x256 .bf16)
    (s : Fin 2048) (col : Fin 512) :
    Cert.KernelIdeal.Gen.k1_pay2 (F := Ideal) w acc x (ix2 s col)
      = acc (ix2 s col) + ∑ k : Fin 256, x (ix2 s k) * w (ix2 k col) := by
  unfold k1_pay2
  -- the two re-readings at an unchanged shape are the identity; the sum of two blocks is entry by entry
  rw [shapeCast_self, shapeCast_self, addf_apply]
  congr 1
  simp only [matmul]
  -- a product into the zero block is the sum over the one contracted axis, re-indexed by its coordinate k < 256
  rw [Ideal.matmul_constant_zero_apply,
    ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  -- the left factor at (s, k)
  have el : dot_S2048x256_S256x512_S2048x512_1_0_0_1_n_n.lhsIdx (ix2 s col)
      ((contrEquiv1 dot_S2048x256_S256x512_S2048x512_1_0_0_1_n_n 256 rfl rfl).symm k) = ix2 s k :=
    funext fun a => Fin.ext (by
      match a with
      | ⟨0, _⟩ => exact mm_lhs_row_1 _ _
      | ⟨1, _⟩ => exact (dot_S2048x256_S256x512_S2048x512_1_0_0_1_n_n.lhsIdx_val_of_single rfl _ _).trans hk)
  -- the right factor at (k, c)
  have er : dot_S2048x256_S256x512_S2048x512_1_0_0_1_n_n.rhsIdx (ix2 s col)
      ((contrEquiv1 dot_S2048x256_S256x512_S2048x512_1_0_0_1_n_n 256 rfl rfl).symm k) = ix2 k col :=
    funext fun a => Fin.ext (by
      match a with
      | ⟨0, _⟩ => exact (dot_S2048x256_S256x512_S2048x512_1_0_0_1_n_n.rhsIdx_val_of_single rfl _ _).trans hk
      | ⟨1, _⟩ => exact mm_rhs_col_1 _ _)
  rw [el, er]
  -- the change of format of the weights is the identity on the extended reals
  rfl

/-- The head split at an index: entry (h, s, d) of the stored block is the accumulator at row s, column 128 * h + d. -/
theorem pay3_apply_1 (acc : Vec Ideal S2048x512 .f32) (h : Fin 4) (s : Fin 2048) (d : Fin 128) :
    Cert.KernelIdeal.Gen.k1_pay3 (F := Ideal) acc (ix3 h s d) = acc (ix2 s ⟨128 * h.val + d.val, by omega⟩) := by
  unfold k1_pay3
  -- exchanging the first two axes: entry (h, s, d) is entry (s, h, d) of the re-read block
  rw [transpose_apply [1, 0, 2] _ transposes_S2048x4x128_p1_0_2_S4x2048x128 (ix3 h s d) (ix3 s h d)
    (fun b => match b with | ⟨0, _⟩ => rfl | ⟨1, _⟩ => rfl | ⟨2, _⟩ => rfl)]
  -- the re-reading keeps the flat position: (s * 4 + h) * 128 + d = s * 512 + (128 * h + d)
  exact shapeCast_apply acc shapeCasts_S2048x512_S2048x4x128 (ix3 s h d) (ix2 s ⟨128 * h.val + d.val, by omega⟩)
    (by
      rw [Shape.rowMajor_val_two, Shape.rowMajor_val_three]
      show s.val * 512 + (128 * h.val + d.val) = (s.val * 4 + h.val) * 128 + d.val
      omega)

end Cert.KernelIdeal.PayIdx

end
-- ==== Proof.KI.Tile1.lean ====
/-
  Projection call 1: what the accumulator holds at the end of a column tile.

  Fix a column tile j, a row s and a column col < 512 of the tile. Along the 32 grid points 32 j + n (n = 0, …, 31) of
  the tile the accumulator's entry (s, col) starts at 0 + m 0 and gains m n at point n, where
      m n = ∑ k' < 256, x[s, 256 n + k'] * w[256 n + k', 512 j + col]
  is the product of the point's activations block with its weights block at that entry: point 32 j + n reads columns
  256 n … 256 n + 255 of the activations and rows 256 n … 256 n + 255, columns 512 j … 512 j + 511 of the weights.
  After the 32nd point the entry is therefore ∑ n < 32, m n, and the 32 blocks of 256 consecutive positions are
  exactly the 8192 positions of the contraction, so this is ∑ k < 8192, x[s, k] * w[k, 512 j + col].

  The two whole arrays enter as functions X and Wt into the extended reals together with the equations saying which
  buffers' contents they are, so that their entries are multiplied as extended reals.
-/
import proofs.«155036_j80436147519617_2_alg».proof.Proof.KI.Blocks1
import proofs.«155036_j80436147519617_2_alg».proof.Proof.KI.Pay1
import proofs.«155036_j80436147519617_2_alg».proof.Proof.LibBlockSum

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

/-- The activations after the prologue on one core, as a function into the extended reals. -/
abbrev actv1 (V : (c : Dev nD) → (b : Ref sig .tc) → Buf (Elt Ideal) ((c : Thread nD τ).loc b)) (c : Dev nD) :
    S2048x8192.Idx → EReal := V c main_v1
/-- The key weights on one core, as a function into the extended reals. -/
abbrev wts1 (V : (c : Dev nD) → (b : Ref sig .tc) → Buf (Elt Ideal) ((c : Thread nD τ).loc b)) (c : Dev nD) :
    S8192x1024.Idx → EReal := V c main_arg2

/-- What point `n` of tile `j` adds to entry (s, col): `∑ k' < 256, X[s, 256 n + k'] * Wt[256 n + k', 512 j + col]`
    (zero past the tile's 32 points, so that the term is defined for every natural number). -/
def stepTerm1 (X : S2048x8192.Idx → EReal) (Wt : S8192x1024.Idx → EReal) (j : Fin 2) (s : Fin 2048) (col : Fin 512)
    (n : ℕ) : EReal :=
  if h : n < 32 then
    ∑ k : Fin 256, X (ix2 s ⟨256 * n + k.val, by omega⟩)
      * Wt (ix2 ⟨256 * n + k.val, by omega⟩ ⟨512 * j.val + col.val, by omega⟩)
  else 0

section
variable (V : (c : Dev nD) → (b : Ref sig .tc) → Buf (Elt Ideal) ((c : Thread nD τ).loc b)) (c : Dev nD)

/-- The accumulator after a point does not depend on how the point's number is written. -/
theorem outsAt1_congr {n n' : ℕ} (e : n = n') (h : n < cfg1.N) (h' : n' < cfg1.N) :
    (outsAt1 V c n h).2 = (outsAt1 V c n' h').2 := by
  subst e; rfl

/-- The product of the two blocks of point `t = 32 j + n` at entry (s, col), over the whole arrays: the activations at
    columns `256 n + k'` times the weights at rows `256 n + k'`, column `512 j + col`. -/
theorem blockprod1 (X : S2048x8192.Idx → EReal) (hX : X = V c main_v1) (Wt : S8192x1024.Idx → EReal) (hW : Wt = V c main_arg2)
    (t : Fin cfg1.N) (x : Vec Ideal S2048x256 .bf16) (hx : x = iblk1 V c 0 t) (w : Vec Ideal S256x512 .f32)
    (hw : w = iblk1 V c 1 t) (s : Fin 2048) (col : Fin 512) (n : ℕ) (hn : n < 32) (j : Fin 2)
    (ht : t.val = 32 * j.val + n) :
    ∑ k : Fin 256, x (ix2 s k) * w (ix2 k col) = stepTerm1 X Wt j s col n := by
  subst hX hW hx hw
  unfold stepTerm1
  rw [dif_pos hn]
  refine Finset.sum_congr rfl fun k _ => ?_
  rw [xblk1_apply V c t (ix2 s k) (ix2 s ⟨256 * n + k.val, by omega⟩) rfl
      (by show 256 * n + k.val = 256 * (t.val % 32) + k.val; rw [ht]; omega),
    wblk1_apply V c t (ix2 k col) (ix2 ⟨256 * n + k.val, by omega⟩ ⟨512 * j.val + col.val, by omega⟩)
      (by show 256 * n + k.val = 256 * (t.val % 32) + k.val; rw [ht]; omega)
      (by show 512 * j.val + col.val = 512 * (t.val / 32) + col.val; rw [ht]; omega)]

/-- Entry (s, col) of the accumulator after point `32 j + n` (zero past the grid, so that it is defined for every
    natural number). -/
def accAt1 (j : Fin 2) (s : Fin 2048) (col : Fin 512) (n : ℕ) : EReal :=
  if h : 32 * j.val + n < cfg1.N then (outsAt1 V c (32 * j.val + n) h).2 (ix2 s col) else 0

/-- The tile's first point: the zero fill plus the first block product. -/
theorem accAt1_zero (X : S2048x8192.Idx → EReal) (hX : X = V c main_v1) (Wt : S8192x1024.Idx → EReal) (hW : Wt = V c main_arg2)
    (j : Fin 2) (s : Fin 2048) (col : Fin 512) :
    accAt1 V c j s col 0 = 0 + stepTerm1 X Wt j s col 0 := by
  have hN : cfg1.N = 64 := N_1
  have hT : 32 * j.val + 0 < cfg1.N := by omega
  have e : (outsAt1 V c (32 * j.val + 0) hT).2
      = k1_pay2 (iblk1 V c 1 ⟨32 * j.val + 0, hT⟩) (k1_pay1 (F := Ideal)) (iblk1 V c 0 ⟨32 * j.val + 0, hT⟩) :=
    acc_first1 V c ⟨32 * j.val + 0, hT⟩ (by show (32 * j.val + 0) % 32 = 0; omega)
  unfold accAt1
  rw [dif_pos hT, e]
  refine (PayIdx.pay2_apply_1 _ _ _ s col).trans ?_
  exact congrArg₂ (· + ·) (PayIdx.pay1_apply_1 s col)
    (blockprod1 V c X hX Wt hW ⟨32 * j.val + 0, hT⟩ _ rfl _ rfl s col 0 (by omega) j rfl)

/-- A later point of the tile: what the point before left plus this point's block product. -/
theorem accAt1_succ (X : S2048x8192.Idx → EReal) (hX : X = V c main_v1) (Wt : S8192x1024.Idx → EReal) (hW : Wt = V c main_arg2)
    (j : Fin 2) (s : Fin 2048) (col : Fin 512) (n : ℕ) (hn : n + 1 ≤ 31) :
    accAt1 V c j s col (n + 1) = accAt1 V c j s col n + stepTerm1 X Wt j s col (n + 1) := by
  have hN : cfg1.N = 64 := N_1
  have hT : 32 * j.val + (n + 1) < cfg1.N := by omega
  have hT' : 32 * j.val + n < cfg1.N := by omega
  have e : (outsAt1 V c (32 * j.val + (n + 1)) hT).2
      = k1_pay2 (iblk1 V c 1 ⟨32 * j.val + (n + 1), hT⟩)
          (outsAt1 V c (32 * j.val + (n + 1) - 1) (Nat.lt_of_le_of_lt (Nat.sub_le _ _) hT)).2
          (iblk1 V c 0 ⟨32 * j.val + (n + 1), hT⟩) :=
    acc_next1 V c ⟨32 * j.val + (n + 1), hT⟩ (by show ¬ (32 * j.val + (n + 1)) % 32 = 0; omega)
  unfold accAt1
  rw [dif_pos hT, dif_pos hT', e]
  refine (PayIdx.pay2_apply_1 _ _ _ s col).trans ?_
  exact congrArg₂ (· + ·)
    (congrFun (outsAt1_congr V c (by omega : 32 * j.val + (n + 1) - 1 = 32 * j.val + n) _ hT') (ix2 s col))
    (blockprod1 V c X hX Wt hW ⟨32 * j.val + (n + 1), hT⟩ _ rfl _ rfl s col (n + 1) (by omega) j rfl)

/-- **The accumulator at the end of column tile `j`**: entry (s, col) is the full contraction
    `∑ k < 8192, X[s, k] * Wt[k, 512 j + col]` of the key projection, `X` the activations after the prologue and
    `Wt` the key weights. -/
theorem tile_total1_of (X : S2048x8192.Idx → EReal) (hX : X = V c main_v1) (Wt : S8192x1024.Idx → EReal) (hW : Wt = V c main_arg2)
    (j : Fin 2) (s : Fin 2048) (col : Fin 512) (ht : 32 * j.val + 31 < cfg1.N) :
    (outsAt1 V c (32 * j.val + 31) ht).2 (ix2 s col)
      = ∑ k : Fin 8192, X (ix2 s k) * Wt (ix2 k ⟨512 * j.val + col.val, by omega⟩) := by
  have ea : accAt1 V c j s col 31 = (outsAt1 V c (32 * j.val + 31) ht).2 (ix2 s col) := dif_pos ht
  rw [← ea, Cert.LibBlockSum.running_total_32_le (accAt1 V c j s col) (stepTerm1 X Wt j s col) 0
      (accAt1_zero V c X hX Wt hW j s col) (accAt1_succ V c X hX Wt hW j s col), zero_add,
    ← Cert.LibBlockSum.sum_blocks (fun k : Fin 8192 => X (ix2 s k) * Wt (ix2 k ⟨512 * j.val + col.val, by omega⟩))]
  exact Finset.sum_congr rfl fun i _ => dif_pos i.isLt

/-- The same over the two arrays named by their buffers: entry (s, col) of the accumulator at the end of column tile
    `j` is `∑ k < 8192, x[s, k] * w[k, 512 j + col]`. -/
theorem tile_total1 (j : Fin 2) (s : Fin 2048) (col : Fin 512) (ht : 32 * j.val + 31 < cfg1.N) :
    (outsAt1 V c (32 * j.val + 31) ht).2 (ix2 s col)
      = ∑ k : Fin 8192, actv1 V c (ix2 s k) * wts1 V c (ix2 k ⟨512 * j.val + col.val, by omega⟩) :=
  tile_total1_of V c (actv1 V c) rfl (wts1 V c) rfl j s col ht

end

end Cert.KernelIdeal.Fr

end
-- ==== Proof.KI.Final1.lean ====
/-
  Projection call 1: the array it leaves in its output.
  Only a last contraction step writes a block back: the last step of column tile j writes heads 4 j .. 4 j + 3, whose
  entry (h', s, d) is the accumulator's entry (s, 128 h' + d), that is the full contraction of row s of the activations
  with column 512 j + 128 h' + d = 128 (4 j + h') + d of the weights. The 2 write-backs cover the output array, head h
  being covered by tile h div 4, so the array the call returns is that contraction at every entry.
-/
import proofs.«155036_j80436147519617_2_alg».proof.Proof.KI.Tile1
import proofs.«155036_j80436147519617_2_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The array the call leaves in its output: entry (h, s, d) is the full contraction of row s of the activations with
    column 128 h + d of the weights. -/
def outArr1 (c : Dev nD) : S8x2048x128.Idx → EReal := fun i =>
  ∑ k : Fin 8192, actv1 V c (ix2 (⟨(i 1).val, (i 1).isLt⟩ : Fin 2048) k)
    * wts1 V c (ix2 k (Cert.Spec.col8 ⟨(i 0).val, (i 0).isLt⟩ ⟨(i 2).val, (i 2).isLt⟩))

/-- The accumulator does not depend on how its position is written. -/
theorem acc_congr1 (c : Dev nD) {n n' : ℕ} (e : n = n') (h : n < cfg1.N) (h' : n' < cfg1.N) :
    (outsAt1 V c n h).2 = (outsAt1 V c n' h').2 := by subst e; rfl

/-- Every output block is whole: 4 heads, 2048 rows, 128 lanes. -/
theorem xsize1_o : ∀ t : Fin cfg1.N, win1_2.xsize (grid1.coords t) 0 = 4 ∧ win1_2.xsize (grid1.coords t) 1 = 2048 ∧ win1_2.xsize (grid1.coords t) 2 = 128 :=
  (by decide +kernel : ∀ t : Fin grid1.N, win1_2.xsize (grid1.coords t) 0 = 4 ∧ win1_2.xsize (grid1.coords t) 1 = 2048 ∧ win1_2.xsize (grid1.coords t) 2 = 128)

/-- At a last step of column tile j = t div 32, entry (h', s, d) of the re-laid accumulator is the full contraction for
    column 512 j + 128 h' + d. -/
theorem out_entry1 (c : Dev nD) (t : Fin cfg1.N) (h31 : t.val % 32 = 31) (h' : Fin 4) (s : Fin 2048) (d : Fin 128)
    (q : Fin 1024) (hq : q.val = 512 * (t.val / 32) + (128 * h'.val + d.val)) :
    k1_pay3 (F := Ideal) (outsAt1 V c t.val t.isLt).2 (ix3 h' s d)
      = ∑ k : Fin 8192, actv1 V c (ix2 s k) * wts1 V c (ix2 k q) := by
  have hN' : cfg1.N = 64 := N_1
  have hN : t.val < 64 := lt_of_lt_of_eq t.isLt hN'
  have hj : t.val / 32 < 2 := by omega
  have ht : 32 * (t.val / 32) + 31 < cfg1.N := by omega
  rw [Cert.KernelIdeal.PayIdx.pay3_apply_1, acc_congr1 V c (show t.val = 32 * (t.val / 32) + 31 by omega) t.isLt ht,
    tile_total1 V c ⟨t.val / 32, hj⟩ s ⟨128 * h'.val + d.val, by omega⟩ ht]
  refine Finset.sum_congr rfl fun k _ => ?_
  refine congrArg (fun z => actv1 V c (ix2 s k) * wts1 V c z) ?_
  funext a
  apply Fin.ext
  match a with
  | ⟨0, _⟩ => rfl
  | ⟨1, _⟩ => exact hq.symm

/-- What a last step writes back is the corresponding block of `outArr`. -/
theorem flushed_eq1 (c : Dev nD) (t : Fin cfg1.N) (hf : (cfg1.win 2).flush t = true) :
    (dat1 V c).flushed 2 t = ((cfg1.win 2).blk t).view.read (Elt Ideal) (outArr1 V c) := by
  have h31 : t.val % 32 = 31 := (flush1_2 t).mp hf
  have hi := idx1_o t
  have hN : t.val < 64 := lt_of_lt_of_eq t.isLt (N_1)
  show (cfg1.win 2).cut (grid1.coords t) ((dat1 V c).after 2 t) = _
  rw [after1_2, out_last1 V c t h31]
  funext y
  rw [View.read_apply]
  have e0 : ((win1_2.rect t).emb y 0 : Nat) = win1_2.index t 0 * win1_2.size 0 + y 0 := win1_2.rect_emb_val t y 0
  have e1 : ((win1_2.rect t).emb y 1 : Nat) = win1_2.index t 1 * win1_2.size 1 + y 1 := win1_2.rect_emb_val t y 1
  have e2 : ((win1_2.rect t).emb y 2 : Nat) = win1_2.index t 2 * win1_2.size 2 + y 2 := win1_2.rect_emb_val t y 2
  have hx := xsize1_o t
  have y0 : (y 0 : Nat) < 4 := lt_of_lt_of_eq (y 0).isLt hx.1
  have y1 : (y 1 : Nat) < 2048 := lt_of_lt_of_eq (y 1).isLt hx.2.1
  have y2 : (y 2 : Nat) < 128 := lt_of_lt_of_eq (y 2).isLt hx.2.2
  rw [hi.1] at e0; rw [hi.2.1] at e1; rw [hi.2.2] at e2
  have s0 : win1_2.size 0 = 4 := rfl
  have s1 : win1_2.size 1 = 2048 := rfl
  have s2 : win1_2.size 2 = 128 := rfl
  rw [s0] at e0; rw [s1] at e1; rw [s2] at e2
  show k1_pay3 (F := Ideal) (outsAt1 V c t.val t.isLt).2 ((cfg1.win 2).xinj (grid1.coords t) y) = outArr1 V c ((win1_2.rect t).emb y)
  have hx3 : (cfg1.win 2).xinj (grid1.coords t) y = ix3 (⟨y 0, y0⟩ : Fin 4) (⟨y 1, y1⟩ : Fin 2048) (⟨y 2, y2⟩ : Fin 128) := by
    funext a; apply Fin.ext
    match a with
    | ⟨0, _⟩ => rfl
    | ⟨1, _⟩ => rfl
    | ⟨2, _⟩ => rfl
  rw [hx3]
  unfold outArr1
  rw [out_entry1 V c t h31 ⟨y 0, y0⟩ ⟨y 1, y1⟩ ⟨y 2, y2⟩
    (Cert.Spec.col8 ⟨(((win1_2.rect t).emb y 0)).val, (((win1_2.rect t).emb y 0)).isLt⟩ ⟨(((win1_2.rect t).emb y 2)).val, (((win1_2.rect t).emb y 2)).isLt⟩)
    (by show 128 * (((win1_2.rect t).emb y 0) : Nat) + (((win1_2.rect t).emb y 2) : Nat) = 512 * (t.val / 32) + (128 * (y 0 : Nat) + (y 2 : Nat)); rw [e0, e2]; omega)]
  refine Finset.sum_congr rfl fun k _ => ?_
  refine congrArg (fun z => actv1 V c z * _) ?_
  funext a; apply Fin.ext
  match a with
  | ⟨0, _⟩ => show (y 1 : Nat) = (((win1_2.rect t).emb y 1) : Nat); rw [e1]; omega
  | ⟨1, _⟩ => rfl

/-- Every entry (h, s, d) of the output array is written back by the last step of column tile h div 4. So when the call
    returns, its output array is `outArr`. -/
theorem final1 (c : Dev nD) : (dat1 V c).arrAt 2 cfg1.N = outArr1 V c :=
  (dat1 V c).arrAt_eq_of_cover 2 (outArr1 V c) (flushed_eq1 V c) fun i => by
    have hN' : cfg1.N = 64 := N_1
    have i0 : (i 0 : Nat) < 8 := (i 0).isLt
    have i1 : (i 1 : Nat) < 2048 := (i 1).isLt
    have i2 : (i 2 : Nat) < 128 := (i 2).isLt
    have hb : 32 * ((i 0 : Nat) / 4) + 31 < cfg1.N := by omega
    refine ⟨⟨32 * ((i 0 : Nat) / 4) + 31, hb⟩, (flush1_2 _).mpr (by show (32 * ((i 0 : Nat) / 4) + 31) % 32 = 31; omega), ?_⟩
    show i ∈ ((View.whole main_v3).slice (win1_2.rect ⟨32 * ((i 0 : Nat) / 4) + 31, hb⟩)).set
    rw [View.set_slice_whole, Rect.mem_set_unit]
    intro a
    have hi := idx1_o ⟨32 * ((i 0 : Nat) / 4) + 31, hb⟩
    have hx := xsize1_o ⟨32 * ((i 0 : Nat) / 4) + 31, hb⟩
    have hd : (32 * ((i 0 : Nat) / 4) + 31) / 32 = (i 0 : Nat) / 4 := by omega
    match a with
    | ⟨0, _⟩ =>
      show win1_2.index ⟨32 * ((i 0 : Nat) / 4) + 31, hb⟩ 0 * win1_2.size 0 ≤ (i 0 : Nat) ∧ (i 0 : Nat) < win1_2.index ⟨32 * ((i 0 : Nat) / 4) + 31, hb⟩ 0 * win1_2.size 0 + win1_2.xsize (grid1.coords ⟨32 * ((i 0 : Nat) / 4) + 31, hb⟩) 0
      rw [hi.1, hx.1, show win1_2.size 0 = 4 from rfl]; dsimp only; rw [hd]; omega
    | ⟨1, _⟩ =>
      show win1_2.index ⟨32 * ((i 0 : Nat) / 4) + 31, hb⟩ 1 * win1_2.size 1 ≤ (i 1 : Nat) ∧ (i 1 : Nat) < win1_2.index ⟨32 * ((i 0 : Nat) / 4) + 31, hb⟩ 1 * win1_2.size 1 + win1_2.xsize (grid1.coords ⟨32 * ((i 0 : Nat) / 4) + 31, hb⟩) 1
      rw [hi.2.1, hx.2.1]; omega
    | ⟨2, _⟩ =>
      show win1_2.index ⟨32 * ((i 0 : Nat) / 4) + 31, hb⟩ 2 * win1_2.size 2 ≤ (i 2 : Nat) ∧ (i 2 : Nat) < win1_2.index ⟨32 * ((i 0 : Nat) / 4) + 31, hb⟩ 2 * win1_2.size 2 + win1_2.xsize (grid1.coords ⟨32 * ((i 0 : Nat) / 4) + 31, hb⟩) 2
      rw [hi.2.2, hx.2.2]; omega

end Cert.KernelIdeal.Fr

end
-- ==== Proof.KI.Steps2.lean ====
/-
  Projection call 2: what each step leaves, as arithmetic.
  A first step leaves in the accumulator  0 + x·w  (the zero fill read back, plus the block product); a middle or last
  step leaves  acc + x·w  over what it found; a last step also leaves in the output block that new accumulator re-laid
  head by head. Here these are equations between the stores a step's run makes, read back, and the body's own
  arithmetic terms of the blocks (every store covers its whole buffer, so the newest store is what is read).
-/
import proofs.«155036_j80436147519617_2_alg».proof.Proof.KI.Frame2
import Idealize.ShloMosaic.Lib.Pipeline.Value
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_off2_2 : (![0, 0] : Fin 2 → Nat) = fun _ => 0 := funext fun a => by fin_cases a <;> rfl
theorem zero_off3_2 : (![0, 0, 0] : Fin 3 → Nat) = fun _ => 0 := funext fun a => by fin_cases a <;> rfl

/-- First step: the accumulator ends at the zero fill plus the block product. -/
theorem first_step2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : cond2_0 i) (hc1 : ¬cond2_1 i)
    (x0 : Vec F S2048x256 .bf16) (x1 : Vec F S256x512 .f32) :
    sout2_A_0 c i arg3 harg3 arg4 harg4 arg5 harg5 arg6 harg6 hc0 hc1 x0 x1 = k2_pay2 x1 (k2_pay1 (F := F)) x0 := by
  unfold sout2_A_0
  rw [View.read_writes_eq_canon _ _ _ (scover2_A_0 c i arg3 harg3 arg4 harg4 arg5 harg5 arg6 harg6 hc0 hc1 x0 x1)]
  unfold kernelRun2_A
  dsimp only
  try sl_unfold_words
  rw [View.canon_cons_unit_zero zero_off2_2, View.readCov_unit_zero (S := S2048x512) _ zero_off2_2]
  simp only [View.readAt_eq_ld, harg3.read_unread, harg4.read_unread, View.ld_unit_zero (S := S2048x256) zero_off2_2, View.ld_unit_zero (S := S256x512) zero_off2_2]

/-- Middle step: the accumulator ends at what it held plus the block product. -/
theorem middle_step2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : ¬cond2_1 i)
    (x0 : Vec F S2048x256 .bf16) (x1 : Vec F S256x512 .f32) (xs0 : Vec F S2048x512 .f32) :
    sout2_B_0 c i arg3 harg3 arg4 harg4 arg5 harg5 arg6 harg6 hc0 hc1 x0 x1 xs0 = k2_pay2 x1 xs0 x0 := by
  unfold sout2_B_0
  rw [View.read_writes_eq_canon _ _ _ (scover2_B_0 c i arg3 harg3 arg4 harg4 arg5 harg5 arg6 harg6 hc0 hc1 x0 x1 xs0)]
  unfold kernelRun2_B
  dsimp only
  try sl_unfold_words
  rw [View.canon_unit_zero zero_off2_2]
  simp only [View.readAt_eq_ld, harg3.read_unread, harg4.read_unread, harg6.read_unread, View.ld_unit_zero (S := S2048x256) zero_off2_2, View.ld_unit_zero (S := S256x512) zero_off2_2, View.ld_unit_zero (S := S2048x512) zero_off2_2]

/-- Last step, the accumulator: as a middle step. -/
theorem last_step_acc2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) :
    sout2_C_0 c i arg3 harg3 arg4 harg4 arg5 harg5 arg6 harg6 hc0 hc1 x0 x1 xs0 = k2_pay2 x1 xs0 x0 := by
  unfold sout2_C_0
  rw [View.read_writes_eq_canon _ _ _ (scover2_C_0 c i arg3 harg3 arg4 harg4 arg5 harg5 arg6 harg6 hc0 hc1 x0 x1 xs0)]
  unfold kernelRun2_C
  dsimp only
  try sl_unfold_words
  rw [View.canon_unit_zero zero_off2_2]
  simp only [View.readAt_eq_ld, harg3.read_unread, harg4.read_unread, harg6.read_unread, View.ld_unit_zero (S := S2048x256) zero_off2_2, View.ld_unit_zero (S := S256x512) zero_off2_2, View.ld_unit_zero (S := S2048x512) zero_off2_2]

/-- Last step, the output block: the new accumulator, re-laid head by head. -/
theorem last_step_out2 (c : Dev nD) (i : grid2.Coords) (arg3 : Memref sig .tc .vmem S2048x256 .bf16) (harg3 : arg3.IsWhole) (arg4 : Memref sig .tc .vmem S256x512 .f32) (harg4 : arg4.IsWhole) (arg5 : Memref sig .tc .vmem S4x2048x128 .f32) (harg5 : arg5.IsWhole) (arg6 : Memref sig .tc .vmem S2048x512 .f32) (harg6 : arg6.IsWhole) (hc0 : ¬cond2_0 i) (hc1 : cond2_1 i)
    (x0 : Vec F S2048x256 .bf16) (x1 : Vec F S256x512 .f32) (xs0 : Vec F S2048x512 .f32) :
    out2_C_2 c i arg3 harg3 arg4 harg4 arg5 harg5 arg6 harg6 hc0 hc1 x0 x1 xs0 = k2_pay3 (k2_pay2 x1 xs0 x0) := by
  unfold out2_C_2
  rw [View.read_writes_eq_canon _ _ _ (cover2_C_2 c i arg3 harg3 arg4 harg4 arg5 harg5 arg6 harg6 hc0 hc1 x0 x1 xs0)]
  unfold kernelRun2_C
  dsimp only
  try sl_unfold_words
  rw [View.canon_unit_zero zero_off3_2, View.readCov_unit_zero (S := S2048x512) _ zero_off2_2]
  simp only [View.readAt_eq_ld, harg3.read_unread, harg4.read_unread, harg6.read_unread, View.ld_unit_zero (S := S2048x256) zero_off2_2, View.ld_unit_zero (S := S256x512) zero_off2_2, View.ld_unit_zero (S := S2048x512) zero_off2_2]

end Cert.KernelIdeal.Fr

end
-- ==== Proof.KI.Blocks2.lean ====
/-
  Projection call 2: the blocks of a point as parts of the whole arrays, and the recursion along the grid.

  Point t = 32 j + k reads the activations' block of all 2048 rows and columns 256 k .. 256 k + 255, and the weights'
  block of rows 256 k .. 256 k + 255 and columns 512 j .. 512 j + 511; at k = 31 it writes heads 4 j .. 4 j + 3 of the
  output. With acc(t) the accumulator after point t:
      acc(t) = 0 + x(t)·w(t)            if k = 0,
      acc(t) = acc(t-1) + x(t)·w(t)     if k > 0,
  and at k = 31 the output block is acc(t) re-laid head by head.
-/
import proofs.«155036_j80436147519617_2_alg».proof.Proof.KI.Steps2
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The index maps, decided over the grid -/

theorem idx2_x : ∀ t : Fin cfg2.N, win2_0.index t 0 = 0 ∧ win2_0.index t 1 = t.val % 32 :=
  (by decide +kernel : ∀ t : Fin grid2.N, win2_0.index t 0 = 0 ∧ win2_0.index t 1 = t.val % 32)
theorem idx2_w : ∀ t : Fin cfg2.N, win2_1.index t 0 = t.val % 32 ∧ win2_1.index t 1 = t.val / 32 :=
  (by decide +kernel : ∀ t : Fin grid2.N, win2_1.index t 0 = t.val % 32 ∧ win2_1.index t 1 = t.val / 32)
theorem idx2_o : ∀ t : Fin cfg2.N, win2_2.index t 0 = t.val / 32 ∧ win2_2.index t 1 = 0 ∧ win2_2.index t 2 = 0 :=
  (by decide +kernel : ∀ t : Fin grid2.N, win2_2.index t 0 = t.val / 32 ∧ win2_2.index t 1 = 0 ∧ win2_2.index t 2 = 0)

section
variable (V : (c : Dev nD) → (b : Ref sig .tc) → Buf (Elt F) ((c : Thread nD τ).loc b))

/-- The activations' block at point `t`: entry (s, k') is entry (s, 256 (t mod 32) + k') of the activation matrix. -/
theorem xblk2_apply (c : Dev nD) (t : Fin cfg2.N) (y : S2048x256.Idx) (k : S2048x8192.Idx)
    (hk0 : (k 0).val = (y 0).val) (hk1 : (k 1).val = 256 * (t.val % 32) + (y 1).val) :
    (iblk2 V c 0 t : Vec F S2048x256 .bf16) y = (V c main_v1 : S2048x8192.Idx → Elt F .bf16) k := by
  have hi := idx2_x t
  unfold iblk2
  rw [View.read_apply]
  show V c main_v1 _ = V c main_v1 _
  congr 1
  funext a
  apply Fin.ext
  match a with
  | ⟨0, _⟩ => show win2_0.index t 0 * 2048 + 1 * (y 0).val = (k 0).val; rw [hi.1, hk0]; omega
  | ⟨1, _⟩ => show win2_0.index t 1 * 256 + 1 * (y 1).val = (k 1).val; rw [hi.2, hk1]; omega

/-- The weights' block at point `t`: entry (k', col) is entry (256 (t mod 32) + k', 512 (t div 32) + col) of the weight matrix. -/
theorem wblk2_apply (c : Dev nD) (t : Fin cfg2.N) (y : S256x512.Idx) (k : S8192x1024.Idx)
    (hk0 : (k 0).val = 256 * (t.val % 32) + (y 0).val) (hk1 : (k 1).val = 512 * (t.val / 32) + (y 1).val) :
    (iblk2 V c 1 t : Vec F S256x512 .f32) y = (V c main_arg3 : S8192x1024.Idx → Elt F .f32) k := by
  have hi := idx2_w t
  unfold iblk2
  rw [View.read_apply]
  show V c main_arg3 _ = V c main_arg3 _
  congr 1
  funext a
  apply Fin.ext
  match a with
  | ⟨0, _⟩ => show win2_1.index t 0 * 256 + 1 * (y 0).val = (k 0).val; rw [hi.1, hk0]; omega
  | ⟨1, _⟩ => show win2_1.index t 1 * 512 + 1 * (y 1).val = (k 1).val; rw [hi.2, hk1]; omega

/-! ## The recursion along the grid -/

/-- At a first contraction step the accumulator ends at the zero fill plus the block product. -/
theorem acc_first2 (c : Dev nD) (t : Fin cfg2.N) (h0 : t.val % 32 = 0) :
    (outsAt2 V c t.val t.isLt).2 = k2_pay2 (iblk2 V c 1 t) (k2_pay1 (F := F)) (iblk2 V c 0 t) := by
  rw [outsAt2_A V c t h0 (by omega)]
  dsimp only
  exact first_step2 c _ _ _ _ _ _ _ _ _ _ _ _ _

/-- At any later step it ends at what the point before left plus the block product. -/
theorem acc_next2 (c : Dev nD) (t : Fin cfg2.N) (h0 : ¬ t.val % 32 = 0) :
    (outsAt2 V c t.val t.isLt).2
      = k2_pay2 (iblk2 V c 1 t) (outsAt2 V c (t.val - 1) (Nat.lt_of_le_of_lt (Nat.sub_le _ _) t.isLt)).2 (iblk2 V c 0 t) := by
  by_cases h1 : t.val % 32 = 31
  · rw [outsAt2_C V c t h0 h1]
    dsimp only
    exact last_step_acc2 c _ _ _ _ _ _ _ _ _ _ _ _ _ _
  · rw [outsAt2_B V c t h0 h1]
    dsimp only
    exact middle_step2 c _ _ _ _ _ _ _ _ _ _ _ _ _ _

/-- At a last step the output block's buffer ends at the accumulator re-laid head by head. -/
theorem out_last2 (c : Dev nD) (t : Fin cfg2.N) (h1 : t.val % 32 = 31) :
    (outsAt2 V c t.val t.isLt).1 = k2_pay3 (outsAt2 V c t.val t.isLt).2 := by
  rw [outsAt2_C V c t (by omega) h1]
  dsimp only
  rw [last_step_out2, last_step_acc2]

end

end Cert.KernelIdeal.Fr

end
-- ==== Proof.KI.Pay2.lean ====
/-
  The three values the body of the third projection call stores, each read at one index, at the extended reals.

  (1) The initial accumulator: every entry is the zero word of the 32-bit format, which the ideal reading takes to 0.
  (2) One accumulation step: the stored block is the old accumulator plus the product of the activations block
      [2048, 256] with the weights block [256, 512]. Rounding the weights to the 16-bit format is the identity on the
      extended reals, and the product starts from a zero accumulator, so entry (s, c) is
      acc[s, c] + ∑ k < 256, x[s, k] * w[k, c].
  (3) The head split of the finished accumulator: the block [2048, 512] is re-read as [2048, 4, 128] in row-major
      order — entry (s, h, d) sits at flat position s * 512 + 128 * h + d, which is column 128 * h + d of row s — and the
      first two axes are then exchanged, so entry (h, s, d) of the result is acc[s, 128 * h + d].
-/
import proofs.«155036_j80436147519617_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.PayIdx

open Cert.KernelIdeal Cert.KernelIdeal.Gen Idealize.ShloMosaic Idealize.ShloMosaic.ValueIdx

/-- The initial accumulator is zero at every index: a splat of the zero word, re-read at its own shape. -/
theorem pay1_apply_2 (s : Fin 2048) (col : Fin 512) : Cert.KernelIdeal.Gen.k2_pay1 (F := Ideal) (ix2 s col) = 0 := by
  unfold k2_pay1
  rw [shapeCast_self, broadcast_apply]
  exact Ideal.ofBits_zero_f32

/-- The row axis of the left factor is not contracted: the left factor is read in the row of the product's entry. -/
theorem mm_lhs_row_2 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl

/-- The column axis of the right factor is not contracted: the right factor is read in the column of the product's entry. -/
theorem mm_rhs_col_2 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- One accumulation step at an index: `acc[s, c] + ∑ k < 256, x[s, k] * w[k, c]`. The arguments are, in order, the
    weights block [256, 512], the accumulator [2048, 512] and the activations block [2048, 256]. -/
theorem pay2_apply_2 (w : Vec Ideal S256x512 .f32) (acc : Vec Ideal S2048x512 .f32) (x : Vec Ideal S2048x256 .bf16)
    (s : Fin 2048) (col : Fin 512) :
    Cert.KernelIdeal.Gen.k2_pay2 (F := Ideal) w acc x (ix2 s col)
      = acc (ix2 s col) + ∑ k : Fin 256, x (ix2 s k) * w (ix2 k col) := by
  unfold k2_pay2
  -- the two re-readings at an unchanged shape are the identity; the sum of two blocks is entry by entry
  rw [shapeCast_self, shapeCast_self, addf_apply]
  congr 1
  simp only [matmul]
  -- a product into the zero block is the sum over the one contracted axis, re-indexed by its coordinate k < 256
  rw [Ideal.matmul_constant_zero_apply,
    ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  -- the left factor at (s, k)
  have el : dot_S2048x256_S256x512_S2048x512_1_0_0_1_n_n.lhsIdx (ix2 s col)
      ((contrEquiv1 dot_S2048x256_S256x512_S2048x512_1_0_0_1_n_n 256 rfl rfl).symm k) = ix2 s k :=
    funext fun a => Fin.ext (by
      match a with
      | ⟨0, _⟩ => exact mm_lhs_row_2 _ _
      | ⟨1, _⟩ => exact (dot_S2048x256_S256x512_S2048x512_1_0_0_1_n_n.lhsIdx_val_of_single rfl _ _).trans hk)
  -- the right factor at (k, c)
  have er : dot_S2048x256_S256x512_S2048x512_1_0_0_1_n_n.rhsIdx (ix2 s col)
      ((contrEquiv1 dot_S2048x256_S256x512_S2048x512_1_0_0_1_n_n 256 rfl rfl).symm k) = ix2 k col :=
    funext fun a => Fin.ext (by
      match a with
      | ⟨0, _⟩ => exact (dot_S2048x256_S256x512_S2048x512_1_0_0_1_n_n.rhsIdx_val_of_single rfl _ _).trans hk
      | ⟨1, _⟩ => exact mm_rhs_col_2 _ _)
  rw [el, er]
  -- the change of format of the weights is the identity on the extended reals
  rfl

/-- The head split at an index: entry (h, s, d) of the stored block is the accumulator at row s, column 128 * h + d. -/
theorem pay3_apply_2 (acc : Vec Ideal S2048x512 .f32) (h : Fin 4) (s : Fin 2048) (d : Fin 128) :
    Cert.KernelIdeal.Gen.k2_pay3 (F := Ideal) acc (ix3 h s d) = acc (ix2 s ⟨128 * h.val + d.val, by omega⟩) := by
  unfold k2_pay3
  -- exchanging the first two axes: entry (h, s, d) is entry (s, h, d) of the re-read block
  rw [transpose_apply [1, 0, 2] _ transposes_S2048x4x128_p1_0_2_S4x2048x128 (ix3 h s d) (ix3 s h d)
    (fun b => match b with | ⟨0, _⟩ => rfl | ⟨1, _⟩ => rfl | ⟨2, _⟩ => rfl)]
  -- the re-reading keeps the flat position: (s * 4 + h) * 128 + d = s * 512 + (128 * h + d)
  exact shapeCast_apply acc shapeCasts_S2048x512_S2048x4x128 (ix3 s h d) (ix2 s ⟨128 * h.val + d.val, by omega⟩)
    (by
      rw [Shape.rowMajor_val_two, Shape.rowMajor_val_three]
      show s.val * 512 + (128 * h.val + d.val) = (s.val * 4 + h.val) * 128 + d.val
      omega)

end Cert.KernelIdeal.PayIdx

end
-- ==== Proof.KI.Tile2.lean ====
/-
  Projection call 2: what the accumulator holds at the end of a column tile.

  Fix a column tile j, a row s and a column col < 512 of the tile. Along the 32 grid points 32 j + n (n = 0, …, 31) of
  the tile the accumulator's entry (s, col) starts at 0 + m 0 and gains m n at point n, where
      m n = ∑ k' < 256, x[s, 256 n + k'] * w[256 n + k', 512 j + col]
  is the product of the point's activations block with its weights block at that entry: point 32 j + n reads columns
  256 n … 256 n + 255 of the activations and rows 256 n … 256 n + 255, columns 512 j … 512 j + 511 of the weights.
  After the 32nd point the entry is therefore ∑ n < 32, m n, and the 32 blocks of 256 consecutive positions are
  exactly the 8192 positions of the contraction, so this is ∑ k < 8192, x[s, k] * w[k, 512 j + col].

  The two whole arrays enter as functions X and Wt into the extended reals together with the equations saying which
  buffers' contents they are, so that their entries are multiplied as extended reals.
-/
import proofs.«155036_j80436147519617_2_alg».proof.Proof.KI.Blocks2
import proofs.«155036_j80436147519617_2_alg».proof.Proof.KI.Pay2
import proofs.«155036_j80436147519617_2_alg».proof.Proof.LibBlockSum

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

/-- The activations after the prologue on one core, as a function into the extended reals. -/
abbrev actv2 (V : (c : Dev nD) → (b : Ref sig .tc) → Buf (Elt Ideal) ((c : Thread nD τ).loc b)) (c : Dev nD) :
    S2048x8192.Idx → EReal := V c main_v1
/-- The value weights on one core, as a function into the extended reals. -/
abbrev wts2 (V : (c : Dev nD) → (b : Ref sig .tc) → Buf (Elt Ideal) ((c : Thread nD τ).loc b)) (c : Dev nD) :
    S8192x1024.Idx → EReal := V c main_arg3

/-- What point `n` of tile `j` adds to entry (s, col): `∑ k' < 256, X[s, 256 n + k'] * Wt[256 n + k', 512 j + col]`
    (zero past the tile's 32 points, so that the term is defined for every natural number). -/
def stepTerm2 (X : S2048x8192.Idx → EReal) (Wt : S8192x1024.Idx → EReal) (j : Fin 2) (s : Fin 2048) (col : Fin 512)
    (n : ℕ) : EReal :=
  if h : n < 32 then
    ∑ k : Fin 256, X (ix2 s ⟨256 * n + k.val, by omega⟩)
      * Wt (ix2 ⟨256 * n + k.val, by omega⟩ ⟨512 * j.val + col.val, by omega⟩)
  else 0

section
variable (V : (c : Dev nD) → (b : Ref sig .tc) → Buf (Elt Ideal) ((c : Thread nD τ).loc b)) (c : Dev nD)

/-- The accumulator after a point does not depend on how the point's number is written. -/
theorem outsAt2_congr {n n' : ℕ} (e : n = n') (h : n < cfg2.N) (h' : n' < cfg2.N) :
    (outsAt2 V c n h).2 = (outsAt2 V c n' h').2 := by
  subst e; rfl

/-- The product of the two blocks of point `t = 32 j + n` at entry (s, col), over the whole arrays: the activations at
    columns `256 n + k'` times the weights at rows `256 n + k'`, column `512 j + col`. -/
theorem blockprod2 (X : S2048x8192.Idx → EReal) (hX : X = V c main_v1) (Wt : S8192x1024.Idx → EReal) (hW : Wt = V c main_arg3)
    (t : Fin cfg2.N) (x : Vec Ideal S2048x256 .bf16) (hx : x = iblk2 V c 0 t) (w : Vec Ideal S256x512 .f32)
    (hw : w = iblk2 V c 1 t) (s : Fin 2048) (col : Fin 512) (n : ℕ) (hn : n < 32) (j : Fin 2)
    (ht : t.val = 32 * j.val + n) :
    ∑ k : Fin 256, x (ix2 s k) * w (ix2 k col) = stepTerm2 X Wt j s col n := by
  subst hX hW hx hw
  unfold stepTerm2
  rw [dif_pos hn]
  refine Finset.sum_congr rfl fun k _ => ?_
  rw [xblk2_apply V c t (ix2 s k) (ix2 s ⟨256 * n + k.val, by omega⟩) rfl
      (by show 256 * n + k.val = 256 * (t.val % 32) + k.val; rw [ht]; omega),
    wblk2_apply V c t (ix2 k col) (ix2 ⟨256 * n + k.val, by omega⟩ ⟨512 * j.val + col.val, by omega⟩)
      (by show 256 * n + k.val = 256 * (t.val % 32) + k.val; rw [ht]; omega)
      (by show 512 * j.val + col.val = 512 * (t.val / 32) + col.val; rw [ht]; omega)]

/-- Entry (s, col) of the accumulator after point `32 j + n` (zero past the grid, so that it is defined for every
    natural number). -/
def accAt2 (j : Fin 2) (s : Fin 2048) (col : Fin 512) (n : ℕ) : EReal :=
  if h : 32 * j.val + n < cfg2.N then (outsAt2 V c (32 * j.val + n) h).2 (ix2 s col) else 0

/-- The tile's first point: the zero fill plus the first block product. -/
theorem accAt2_zero (X : S2048x8192.Idx → EReal) (hX : X = V c main_v1) (Wt : S8192x1024.Idx → EReal) (hW : Wt = V c main_arg3)
    (j : Fin 2) (s : Fin 2048) (col : Fin 512) :
    accAt2 V c j s col 0 = 0 + stepTerm2 X Wt j s col 0 := by
  have hN : cfg2.N = 64 := N_2
  have hT : 32 * j.val + 0 < cfg2.N := by omega
  have e : (outsAt2 V c (32 * j.val + 0) hT).2
      = k2_pay2 (iblk2 V c 1 ⟨32 * j.val + 0, hT⟩) (k2_pay1 (F := Ideal)) (iblk2 V c 0 ⟨32 * j.val + 0, hT⟩) :=
    acc_first2 V c ⟨32 * j.val + 0, hT⟩ (by show (32 * j.val + 0) % 32 = 0; omega)
  unfold accAt2
  rw [dif_pos hT, e]
  refine (PayIdx.pay2_apply_2 _ _ _ s col).trans ?_
  exact congrArg₂ (· + ·) (PayIdx.pay1_apply_2 s col)
    (blockprod2 V c X hX Wt hW ⟨32 * j.val + 0, hT⟩ _ rfl _ rfl s col 0 (by omega) j rfl)

/-- A later point of the tile: what the point before left plus this point's block product. -/
theorem accAt2_succ (X : S2048x8192.Idx → EReal) (hX : X = V c main_v1) (Wt : S8192x1024.Idx → EReal) (hW : Wt = V c main_arg3)
    (j : Fin 2) (s : Fin 2048) (col : Fin 512) (n : ℕ) (hn : n + 1 ≤ 31) :
    accAt2 V c j s col (n + 1) = accAt2 V c j s col n + stepTerm2 X Wt j s col (n + 1) := by
  have hN : cfg2.N = 64 := N_2
  have hT : 32 * j.val + (n + 1) < cfg2.N := by omega
  have hT' : 32 * j.val + n < cfg2.N := by omega
  have e : (outsAt2 V c (32 * j.val + (n + 1)) hT).2
      = k2_pay2 (iblk2 V c 1 ⟨32 * j.val + (n + 1), hT⟩)
          (outsAt2 V c (32 * j.val + (n + 1) - 1) (Nat.lt_of_le_of_lt (Nat.sub_le _ _) hT)).2
          (iblk2 V c 0 ⟨32 * j.val + (n + 1), hT⟩) :=
    acc_next2 V c ⟨32 * j.val + (n + 1), hT⟩ (by show ¬ (32 * j.val + (n + 1)) % 32 = 0; omega)
  unfold accAt2
  rw [dif_pos hT, dif_pos hT', e]
  refine (PayIdx.pay2_apply_2 _ _ _ s col).trans ?_
  exact congrArg₂ (· + ·)
    (congrFun (outsAt2_congr V c (by omega : 32 * j.val + (n + 1) - 1 = 32 * j.val + n) _ hT') (ix2 s col))
    (blockprod2 V c X hX Wt hW ⟨32 * j.val + (n + 1), hT⟩ _ rfl _ rfl s col (n + 1) (by omega) j rfl)

/-- **The accumulator at the end of column tile `j`**: entry (s, col) is the full contraction
    `∑ k < 8192, X[s, k] * Wt[k, 512 j + col]` of the value projection, `X` the activations after the prologue and
    `Wt` the value weights. -/
theorem tile_total2_of (X : S2048x8192.Idx → EReal) (hX : X = V c main_v1) (Wt : S8192x1024.Idx → EReal) (hW : Wt = V c main_arg3)
    (j : Fin 2) (s : Fin 2048) (col : Fin 512) (ht : 32 * j.val + 31 < cfg2.N) :
    (outsAt2 V c (32 * j.val + 31) ht).2 (ix2 s col)
      = ∑ k : Fin 8192, X (ix2 s k) * Wt (ix2 k ⟨512 * j.val + col.val, by omega⟩) := by
  have ea : accAt2 V c j s col 31 = (outsAt2 V c (32 * j.val + 31) ht).2 (ix2 s col) := dif_pos ht
  rw [← ea, Cert.LibBlockSum.running_total_32_le (accAt2 V c j s col) (stepTerm2 X Wt j s col) 0
      (accAt2_zero V c X hX Wt hW j s col) (accAt2_succ V c X hX Wt hW j s col), zero_add,
    ← Cert.LibBlockSum.sum_blocks (fun k : Fin 8192 => X (ix2 s k) * Wt (ix2 k ⟨512 * j.val + col.val, by omega⟩))]
  exact Finset.sum_congr rfl fun i _ => dif_pos i.isLt

/-- The same over the two arrays named by their buffers: entry (s, col) of the accumulator at the end of column tile
    `j` is `∑ k < 8192, x[s, k] * w[k, 512 j + col]`. -/
theorem tile_total2 (j : Fin 2) (s : Fin 2048) (col : Fin 512) (ht : 32 * j.val + 31 < cfg2.N) :
    (outsAt2 V c (32 * j.val + 31) ht).2 (ix2 s col)
      = ∑ k : Fin 8192, actv2 V c (ix2 s k) * wts2 V c (ix2 k ⟨512 * j.val + col.val, by omega⟩) :=
  tile_total2_of V c (actv2 V c) rfl (wts2 V c) rfl j s col ht

end

end Cert.KernelIdeal.Fr

end
-- ==== Proof.KI.Final2.lean ====
/-
  Projection call 2: the array it leaves in its output.
  Only a last contraction step writes a block back: the last step of column tile j writes heads 4 j .. 4 j + 3, whose
  entry (h', s, d) is the accumulator's entry (s, 128 h' + d), that is the full contraction of row s of the activations
  with column 512 j + 128 h' + d = 128 (4 j + h') + d of the weights. The 2 write-backs cover the output array, head h
  being covered by tile h div 4, so the array the call returns is that contraction at every entry.
-/
import proofs.«155036_j80436147519617_2_alg».proof.Proof.KI.Tile2
import proofs.«155036_j80436147519617_2_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The array the call leaves in its output: entry (h, s, d) is the full contraction of row s of the activations with
    column 128 h + d of the weights. -/
def outArr2 (c : Dev nD) : S8x2048x128.Idx → EReal := fun i =>
  ∑ k : Fin 8192, actv2 V c (ix2 (⟨(i 1).val, (i 1).isLt⟩ : Fin 2048) k)
    * wts2 V c (ix2 k (Cert.Spec.col8 ⟨(i 0).val, (i 0).isLt⟩ ⟨(i 2).val, (i 2).isLt⟩))

/-- The accumulator does not depend on how its position is written. -/
theorem acc_congr2 (c : Dev nD) {n n' : ℕ} (e : n = n') (h : n < cfg2.N) (h' : n' < cfg2.N) :
    (outsAt2 V c n h).2 = (outsAt2 V c n' h').2 := by subst e; rfl

/-- Every output block is whole: 4 heads, 2048 rows, 128 lanes. -/
theorem xsize2_o : ∀ t : Fin cfg2.N, win2_2.xsize (grid2.coords t) 0 = 4 ∧ win2_2.xsize (grid2.coords t) 1 = 2048 ∧ win2_2.xsize (grid2.coords t) 2 = 128 :=
  (by decide +kernel : ∀ t : Fin grid2.N, win2_2.xsize (grid2.coords t) 0 = 4 ∧ win2_2.xsize (grid2.coords t) 1 = 2048 ∧ win2_2.xsize (grid2.coords t) 2 = 128)

/-- At a last step of column tile j = t div 32, entry (h', s, d) of the re-laid accumulator is the full contraction for
    column 512 j + 128 h' + d. -/
theorem out_entry2 (c : Dev nD) (t : Fin cfg2.N) (h31 : t.val % 32 = 31) (h' : Fin 4) (s : Fin 2048) (d : Fin 128)
    (q : Fin 1024) (hq : q.val = 512 * (t.val / 32) + (128 * h'.val + d.val)) :
    k2_pay3 (F := Ideal) (outsAt2 V c t.val t.isLt).2 (ix3 h' s d)
      = ∑ k : Fin 8192, actv2 V c (ix2 s k) * wts2 V c (ix2 k q) := by
  have hN' : cfg2.N = 64 := N_2
  have hN : t.val < 64 := lt_of_lt_of_eq t.isLt hN'
  have hj : t.val / 32 < 2 := by omega
  have ht : 32 * (t.val / 32) + 31 < cfg2.N := by omega
  rw [Cert.KernelIdeal.PayIdx.pay3_apply_2, acc_congr2 V c (show t.val = 32 * (t.val / 32) + 31 by omega) t.isLt ht,
    tile_total2 V c ⟨t.val / 32, hj⟩ s ⟨128 * h'.val + d.val, by omega⟩ ht]
  refine Finset.sum_congr rfl fun k _ => ?_
  refine congrArg (fun z => actv2 V c (ix2 s k) * wts2 V c z) ?_
  funext a
  apply Fin.ext
  match a with
  | ⟨0, _⟩ => rfl
  | ⟨1, _⟩ => exact hq.symm

/-- What a last step writes back is the corresponding block of `outArr`. -/
theorem flushed_eq2 (c : Dev nD) (t : Fin cfg2.N) (hf : (cfg2.win 2).flush t = true) :
    (dat2 V c).flushed 2 t = ((cfg2.win 2).blk t).view.read (Elt Ideal) (outArr2 V c) := by
  have h31 : t.val % 32 = 31 := (flush2_2 t).mp hf
  have hi := idx2_o t
  have hN : t.val < 64 := lt_of_lt_of_eq t.isLt (N_2)
  show (cfg2.win 2).cut (grid2.coords t) ((dat2 V c).after 2 t) = _
  rw [after2_2, out_last2 V c t h31]
  funext y
  rw [View.read_apply]
  have e0 : ((win2_2.rect t).emb y 0 : Nat) = win2_2.index t 0 * win2_2.size 0 + y 0 := win2_2.rect_emb_val t y 0
  have e1 : ((win2_2.rect t).emb y 1 : Nat) = win2_2.index t 1 * win2_2.size 1 + y 1 := win2_2.rect_emb_val t y 1
  have e2 : ((win2_2.rect t).emb y 2 : Nat) = win2_2.index t 2 * win2_2.size 2 + y 2 := win2_2.rect_emb_val t y 2
  have hx := xsize2_o t
  have y0 : (y 0 : Nat) < 4 := lt_of_lt_of_eq (y 0).isLt hx.1
  have y1 : (y 1 : Nat) < 2048 := lt_of_lt_of_eq (y 1).isLt hx.2.1
  have y2 : (y 2 : Nat) < 128 := lt_of_lt_of_eq (y 2).isLt hx.2.2
  rw [hi.1] at e0; rw [hi.2.1] at e1; rw [hi.2.2] at e2
  have s0 : win2_2.size 0 = 4 := rfl
  have s1 : win2_2.size 1 = 2048 := rfl
  have s2 : win2_2.size 2 = 128 := rfl
  rw [s0] at e0; rw [s1] at e1; rw [s2] at e2
  show k2_pay3 (F := Ideal) (outsAt2 V c t.val t.isLt).2 ((cfg2.win 2).xinj (grid2.coords t) y) = outArr2 V c ((win2_2.rect t).emb y)
  have hx3 : (cfg2.win 2).xinj (grid2.coords t) y = ix3 (⟨y 0, y0⟩ : Fin 4) (⟨y 1, y1⟩ : Fin 2048) (⟨y 2, y2⟩ : Fin 128) := by
    funext a; apply Fin.ext
    match a with
    | ⟨0, _⟩ => rfl
    | ⟨1, _⟩ => rfl
    | ⟨2, _⟩ => rfl
  rw [hx3]
  unfold outArr2
  rw [out_entry2 V c t h31 ⟨y 0, y0⟩ ⟨y 1, y1⟩ ⟨y 2, y2⟩
    (Cert.Spec.col8 ⟨(((win2_2.rect t).emb y 0)).val, (((win2_2.rect t).emb y 0)).isLt⟩ ⟨(((win2_2.rect t).emb y 2)).val, (((win2_2.rect t).emb y 2)).isLt⟩)
    (by show 128 * (((win2_2.rect t).emb y 0) : Nat) + (((win2_2.rect t).emb y 2) : Nat) = 512 * (t.val / 32) + (128 * (y 0 : Nat) + (y 2 : Nat)); rw [e0, e2]; omega)]
  refine Finset.sum_congr rfl fun k _ => ?_
  refine congrArg (fun z => actv2 V c z * _) ?_
  funext a; apply Fin.ext
  match a with
  | ⟨0, _⟩ => show (y 1 : Nat) = (((win2_2.rect t).emb y 1) : Nat); rw [e1]; omega
  | ⟨1, _⟩ => rfl

/-- Every entry (h, s, d) of the output array is written back by the last step of column tile h div 4. So when the call
    returns, its output array is `outArr`. -/
theorem final2 (c : Dev nD) : (dat2 V c).arrAt 2 cfg2.N = outArr2 V c :=
  (dat2 V c).arrAt_eq_of_cover 2 (outArr2 V c) (flushed_eq2 V c) fun i => by
    have hN' : cfg2.N = 64 := N_2
    have i0 : (i 0 : Nat) < 8 := (i 0).isLt
    have i1 : (i 1 : Nat) < 2048 := (i 1).isLt
    have i2 : (i 2 : Nat) < 128 := (i 2).isLt
    have hb : 32 * ((i 0 : Nat) / 4) + 31 < cfg2.N := by omega
    refine ⟨⟨32 * ((i 0 : Nat) / 4) + 31, hb⟩, (flush2_2 _).mpr (by show (32 * ((i 0 : Nat) / 4) + 31) % 32 = 31; omega), ?_⟩
    show i ∈ ((View.whole main_v4).slice (win2_2.rect ⟨32 * ((i 0 : Nat) / 4) + 31, hb⟩)).set
    rw [View.set_slice_whole, Rect.mem_set_unit]
    intro a
    have hi := idx2_o ⟨32 * ((i 0 : Nat) / 4) + 31, hb⟩
    have hx := xsize2_o ⟨32 * ((i 0 : Nat) / 4) + 31, hb⟩
    have hd : (32 * ((i 0 : Nat) / 4) + 31) / 32 = (i 0 : Nat) / 4 := by omega
    match a with
    | ⟨0, _⟩ =>
      show win2_2.index ⟨32 * ((i 0 : Nat) / 4) + 31, hb⟩ 0 * win2_2.size 0 ≤ (i 0 : Nat) ∧ (i 0 : Nat) < win2_2.index ⟨32 * ((i 0 : Nat) / 4) + 31, hb⟩ 0 * win2_2.size 0 + win2_2.xsize (grid2.coords ⟨32 * ((i 0 : Nat) / 4) + 31, hb⟩) 0
      rw [hi.1, hx.1, show win2_2.size 0 = 4 from rfl]; dsimp only; rw [hd]; omega
    | ⟨1, _⟩ =>
      show win2_2.index ⟨32 * ((i 0 : Nat) / 4) + 31, hb⟩ 1 * win2_2.size 1 ≤ (i 1 : Nat) ∧ (i 1 : Nat) < win2_2.index ⟨32 * ((i 0 : Nat) / 4) + 31, hb⟩ 1 * win2_2.size 1 + win2_2.xsize (grid2.coords ⟨32 * ((i 0 : Nat) / 4) + 31, hb⟩) 1
      rw [hi.2.1, hx.2.1]; omega
    | ⟨2, _⟩ =>
      show win2_2.index ⟨32 * ((i 0 : Nat) / 4) + 31, hb⟩ 2 * win2_2.size 2 ≤ (i 2 : Nat) ∧ (i 2 : Nat) < win2_2.index ⟨32 * ((i 0 : Nat) / 4) + 31, hb⟩ 2 * win2_2.size 2 + win2_2.xsize (grid2.coords ⟨32 * ((i 0 : Nat) / 4) + 31, hb⟩) 2
      rw [hi.2.2, hx.2.2]; omega

end Cert.KernelIdeal.Fr

end
-- ==== Proof.KI.Host.lean ====
/-
  The host operations around the three projection calls, read at an index.

  Before the calls the program flattens the activations [1, 1, 2048, 8192] to [2048, 8192] — the same entries in the
  same row-major order, so entry (s, k) is the old entry (0, 0, s, k) — and narrows them to the 16-bit format, which at
  the extended reals changes nothing. It writes two intermediate arrays and nothing else, so the three weight matrices
  are afterwards as they were. After the calls each output [H, 2048, 128] gets a leading axis of extent one; again the
  row-major order is kept, so entry (0, h, s, d) of a result is entry (h, s, d) of the call's output.

  Every statement is about an arbitrary assignment of contents to the buffers before the operations run.
-/
import proofs.«155036_j80436147519617_2_alg».proof.Proof.Gen.KernelIdeal.Regions
import Idealize.ShloMosaic.Lib.StableHlo.Run
import Idealize.ShloMosaic.Lib.ValueIdx
import Idealize.ShloMosaic.Lib.Pipeline.Value

noncomputable section

namespace Cert.KernelIdeal.HostIdx

open Cert.KernelIdeal Cert.KernelIdeal.Gen Idealize.ShloMosaic Idealize.ShloMosaic.TcCoe Idealize.SL.Sem Idealize.ShloMosaic.StableHlo Idealize.ShloMosaic.ValueIdx

/-- After the prologue the 16-bit activations array, at (s, k), is the launch activations at (0, 0, s, k): the reshape
    [1, 1, 2048, 8192] → [2048, 8192] keeps the row-major position s * 8192 + k, and the change of format is the identity
    on the extended reals. -/
theorem pro_v1 (W : Valuation τ sig (Elt Ideal)) (s : Fin 2048) (k : Fin 8192) :
    (StableHlo.after (hostOps0 (F := Ideal)) W (Proc.devRef .tc main_v1)) (ix2 s k)
      = (W (Proc.devRef .tc main_arg0)) (ix4 (0 : Fin 1) (0 : Fin 1) s k) := by
  after_results
  show shapeCast S2048x8192 (W (Proc.devRef .tc main_arg0)) shapeCasts_S1x1x2048x8192_S2048x8192 (ix2 s k) = _
  exact shapeCast_apply (s := S1x1x2048x8192) (t := S2048x8192) _ shapeCasts_S1x1x2048x8192_S2048x8192 (ix2 s k)
    (ix4 (0 : Fin 1) (0 : Fin 1) s k)
    (by
      rw [Shape.rowMajor_val_four, Shape.rowMajor_val_two]
      show ((0 * 1 + 0) * 2048 + s.val) * 8192 + k.val = s.val * 8192 + k.val
      omega)

variable {F : FTy → Type} [FloatOps F]

/-- The prologue writes only its two intermediate arrays: the first weight matrix is as at launch. -/
theorem pro_keeps_arg1 (W : Valuation τ sig (Elt F)) :
    StableHlo.after (hostOps0 (F := F)) W (Proc.devRef .tc main_arg1) = W (Proc.devRef .tc main_arg1) :=
  StableHlo.after_of_writes_sub hostOps0 W hostOps0_writes (by decide)

/-- The prologue writes only its two intermediate arrays: the second weight matrix is as at launch. -/
theorem pro_keeps_arg2 (W : Valuation τ sig (Elt F)) :
    StableHlo.after (hostOps0 (F := F)) W (Proc.devRef .tc main_arg2) = W (Proc.devRef .tc main_arg2) :=
  StableHlo.after_of_writes_sub hostOps0 W hostOps0_writes (by decide)

/-- The prologue writes only its two intermediate arrays: the third weight matrix is as at launch. -/
theorem pro_keeps_arg3 (W : Valuation τ sig (Elt F)) :
    StableHlo.after (hostOps0 (F := F)) W (Proc.devRef .tc main_arg3) = W (Proc.devRef .tc main_arg3) :=
  StableHlo.after_of_writes_sub hostOps0 W hostOps0_writes (by decide)

/-- The same for any reference other than the prologue's two intermediate arrays. -/
theorem pro_keeps (W : Valuation τ sig (Elt F)) (r : Ref sig .tc) (h : r ∉ hostOps0_W) :
    StableHlo.after (hostOps0 (F := F)) W (Proc.devRef .tc r) = W (Proc.devRef .tc r) :=
  StableHlo.after_of_writes_sub hostOps0 W hostOps0_writes h

/-- After the epilogue the query result at (0, h, s, d) is the call's output at (h, s, d): adding a leading axis of
    extent one keeps the row-major position (h * 2048 + s) * 128 + d. -/
theorem epi_v5 (W : Valuation τ sig (Elt F)) (h : Fin 64) (s : Fin 2048) (d : Fin 128) :
    (StableHlo.after (hostOps3 (F := F)) W (Proc.devRef .tc main_v5)) (ix4 (0 : Fin 1) h s d)
      = (W (Proc.devRef .tc main_v2)) (ix3 h s d) := by
  after_results
  show shapeCast S1x64x2048x128 (W (Proc.devRef .tc main_v2)) shapeCasts_S64x2048x128_S1x64x2048x128 (ix4 (0 : Fin 1) h s d) = _
  exact shapeCast_apply (s := S64x2048x128) (t := S1x64x2048x128) _ shapeCasts_S64x2048x128_S1x64x2048x128
    (ix4 (0 : Fin 1) h s d) (ix3 h s d)
    (by
      rw [Shape.rowMajor_val_three, Shape.rowMajor_val_four]
      show (h.val * 2048 + s.val) * 128 + d.val = ((0 * 64 + h.val) * 2048 + s.val) * 128 + d.val
      omega)

/-- After the epilogue the key result at (0, h, s, d) is the call's output at (h, s, d). -/
theorem epi_v6 (W : Valuation τ sig (Elt F)) (h : Fin 8) (s : Fin 2048) (d : Fin 128) :
    (StableHlo.after (hostOps3 (F := F)) W (Proc.devRef .tc main_v6)) (ix4 (0 : Fin 1) h s d)
      = (W (Proc.devRef .tc main_v3)) (ix3 h s d) := by
  after_results
  show shapeCast S1x8x2048x128 (W (Proc.devRef .tc main_v3)) shapeCasts_S8x2048x128_S1x8x2048x128 (ix4 (0 : Fin 1) h s d) = _
  exact shapeCast_apply (s := S8x2048x128) (t := S1x8x2048x128) _ shapeCasts_S8x2048x128_S1x8x2048x128
    (ix4 (0 : Fin 1) h s d) (ix3 h s d)
    (by
      rw [Shape.rowMajor_val_three, Shape.rowMajor_val_four]
      show (h.val * 2048 + s.val) * 128 + d.val = ((0 * 8 + h.val) * 2048 + s.val) * 128 + d.val
      omega)

/-- After the epilogue the value result at (0, h, s, d) is the call's output at (h, s, d). -/
theorem epi_v7 (W : Valuation τ sig (Elt F)) (h : Fin 8) (s : Fin 2048) (d : Fin 128) :
    (StableHlo.after (hostOps3 (F := F)) W (Proc.devRef .tc main_v7)) (ix4 (0 : Fin 1) h s d)
      = (W (Proc.devRef .tc main_v4)) (ix3 h s d) := by
  after_results
  show shapeCast S1x8x2048x128 (W (Proc.devRef .tc main_v4)) shapeCasts_S8x2048x128_S1x8x2048x128 (ix4 (0 : Fin 1) h s d) = _
  exact shapeCast_apply (s := S8x2048x128) (t := S1x8x2048x128) _ shapeCasts_S8x2048x128_S1x8x2048x128
    (ix4 (0 : Fin 1) h s d) (ix3 h s d)
    (by
      rw [Shape.rowMajor_val_three, Shape.rowMajor_val_four]
      show (h.val * 2048 + s.val) * 128 + d.val = ((0 * 8 + h.val) * 2048 + s.val) * 128 + d.val
      omega)

end Cert.KernelIdeal.HostIdx

end
-- ==== Proof.KI.Result.lean ====
/-
  The three results of the idealized kernel program are the head-split projections of its arguments.
  At the last boundary the query result is the epilogue's re-indexing of the first call's output array, which no later
  call touches; that array is the full contraction of the activation matrix as the call found it with the query weights;
  the activation matrix is the prologue's re-indexing of the activations argument (the narrowing of the format is the
  identity on extended reals) and every call finds it unchanged, since a call only writes its own output; the weights
  reach their call as launched. The same for the key and the value results with the second and the third call.
-/
import proofs.«155036_j80436147519617_2_alg».proof.Proof.KI.Args
import proofs.«155036_j80436147519617_2_alg».proof.Proof.KI.Final0
import proofs.«155036_j80436147519617_2_alg».proof.Proof.KI.Final1
import proofs.«155036_j80436147519617_2_alg».proof.Proof.KI.Final2
import proofs.«155036_j80436147519617_2_alg».proof.Proof.KI.Host
import proofs.«155036_j80436147519617_2_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The activation matrix the first call finds: row s, column k is entry (0, 0, s, k) of the activations argument. -/
theorem actv_entry (c : Dev nD) (s : Fin 2048) (k : Fin 8192) :
    actv0 (V1 m) c (ix2 s k) = (m ((c : Thread nD τ).loc main_arg0) : S1x1x2048x8192.Idx → EReal) (ix4 (0 : Fin 1) (0 : Fin 1) s k) :=
  Cert.KernelIdeal.HostIdx.pro_v1 (W0 m c) s k

/-- The second and the third call find the same activation matrix: the calls before them read it through an input window. -/
theorem actv_second (c : Dev nD) : actv1 (V2 m) c = actv0 (V1 m) c :=
  (W2_arr m c 0).trans (((dat0 (V1 m) c).arrAt_in 0 rfl _).trans (A_eq0 (V1 m) c 0))
theorem actv_third (c : Dev nD) : actv2 (V3 m) c = actv0 (V1 m) c :=
  ((W3_arr m c 0).trans (((dat1 (V2 m) c).arrAt_in 0 rfl _).trans (A_eq1 (V2 m) c 0))).trans (actv_second m c)

/-- Each weight matrix reaches its call as launched. -/
theorem wts_first (c : Dev nD) : wts0 (V1 m) c = m ((c : Thread nD τ).loc main_arg1) :=
  W1_keeps m c main_arg1 (by decide)
theorem wts_second (c : Dev nD) : wts1 (V2 m) c = m ((c : Thread nD τ).loc main_arg2) :=
  (W2_of_ne m c main_arg2 (by decide)).trans (W1_keeps m c main_arg2 (by decide))
theorem wts_third (c : Dev nD) : wts2 (V3 m) c = m ((c : Thread nD τ).loc main_arg3) :=
  (W3_of_ne m c main_arg3 (by decide)).trans ((W2_of_ne m c main_arg3 (by decide)).trans (W1_keeps m c main_arg3 (by decide)))

/-- Entry (h, s, d) of the first call's output array is the specification's entry (0, h, s, d). -/
theorem outArr0_entry (c : Dev nD) (h : Fin 64) (s : Fin 2048) (d : Fin 128) :
    outArr0 (V1 m) c (ix3 h s d)
      = Cert.Spec.projQ (m ((c : Thread nD τ).loc main_arg0)) (m ((c : Thread nD τ).loc main_arg1)) (ix4 (0 : Fin 1) h s d) := by
  unfold outArr0 Cert.Spec.projQ
  refine Finset.sum_congr rfl fun k _ => ?_
  rw [wts_first m c]
  exact congrArg (· * _) (actv_entry m c _ k)

/-- The same for the second call, against the key weights. -/
theorem outArr1_entry (c : Dev nD) (h : Fin 8) (s : Fin 2048) (d : Fin 128) :
    outArr1 (V2 m) c (ix3 h s d)
      = Cert.Spec.projKV (m ((c : Thread nD τ).loc main_arg0)) (m ((c : Thread nD τ).loc main_arg2)) (ix4 (0 : Fin 1) h s d) := by
  unfold outArr1 Cert.Spec.projKV
  refine Finset.sum_congr rfl fun k _ => ?_
  rw [wts_second m c, actv_second m c]
  exact congrArg (· * _) (actv_entry m c _ k)

/-- And for the third call, against the value weights. -/
theorem outArr2_entry (c : Dev nD) (h : Fin 8) (s : Fin 2048) (d : Fin 128) :
    outArr2 (V3 m) c (ix3 h s d)
      = Cert.Spec.projKV (m ((c : Thread nD τ).loc main_arg0)) (m ((c : Thread nD τ).loc main_arg3)) (ix4 (0 : Fin 1) h s d) := by
  unfold outArr2 Cert.Spec.projKV
  refine Finset.sum_congr rfl fun k _ => ?_
  rw [wts_third m c, actv_third m c]
  exact congrArg (· * _) (actv_entry m c _ k)

/-- The query result. -/
theorem result_q (c : Dev nD) :
    W5 m c (Proc.devRef .tc main_v5) = Cert.Spec.projQ (m ((c : Thread nD τ).loc main_arg0)) (m ((c : Thread nD τ).loc main_arg1)) := by
  funext i
  obtain ⟨z, h, s, d, rfl⟩ : ∃ (z : Fin 1) (h : Fin 64) (s : Fin 2048) (d : Fin 128), i = ix4 z h s d := ⟨i 0, i 1, i 2, i 3, eq_ix4 i⟩
  obtain rfl : z = 0 := Fin.ext (by omega)
  refine (Cert.KernelIdeal.HostIdx.epi_v5 (W4 m c) h s d).trans ?_
  rw [W4_of_ne m c main_v2 (by decide), W3_of_ne m c main_v2 (by decide),
    show W2 m c (Proc.devRef .tc main_v2) = outArr0 (V1 m) c from (W2_arr m c 2).trans (final0 (V1 m) c)]
  exact outArr0_entry m c h s d

/-- The key result. -/
theorem result_k (c : Dev nD) :
    W5 m c (Proc.devRef .tc main_v6) = Cert.Spec.projKV (m ((c : Thread nD τ).loc main_arg0)) (m ((c : Thread nD τ).loc main_arg2)) := by
  funext i
  obtain ⟨z, h, s, d, rfl⟩ : ∃ (z : Fin 1) (h : Fin 8) (s : Fin 2048) (d : Fin 128), i = ix4 z h s d := ⟨i 0, i 1, i 2, i 3, eq_ix4 i⟩
  obtain rfl : z = 0 := Fin.ext (by omega)
  refine (Cert.KernelIdeal.HostIdx.epi_v6 (W4 m c) h s d).trans ?_
  rw [W4_of_ne m c main_v3 (by decide),
    show W3 m c (Proc.devRef .tc main_v3) = outArr1 (V2 m) c from (W3_arr m c 2).trans (final1 (V2 m) c)]
  exact outArr1_entry m c h s d

/-- The value result. -/
theorem result_v (c : Dev nD) :
    W5 m c (Proc.devRef .tc main_v7) = Cert.Spec.projKV (m ((c : Thread nD τ).loc main_arg0)) (m ((c : Thread nD τ).loc main_arg3)) := by
  funext i
  obtain ⟨z, h, s, d, rfl⟩ : ∃ (z : Fin 1) (h : Fin 8) (s : Fin 2048) (d : Fin 128), i = ix4 z h s d := ⟨i 0, i 1, i 2, i 3, eq_ix4 i⟩
  obtain rfl : z = 0 := Fin.ext (by omega)
  refine (Cert.KernelIdeal.HostIdx.epi_v7 (W4 m c) h s d).trans ?_
  rw [show W4 m c (Proc.devRef .tc main_v4) = outArr2 (V3 m) c from (W4_arr m c 2).trans (final2 (V3 m) c)]
  exact outArr2_entry m c h s d

/-- THE RUN WITH ITS RESULTS NAMED: every weakly fair execution terminates without a fault; the three results are the
    head-split projections of the launch arguments and the four arguments end as launched. -/
theorem run_results (ρ : Dev nD → PrngReg) : θ_run defs (onTc (τ := τ) (main (F := Ideal))) ⟨m, fun _ => 0, ρ⟩ (fun r => ∀ c : Dev nD,
      r.2.mem ((c.tc : Thread nD τ).loc main_v5) = Cert.Spec.projQ (m ((c : Thread nD τ).loc main_arg0)) (m ((c : Thread nD τ).loc main_arg1))
      ∧ r.2.mem ((c.tc : Thread nD τ).loc main_v6) = Cert.Spec.projKV (m ((c : Thread nD τ).loc main_arg0)) (m ((c : Thread nD τ).loc main_arg2))
      ∧ r.2.mem ((c.tc : Thread nD τ).loc main_v7) = Cert.Spec.projKV (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v5 (by decide))).trans (result_q m c),
     (h c _ (mem_uc main_v6 (by decide))).trans (result_k m c),
     (h c _ (mem_uc main_v7 (by decide))).trans (result_v m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Fr

end
-- ==== Proof.RefQ.lean ====
/-
  The reference program's query result is the head-split projection of the specification.

  The reference joins the three weight matrices side by side into one matrix with 10240 columns — columns
  0 … 8191 are the query weights, 8192 … 9215 the key weights, 9216 … 10239 the value weights —, multiplies the
  activations by the joined matrix in one contraction over the 8192 rows, and then cuts the product's columns
  back into the three ranges. The query result keeps columns 0 … 8191, which the joined matrix took from its
  first piece, so each of its elements is a sum over `k < 8192` of an activation times an entry of that one
  weight matrix.

  Why the column is `128 * h + d`: the slice has one row of H * 128 entries for each sequence position `s`. The reshape
  to [1, 2048, H, 128] keeps the row-major order, so entry (0, s, h, d) is the one at flat position
  `(s * H + h) * 128 + d`; dividing by the row length H * 128 gives back the row `s` and leaves the remainder
  `128 * h + d` as the column. The final transpose only exchanges the roles of `s` and `h` in the index.
-/
import proofs.«155036_j80436147519617_2_alg».proof.Proof.Gen.ReferenceIdeal.Read
import proofs.«155036_j80436147519617_2_alg».proof.Proof.Spec

noncomputable section

namespace Cert.RefValue

open Cert.ReferenceIdeal Cert.ReferenceIdeal.Gen Cert.ReferenceIdeal.Read Idealize.ShloMosaic Idealize.ShloMosaic.ValueIdx

/-- The query result of the reference, at every index, is `∑ k, x[0,0,s,k] * wq[k, 128 h + d]`. -/
theorem ref_q (x0 : (⟨S1x1x2048x8192, .f32⟩ : BufTy).Contents (Elt Ideal)) (x1 : (⟨S8192x8192, .f32⟩ : BufTy).Contents (Elt Ideal))
    (x2 x3 : (⟨S8192x1024, .f32⟩ : BufTy).Contents (Elt Ideal)) :
    Cert.ReferenceIdeal.Read.val_main_v6 (F := Ideal) x0 x1 x2 x3 = Cert.Spec.projQ x0 x1 := by
  funext i
  -- transpose, reshape, slice, contraction: each read at an index of its operand
  rw [val_main_v6_apply, val_main_v5_apply, val_main_v2_apply, val_main_v1_apply]
  unfold Cert.Spec.projQ
  have h0 : (i 0).val < 1 := (i 0).isLt
  have h1 : (i 1).val < 64 := (i 1).isLt
  have h2 : (i 2).val < 2048 := (i 2).isLt
  have h3 : (i 3).val < 128 := (i 3).isLt
  refine Finset.sum_congr rfl fun k _ => ?_
  -- the activation is read at (0, 0, s, k): the flat position (s * 64 + h) * 128 + d divided by 8192 is s
  have ex : lidx_main_v1 (idx_main_v2 (idx_main_v5 (idx_main_v6 i))) k
      = ix4 (0 : Fin 1) (0 : Fin 1) (⟨(i 2).val, (i 2).isLt⟩ : Fin 2048) k :=
    funext fun a => Fin.ext (by
      match a with
      | ⟨0, _⟩ => rfl
      | ⟨1, _⟩ => rfl
      | ⟨2, _⟩ =>
        show ((((i 0).val * 2048 + (i 2).val) * 64 + (i 1).val) * 128 + (i 3).val) / 8192 % 2048 = (i 2).val
        omega
      | ⟨3, _⟩ => rfl)
  -- the joined matrix is read at row k and column ((s * 64 + h) * 128 + d) % 8192 = 128 h + d < 8192: the first piece
  have ew : val_main_v0 (F := Ideal) x1 x2 x3 (ridx_main_v1 (idx_main_v2 (idx_main_v5 (idx_main_v6 i))) k)
      = x1 (ix2 k (Cert.Spec.col64 ⟨(i 1).val, (i 1).isLt⟩ ⟨(i 3).val, (i 3).isLt⟩)) := by
    unfold val_main_v0
    refine concatenate_apply_piece (1 : Fin S8192x10240.rank) _ _ _ 0 (by simp) S8192x8192 x1 rfl rfl 0 rfl _
      (fun b hb => ?_) ?_
    · match b with
      | ⟨0, _⟩ => rfl
      | ⟨1, _⟩ => exact absurd rfl hb
    · show 0 + (128 * (i 1).val + (i 3).val)
        = ((((i 0).val * 2048 + (i 2).val) * 64 + (i 1).val) * 128 + (i 3).val) % 8192
      omega
  rw [ex, ew]

end Cert.RefValue

end
-- ==== Proof.RefK.lean ====
/-
  The reference program's key result is the head-split projection of the specification.

  The reference joins the three weight matrices side by side into one matrix with 10240 columns — columns
  0 … 8191 are the query weights, 8192 … 9215 the key weights, 9216 … 10239 the value weights —, multiplies the
  activations by the joined matrix in one contraction over the 8192 rows, and then cuts the product's columns
  back into the three ranges. The key result keeps columns 8192 … 9215, which the joined matrix took from its
  second piece, so each of its elements is a sum over `k < 8192` of an activation times an entry of that one
  weight matrix.

  Why the column is `128 * h + d`: the slice has one row of H * 128 entries for each sequence position `s`. The reshape
  to [1, 2048, H, 128] keeps the row-major order, so entry (0, s, h, d) is the one at flat position
  `(s * H + h) * 128 + d`; dividing by the row length H * 128 gives back the row `s` and leaves the remainder
  `128 * h + d` as the column. The final transpose only exchanges the roles of `s` and `h` in the index.
-/
import proofs.«155036_j80436147519617_2_alg».proof.Proof.Gen.ReferenceIdeal.Read
import proofs.«155036_j80436147519617_2_alg».proof.Proof.Spec

noncomputable section

namespace Cert.RefValue

open Cert.ReferenceIdeal Cert.ReferenceIdeal.Gen Cert.ReferenceIdeal.Read Idealize.ShloMosaic Idealize.ShloMosaic.ValueIdx

/-- The key result of the reference, at every index, is `∑ k, x[0,0,s,k] * wk[k, 128 h + d]`. -/
theorem ref_k (x0 : (⟨S1x1x2048x8192, .f32⟩ : BufTy).Contents (Elt Ideal)) (x1 : (⟨S8192x8192, .f32⟩ : BufTy).Contents (Elt Ideal))
    (x2 x3 : (⟨S8192x1024, .f32⟩ : BufTy).Contents (Elt Ideal)) :
    Cert.ReferenceIdeal.Read.val_main_v8 (F := Ideal) x0 x1 x2 x3 = Cert.Spec.projKV x0 x2 := by
  funext i
  -- transpose, reshape, slice, contraction: each read at an index of its operand
  rw [val_main_v8_apply, val_main_v7_apply, val_main_v3_apply, val_main_v1_apply]
  unfold Cert.Spec.projKV
  have h0 : (i 0).val < 1 := (i 0).isLt
  have h1 : (i 1).val < 8 := (i 1).isLt
  have h2 : (i 2).val < 2048 := (i 2).isLt
  have h3 : (i 3).val < 128 := (i 3).isLt
  refine Finset.sum_congr rfl fun k _ => ?_
  -- the activation is read at (0, 0, s, k): the flat position (s * 8 + h) * 128 + d divided by 1024 is s
  have ex : lidx_main_v1 (idx_main_v3 (idx_main_v7 (idx_main_v8 i))) k
      = ix4 (0 : Fin 1) (0 : Fin 1) (⟨(i 2).val, (i 2).isLt⟩ : Fin 2048) k :=
    funext fun a => Fin.ext (by
      match a with
      | ⟨0, _⟩ => rfl
      | ⟨1, _⟩ => rfl
      | ⟨2, _⟩ =>
        show ((((i 0).val * 2048 + (i 2).val) * 8 + (i 1).val) * 128 + (i 3).val) / 1024 % 2048 = (i 2).val
        omega
      | ⟨3, _⟩ => rfl)
  -- the joined matrix is read at row k and column 8192 + ((s * 8 + h) * 128 + d) % 1024 = 8192 + (128 h + d):
  -- past the 8192 columns before the second piece, at column 128 h + d of that piece
  have ew : val_main_v0 (F := Ideal) x1 x2 x3 (ridx_main_v1 (idx_main_v3 (idx_main_v7 (idx_main_v8 i))) k)
      = x2 (ix2 k (Cert.Spec.col8 ⟨(i 1).val, (i 1).isLt⟩ ⟨(i 3).val, (i 3).isLt⟩)) := by
    unfold val_main_v0
    refine concatenate_apply_piece (1 : Fin S8192x10240.rank) _ _ _ 1 (by simp) S8192x1024 x2 rfl rfl 8192 rfl _
      (fun b hb => ?_) ?_
    · match b with
      | ⟨0, _⟩ => rfl
      | ⟨1, _⟩ => exact absurd rfl hb
    · show 8192 + (128 * (i 1).val + (i 3).val)
        = 8192 + ((((i 0).val * 2048 + (i 2).val) * 8 + (i 1).val) * 128 + (i 3).val) % 1024
      omega
  rw [ex, ew]

end Cert.RefValue

end
-- ==== Proof.RefV.lean ====
/-
  The reference program's value result is the head-split projection of the specification.

  The reference joins the three weight matrices side by side into one matrix with 10240 columns — columns
  0 … 8191 are the query weights, 8192 … 9215 the key weights, 9216 … 10239 the value weights —, multiplies the
  activations by the joined matrix in one contraction over the 8192 rows, and then cuts the product's columns
  back into the three ranges. The value result keeps columns 9216 … 10239, which the joined matrix took from its
  third piece, so each of its elements is a sum over `k < 8192` of an activation times an entry of that one
  weight matrix.

  Why the column is `128 * h + d`: the slice has one row of H * 128 entries for each sequence position `s`. The reshape
  to [1, 2048, H, 128] keeps the row-major order, so entry (0, s, h, d) is the one at flat position
  `(s * H + h) * 128 + d`; dividing by the row length H * 128 gives back the row `s` and leaves the remainder
  `128 * h + d` as the column. The final transpose only exchanges the roles of `s` and `h` in the index.
-/
import proofs.«155036_j80436147519617_2_alg».proof.Proof.Gen.ReferenceIdeal.Read
import proofs.«155036_j80436147519617_2_alg».proof.Proof.Spec

noncomputable section

namespace Cert.RefValue

open Cert.ReferenceIdeal Cert.ReferenceIdeal.Gen Cert.ReferenceIdeal.Read Idealize.ShloMosaic Idealize.ShloMosaic.ValueIdx

/-- The value result of the reference, at every index, is `∑ k, x[0,0,s,k] * wv[k, 128 h + d]`. -/
theorem ref_v (x0 : (⟨S1x1x2048x8192, .f32⟩ : BufTy).Contents (Elt Ideal)) (x1 : (⟨S8192x8192, .f32⟩ : BufTy).Contents (Elt Ideal))
    (x2 x3 : (⟨S8192x1024, .f32⟩ : BufTy).Contents (Elt Ideal)) :
    Cert.ReferenceIdeal.Read.val_main_v10 (F := Ideal) x0 x1 x2 x3 = Cert.Spec.projKV x0 x3 := by
  funext i
  -- transpose, reshape, slice, contraction: each read at an index of its operand
  rw [val_main_v10_apply, val_main_v9_apply, val_main_v4_apply, val_main_v1_apply]
  unfold Cert.Spec.projKV
  have h0 : (i 0).val < 1 := (i 0).isLt
  have h1 : (i 1).val < 8 := (i 1).isLt
  have h2 : (i 2).val < 2048 := (i 2).isLt
  have h3 : (i 3).val < 128 := (i 3).isLt
  refine Finset.sum_congr rfl fun k _ => ?_
  -- the activation is read at (0, 0, s, k): the flat position (s * 8 + h) * 128 + d divided by 1024 is s
  have ex : lidx_main_v1 (idx_main_v4 (idx_main_v9 (idx_main_v10 i))) k
      = ix4 (0 : Fin 1) (0 : Fin 1) (⟨(i 2).val, (i 2).isLt⟩ : Fin 2048) k :=
    funext fun a => Fin.ext (by
      match a with
      | ⟨0, _⟩ => rfl
      | ⟨1, _⟩ => rfl
      | ⟨2, _⟩ =>
        show ((((i 0).val * 2048 + (i 2).val) * 8 + (i 1).val) * 128 + (i 3).val) / 1024 % 2048 = (i 2).val
        omega
      | ⟨3, _⟩ => rfl)
  -- the joined matrix is read at row k and column 9216 + ((s * 8 + h) * 128 + d) % 1024 = 9216 + (128 h + d):
  -- past the 9216 columns before the third piece, at column 128 h + d of that piece
  have ew : val_main_v0 (F := Ideal) x1 x2 x3 (ridx_main_v1 (idx_main_v4 (idx_main_v9 (idx_main_v10 i))) k)
      = x3 (ix2 k (Cert.Spec.col8 ⟨(i 1).val, (i 1).isLt⟩ ⟨(i 3).val, (i 3).isLt⟩)) := by
    unfold val_main_v0
    refine concatenate_apply_piece (1 : Fin S8192x10240.rank) _ _ _ 2 (by simp) S8192x1024 x3 rfl rfl 9216 rfl _
      (fun b hb => ?_) ?_
    · match b with
      | ⟨0, _⟩ => rfl
      | ⟨1, _⟩ => exact absurd rfl hb
    · show 9216 + (128 * (i 1).val + (i 3).val)
        = 9216 + ((((i 0).val * 2048 + (i 2).val) * 8 + (i 1).val) * 128 + (i 3).val) % 1024
      omega
  rw [ex, ew]

end Cert.RefValue

end
-- ==== Proof.RefValue.lean ====
/-
  The reference program's three results are the three head-split projections of the specification:
  `Cert.RefValue.ref_q` (query: columns 0 … 8191 of the joined weight matrix, 64 heads),
  `Cert.RefValue.ref_k` (key: columns 8192 … 9215, 8 heads) and
  `Cert.RefValue.ref_v` (value: columns 9216 … 10239, 8 heads).
  Each is proved in its own module; this one gathers them.
-/
import proofs.«155036_j80436147519617_2_alg».proof.Proof.RefQ
import proofs.«155036_j80436147519617_2_alg».proof.Proof.RefK
import proofs.«155036_j80436147519617_2_alg».proof.Proof.RefV
-- ==== Proof.lean ====
/-
  A fused query / key / value projection, head-split, computed by three tiled matrix-product kernels, against one
  whole matrix product of the activations with the three weight matrices joined side by side.

  Both programs compute, for the query (64 heads) and for the key and the value (8 heads each),
      out[0, h, s, d] = sum over k < 8192 of x[0, 0, s, k] * w[k, 128 h + d]
  on the extended reals (Proof/Spec.lean). The reference does it in one contraction and then slices, reshapes and
  transposes (Proof/RefQ.lean, RefK.lean, RefV.lean read those steps at an index). A kernel call walks 512-column tiles of
  the weights and, inside a tile, 32 blocks of 256 along the contracted axis, adding each block product into an
  accumulator that lives across grid points and starts from zero; at the last block it writes the accumulator, re-laid
  head by head, into the output. The two agree because a finite sum in the commutative monoid (EReal, +) does not
  depend on how its 8192 terms are grouped into 32 blocks (Proof/LibBlockSum.lean); no distributivity or cancellation is
  used, so finiteness of the inputs is never needed. Format changes are the identity on extended reals.

  Per program the frame (it terminates, faults nowhere, leaves its arguments unchanged) comes from running each call's
  body symbolically in its three situations (first, middle, last contraction step), an invariant between grid points
  that says which array the accumulator holds, and the chaining of prologue, three calls and epilogue
  (Proof/KI/*.lean for the idealized program, Proof/KB/*.lean for the word-level one: the same text in the other
  namespace). The idealized program's results are then read off the last boundary (Proof/KI/Result.lean).
-/
import proofs.«155036_j80436147519617_2_alg».proof.Defs
import proofs.«155036_j80436147519617_2_alg».proof.Proof.Gen.Kernel
import proofs.«155036_j80436147519617_2_alg».proof.Proof.Gen.KernelIdeal
import proofs.«155036_j80436147519617_2_alg».proof.Proof.Gen.ReferenceIdeal
import proofs.«155036_j80436147519617_2_alg».proof.Proof.Gen.ReferenceIdeal.Run
import proofs.«155036_j80436147519617_2_alg».proof.Proof.Gen.ReferenceIdeal.Read
import proofs.«155036_j80436147519617_2_alg».proof.Proof.Gen.Pre_finite_inputs
import proofs.«155036_j80436147519617_2_alg».proof.Proof.KB.Args
import proofs.«155036_j80436147519617_2_alg».proof.Proof.KI.Result
import proofs.«155036_j80436147519617_2_alg».proof.Proof.RefValue
import Idealize.ShloMosaic.Adequacy
import Idealize.ShloMosaic.Init

noncomputable section

namespace Cert.Proof

open Idealize.ShloMosaic Idealize.ShloMosaic.TcCoe Idealize.SL.Sem

/-- The word-level program terminates, faults nowhere and leaves its four arguments unchanged. -/
theorem frame_kernel : Cert.frame_Kernel := fun m ρ _ => Cert.Kernel.Fr.frame m ρ

/-- So does the idealized program. -/
theorem frame_kernel_ideal : Cert.frame_KernelIdeal := fun m ρ _ => Cert.KernelIdeal.Fr.frame m ρ

/-- The reference is a straight line of host operations: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing in this program: there is nothing to preserve. -/
theorem preserves : Cert.preserves_Kernel_KernelIdeal := trivial

/-- From memories that agree on the four arguments both idealized programs end with the head-split projections of
    those arguments in their three results: the kernel program by its run read at the last boundary, the reference by
    its run's term read at an index. -/
theorem algebraic : Cert.algebraic_KernelIdeal_ReferenceIdeal := by
  intro m ρ m' ρ' _ hagree
  refine ⟨fun c => Cert.Spec.projQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.projKV (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => Cert.Spec.projKV (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    Cert.KernelIdeal.Fr.run_results m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v6_eq, Cert.RefValue.ref_q, (hagree c).1, (hagree c).2.1]
  · rw [(h c).2.1, Cert.ReferenceIdeal.Read.val_main_v8_eq, Cert.RefValue.ref_k, (hagree c).1, (hagree c).2.2.1]
  · rw [(h c).2.2.1, Cert.ReferenceIdeal.Read.val_main_v10_eq, Cert.RefValue.ref_v, (hagree c).1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
